-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S100000 : Shape := ⟨1, ![100000]⟩
abbrev S4 : Shape := ⟨1, ![4]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4 : S_.BroadcastsInDim S4 (![] : Fin 0 → Fin S4.rank)
  reducesTo_S4_S_d0 : S4.ReducesTo [0] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x4 .f32) (main_arg1 : IVec S2x3200000 32) (main_arg2 : IVec S100000 32) (main_arg3 : FVec F S4 .f32) (main_arg4 : FVec F S4 .f32) (main_arg5 : FVec F S4x64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg4
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x4 : Shape := ⟨2, ![100000, 4]⟩
abbrev S2x3200000 : Shape := ⟨2, ![2, 3200000]⟩
abbrev S100000 : Shape := ⟨1, ![100000]⟩
abbrev S4 : Shape := ⟨1, ![4]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S1x4 : Shape := ⟨2, ![1, 4]⟩
abbrev S100000x64 : Shape := ⟨2, ![100000, 64]⟩
abbrev S10000x4 : Shape := ⟨2, ![10000, 4]⟩
abbrev S10000x64 : Shape := ⟨2, ![10000, 64]⟩
abbrev S3200000x64 : Shape := ⟨2, ![3200000, 64]⟩
abbrev S10000x1 : Shape := ⟨2, ![10000, 1]⟩
abbrev S1x64 : Shape := ⟨2, ![1, 64]⟩
abbrev S1x1 : Shape := ⟨2, ![1, 1]⟩

abbrev nBuf : Space → Nat
  | .hbm => 142
  | .vmem => 46
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S4, .f32⟩
  | 4 => ⟨S4, .f32⟩
  | 5 => ⟨S4x64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x1, .f32⟩
  | 16 => ⟨S1, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S3200000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S3200000x1, .f32⟩
  | 51 => ⟨S_, .f32⟩
  | 52 => ⟨S100000, .f32⟩
  | 53 => ⟨S100000, .f32⟩
  | 54 => ⟨S100000x1, .f32⟩
  | 55 => ⟨S_, .f32⟩
  | 56 => ⟨S4, .f32⟩
  | 57 => ⟨S_, .f32⟩
  | 58 => ⟨S4, .f32⟩
  | 59 => ⟨S4, .f32⟩
  | 60 => ⟨S_, .i32⟩
  | 61 => ⟨S_, .f32⟩
  | 62 => ⟨S4, .f32⟩
  | 63 => ⟨S1x4, .f32⟩
  | 64 => ⟨S_, .f32⟩
  | 65 => ⟨S1x4, .f32⟩
  | 66 => ⟨S1x4, .f32⟩
  | 67 => ⟨S100000x4, .f32⟩
  | 68 => ⟨S100000x4, .f32⟩
  | 69 => ⟨S100000x4, .f32⟩
  | 70 => ⟨S_, .f32⟩
  | 71 => ⟨S_, .f32⟩
  | 72 => ⟨S_, .f32⟩
  | 73 => ⟨S_, .f32⟩
  | 74 => ⟨S4, .f32⟩
  | 75 => ⟨S4, .f32⟩
  | 76 => ⟨S4, .f32⟩
  | 77 => ⟨S_, .f32⟩
  | 78 => ⟨S_, .i1⟩
  | 79 => ⟨S_, .f32⟩
  | 80 => ⟨S_, .f32⟩
  | 81 => ⟨S4, .f32⟩
  | 82 => ⟨S4, .f32⟩
  | 83 => ⟨S1x4, .f32⟩
  | 84 => ⟨S100000x4, .f32⟩
  | 85 => ⟨S100000x4, .f32⟩
  | 86 => ⟨S_, .f32⟩
  | 87 => ⟨S4, .f32⟩
  | 88 => ⟨S4, .f32⟩
  | 89 => ⟨S4, .f32⟩
  | 90 => ⟨S1x4, .f32⟩
  | 91 => ⟨S100000x4, .f32⟩
  | 92 => ⟨S100000x4, .f32⟩
  | 93 => ⟨S1x4, .f32⟩
  | 94 => ⟨S100000x4, .f32⟩
  | 95 => ⟨S100000x4, .f32⟩
  | 96 => ⟨S1x4, .f32⟩
  | 97 => ⟨S100000x4, .f32⟩
  | 98 => ⟨S100000x4, .f32⟩
  | 99 => ⟨S100000x64, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x64, .f32⟩
  | 109 => ⟨S3200000x64, .f32⟩
  | 110 => ⟨S_, .f32⟩
  | 111 => ⟨S100000x64, .f32⟩
  | 112 => ⟨S3200000x1, .i32⟩
  | 113 => ⟨S100000x64, .f32⟩
  | 114 => ⟨S1x64, .f32⟩
  | 115 => ⟨S100000x64, .f32⟩
  | 116 => ⟨S_, .i32⟩
  | 117 => ⟨S3200000, .i32⟩
  | 118 => ⟨S3200000, .i1⟩
  | 119 => ⟨S_, .i32⟩
  | 120 => ⟨S3200000, .i32⟩
  | 121 => ⟨S3200000, .i32⟩
  | 122 => ⟨S3200000, .i32⟩
  | 123 => ⟨S3200000x1, .i32⟩
  | 124 => ⟨S3200000x64, .f32⟩
  | 125 => ⟨S3200000x64, .f32⟩
  | 126 => ⟨S_, .f32⟩
  | 127 => ⟨S100000x64, .f32⟩
  | _ => ⟨S100000x4, .f32⟩

abbrev hbmTy0_1 (i : Nat) : BufTy := match i % 128 with
  | 0 => ⟨S3200000x1, .i32⟩
  | 1 => ⟨S100000x64, .f32⟩
  | 2 => ⟨S1x64, .f32⟩
  | 3 => ⟨S100000x64, .f32⟩
  | 4 => ⟨S_, .f32⟩
  | 5 => ⟨S64x64, .f32⟩
  | 6 => ⟨S100000x1, .i32⟩
  | 7 => ⟨S64x64, .f32⟩
  | 8 => ⟨S1x64, .f32⟩
  | 9 => ⟨S1x64, .f32⟩
  | 10 => ⟨S1x64, .f32⟩
  | 11 => ⟨S1x64, .f32⟩
  | 12 => ⟨S1x1, .f32⟩
  | 13 => ⟨S64x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S1x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x1, .f32⟩
  | .local _ .vmem, ⟨32, _⟩ => ⟨S10000x1, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S1x64, .f32⟩
  | .local _ .vmem, ⟨38, _⟩ => ⟨S1x64, .f32⟩
  | .local _ .vmem, ⟨39, _⟩ => ⟨S64x64, .f32⟩
  | .local _ .vmem, ⟨40, _⟩ => ⟨S1x64, .f32⟩
  | .local _ .vmem, ⟨41, _⟩ => ⟨S64x64, .f32⟩
  | .local _ .vmem, ⟨42, _⟩ => ⟨S1x64, .f32⟩
  | .local _ .vmem, ⟨43, _⟩ => ⟨S64x1, .f32⟩
  | .local _ .vmem, ⟨44, _⟩ => ⟨S1x1, .f32⟩
  | .local _ .vmem, ⟨45, _⟩ => ⟨S64x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_cst_3 : Ref sig .tc := ⟨.hbm, 77, rfl⟩
abbrev main_call0_v12 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_9 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_10 : Ref sig .tc := ⟨.hbm, 100, rfl⟩
abbrev main_v50 : Ref sig .tc := ⟨.hbm, 101, rfl⟩
abbrev main_v51 : Ref sig .tc := ⟨.hbm, 102, rfl⟩
abbrev main_c_11 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_12 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_c_13 : Ref sig .tc := ⟨.hbm, 116, rfl⟩
abbrev main_v63 : Ref sig .tc := ⟨.hbm, 117, rfl⟩
abbrev main_v64 : Ref sig .tc := ⟨.hbm, 118, rfl⟩
abbrev main_c_14 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_15 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_16 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg7_0 : Ref sig .tc := ⟨.vmem, 43, rfl⟩
abbrev cc5_stg8_0 : Ref sig .tc := ⟨.vmem, 44, rfl⟩
abbrev cc5_stg9_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem7_0 : DmaSem sig := 43
abbrev cc5_sem8_0 : DmaSem sig := 44
abbrev cc5_sem9_0 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![320], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S3200000_S3200000x1 : S3200000.ShapeCasts S3200000x1
  shapeCasts_S100000_S100000x1 : S100000.ShapeCasts S100000x1
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S100000x4_0_1 : S1x4.BroadcastsInDim S100000x4 (![0, 1] : Fin 2 → Fin S100000x4.rank)
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  shapeCasts_S1_S1x1 : S1.ShapeCasts S1x1
  shapeCasts_S64x64_S64x64 : S64x64.ShapeCasts S64x64
  reduces_S64x64_S64 : S64x64.Reduces [0] S64
  broadcasts_S1x64_S64x64 : S1x64.Broadcasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x4_S4x64_S10000x64_1_0_0_1_n_n_wf : DotDims.WF S10000x4 S4x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S64x64_S100000x1_S100000x64_1_0_0_1_wf : ScatterDims.WF S64x64 S100000x1 S100000x64 [1] [0] [0] 1
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S3200000x64.size a
  hwx1_0 : ∀ i : grid1.Coords, EltTy.bits .f32 = 32 ∨ (Rect.block (s := S3200000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S3200000x1.size a
  hwx1_1 : ∀ i : grid1.Coords, EltTy.bits .f32 = 32 ∨ (Rect.block (s := S3200000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S3200000x64.size a
  hwx1_2 : ∀ i : grid1.Coords, EltTy.bits .f32 = 32 ∨ (Rect.block (s := S3200000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S3200000x64.size a
  hwx3_0 : ∀ i : grid3.Coords, EltTy.bits .f32 = 32 ∨ (Rect.block (s := S3200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S3200000x1.size a
  hwx3_1 : ∀ i : grid3.Coords, EltTy.bits .f32 = 32 ∨ (Rect.block (s := S3200000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S3200000x64.size a
  hwx3_2 : ∀ i : grid3.Coords, EltTy.bits .f32 = 32 ∨ (Rect.block (s := S3200000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x64.size a ≤ S64x64.size a
  hwx5_0 : ∀ i : grid5.Coords, EltTy.bits .f32 = 32 ∨ (Rect.block (s := S64x64) S64x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x1.size a ≤ S64x1.size a
  hwx5_7 : ∀ i : grid5.Coords, EltTy.bits .f32 = 32 ∨ (Rect.block (s := S64x1) S64x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x1.size a ≤ S1x1.size a
  hwx5_8 : ∀ i : grid5.Coords, EltTy.bits .f32 = 32 ∨ (Rect.block (s := S1x1) S1x1.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64x1.size a ≤ S64x1.size a
  hwx5_9 : ∀ i : grid5.Coords, EltTy.bits .f32 = 32 ∨ (Rect.block (s := S64x1) S64x1.size (cc5_transform_9 i) (hinb5_9 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v48) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v78) S64x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg13) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v82) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg15) S64x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v83) S1x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v84) S64x1.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S100000 : Shape := ⟨1, ![100000]⟩
abbrev S4 : Shape := ⟨1, ![4]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S1x4 : Shape := ⟨2, ![1, 4]⟩
abbrev S100000x64 : Shape := ⟨2, ![100000, 64]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S4, .f32⟩
  | 4 => ⟨S4, .f32⟩
  | 5 => ⟨S4x64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x1, .f32⟩
  | 16 => ⟨S1, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S4, .f32⟩
  | 23 => ⟨S_, .f32⟩
  | 24 => ⟨S4, .f32⟩
  | 25 => ⟨S4, .f32⟩
  | 26 => ⟨S_, .i32⟩
  | 27 => ⟨S_, .f32⟩
  | 28 => ⟨S4, .f32⟩
  | 29 => ⟨S1x4, .f32⟩
  | 30 => ⟨S_, .f32⟩
  | 31 => ⟨S1x4, .f32⟩
  | 32 => ⟨S1x4, .f32⟩
  | 33 => ⟨S100000x4, .f32⟩
  | 34 => ⟨S100000x4, .f32⟩
  | 35 => ⟨S100000x4, .f32⟩
  | 36 => ⟨S_, .f32⟩
  | 37 => ⟨S_, .f32⟩
  | 38 => ⟨S_, .f32⟩
  | 39 => ⟨S_, .f32⟩
  | 40 => ⟨S4, .f32⟩
  | 41 => ⟨S4, .f32⟩
  | 42 => ⟨S4, .f32⟩
  | 43 => ⟨S_, .f32⟩
  | 44 => ⟨S_, .i1⟩
  | 45 => ⟨S_, .f32⟩
  | 46 => ⟨S_, .f32⟩
  | 47 => ⟨S4, .f32⟩
  | 48 => ⟨S4, .f32⟩
  | 49 => ⟨S1x4, .f32⟩
  | 50 => ⟨S100000x4, .f32⟩
  | 51 => ⟨S100000x4, .f32⟩
  | 52 => ⟨S_, .f32⟩
  | 53 => ⟨S4, .f32⟩
  | 54 => ⟨S4, .f32⟩
  | 55 => ⟨S4, .f32⟩
  | 56 => ⟨S1x4, .f32⟩
  | 57 => ⟨S100000x4, .f32⟩
  | 58 => ⟨S100000x4, .f32⟩
  | 59 => ⟨S1x4, .f32⟩
  | 60 => ⟨S100000x4, .f32⟩
  | 61 => ⟨S100000x4, .f32⟩
  | 62 => ⟨S1x4, .f32⟩
  | 63 => ⟨S100000x4, .f32⟩
  | 64 => ⟨S100000x4, .f32⟩
  | 65 => ⟨S100000x64, .f32⟩
  | 66 => ⟨S_, .f32⟩
  | 67 => ⟨S3200000, .f32⟩
  | 68 => ⟨S_, .f32⟩
  | 69 => ⟨S100000, .f32⟩
  | 70 => ⟨S3200000x1, .i32⟩
  | 71 => ⟨S100000, .f32⟩
  | 72 => ⟨S_, .f32⟩
  | 73 => ⟨S100000, .f32⟩
  | 74 => ⟨S100000, .f32⟩
  | 75 => ⟨S100000, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000, .f32⟩
  | 94 => ⟨S3200000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x64, .f32⟩
  | 104 => ⟨S3200000x1, .f32⟩
  | 105 => ⟨S3200000x64, .f32⟩
  | 106 => ⟨S3200000x64, .f32⟩
  | 107 => ⟨S_, .f32⟩
  | 108 => ⟨S100000x64, .f32⟩
  | 109 => ⟨S3200000x1, .i32⟩
  | 110 => ⟨S100000x64, .f32⟩
  | 111 => ⟨S_, .f32⟩
  | 112 => ⟨S100000, .f32⟩
  | 113 => ⟨S100000, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S3200000, .f32⟩
  | 124 => ⟨S_, .f32⟩
  | 125 => ⟨S100000, .f32⟩
  | 126 => ⟨S3200000x1, .i32⟩
  | 127 => ⟨S100000, .f32⟩
  | _ => ⟨S100000x4, .f32⟩

abbrev hbmTy0_1 (i : Nat) : BufTy := match i % 128 with
  | 0 => ⟨S_, .f32⟩
  | 1 => ⟨S100000, .f32⟩
  | 2 => ⟨S100000, .f32⟩
  | 3 => ⟨S100000, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S3200000, .f32⟩
  | 22 => ⟨S3200000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x64, .f32⟩
  | 32 => ⟨S3200000x1, .f32⟩
  | 33 => ⟨S3200000x64, .f32⟩
  | 34 => ⟨S3200000x64, .f32⟩
  | 35 => ⟨S_, .f32⟩
  | 36 => ⟨S100000x64, .f32⟩
  | 37 => ⟨S3200000x1, .i32⟩
  | 38 => ⟨S100000x64, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64x64, .f32⟩
  | 51 => ⟨S100000x1, .i32⟩
  | 52 => ⟨S64x64, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S64x64, .f32⟩
  | 66 => ⟨S64x64, .f32⟩
  | 67 => ⟨S64x64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S_, .i1⟩
  | 77 => ⟨S_, .f32⟩
  | 78 => ⟨S_, .f32⟩
  | 79 => ⟨S64, .f32⟩
  | 80 => ⟨S64, .f32⟩
  | 81 => ⟨S1x64, .f32⟩
  | 82 => ⟨S64x64, .f32⟩
  | 83 => ⟨S64x64, .f32⟩
  | 84 => ⟨S_, .f32⟩
  | 85 => ⟨S64, .f32⟩
  | 86 => ⟨S64, .f32⟩
  | 87 => ⟨S64, .f32⟩
  | 88 => ⟨S1x64, .f32⟩
  | 89 => ⟨S64x64, .f32⟩
  | 90 => ⟨S64x64, .f32⟩
  | 91 => ⟨S1x64, .f32⟩
  | 92 => ⟨S64x64, .f32⟩
  | 93 => ⟨S64x64, .f32⟩
  | 94 => ⟨S1x64, .f32⟩
  | 95 => ⟨S64x64, .f32⟩
  | 96 => ⟨S64x64, .f32⟩
  | 97 => ⟨S64x64, .f32⟩
  | 98 => ⟨S1x64, .f32⟩
  | 99 => ⟨S64x64, .f32⟩
  | 100 => ⟨S64x64, .f32⟩
  | 101 => ⟨S64x64, .f32⟩
  | 102 => ⟨S1x64, .f32⟩
  | 103 => ⟨S64x64, .f32⟩
  | 104 => ⟨S64x64, .f32⟩
  | 105 => ⟨S64x1, .f32⟩
  | 106 => ⟨S1x1, .f32⟩
  | 107 => ⟨S64x1, .f32⟩
  | 108 => ⟨S64x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_2 : Ref sig .tc := ⟨.hbm, 66, rfl⟩
abbrev main_v24 : Ref sig .tc := ⟨.hbm, 67, rfl⟩
abbrev main_cst_3 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_4 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_5 : Ref sig .tc := ⟨.hbm, 76, rfl⟩
abbrev main_v31 : Ref sig .tc := ⟨.hbm, 77, rfl⟩
abbrev main_v32 : Ref sig .tc := ⟨.hbm, 78, rfl⟩
abbrev main_c_6 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_c_7 : Ref sig .tc := ⟨.hbm, 85, rfl⟩
abbrev main_v38 : Ref sig .tc := ⟨.hbm, 86, rfl⟩
abbrev main_v39 : Ref sig .tc := ⟨.hbm, 87, rfl⟩
abbrev main_c_8 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c_9 : Ref sig .tc := ⟨.hbm, 95, rfl⟩
abbrev main_v46 : Ref sig .tc := ⟨.hbm, 96, rfl⟩
abbrev main_v47 : Ref sig .tc := ⟨.hbm, 97, rfl⟩
abbrev main_c_10 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_11 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_12 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_13 : Ref sig .tc := ⟨.hbm, 122, rfl⟩
abbrev main_v69 : Ref sig .tc := ⟨.hbm, 123, rfl⟩
abbrev main_cst_14 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_15 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_c_16 : Ref sig .tc := ⟨.hbm, 132, rfl⟩
abbrev main_v76 : Ref sig .tc := ⟨.hbm, 133, rfl⟩
abbrev main_v77 : Ref sig .tc := ⟨.hbm, 134, rfl⟩
abbrev main_c_17 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_c_18 : Ref sig .tc := ⟨.hbm, 141, rfl⟩
abbrev main_v83 : Ref sig .tc := ⟨.hbm, 142, rfl⟩
abbrev main_v84 : Ref sig .tc := ⟨.hbm, 143, rfl⟩
abbrev main_c_19 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_c_20 : Ref sig .tc := ⟨.hbm, 151, rfl⟩
abbrev main_v91 : Ref sig .tc := ⟨.hbm, 152, rfl⟩
abbrev main_v92 : Ref sig .tc := ⟨.hbm, 153, rfl⟩
abbrev main_c_21 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_22 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_23 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_24 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_cst_25 : Ref sig .tc := ⟨.hbm, 181, rfl⟩
abbrev main_v116 : Ref sig .tc := ⟨.hbm, 182, rfl⟩
abbrev main_cst_26 : Ref sig .tc := ⟨.hbm, 183, rfl⟩
abbrev main_v117 : Ref sig .tc := ⟨.hbm, 184, rfl⟩
abbrev main_v118 : Ref sig .tc := ⟨.hbm, 185, rfl⟩
abbrev main_c_27 : Ref sig .tc := ⟨.hbm, 186, rfl⟩
abbrev main_call1_cst : Ref sig .tc := ⟨.hbm, 187, rfl⟩
abbrev main_call1_v0 : Ref sig .tc := ⟨.hbm, 188, rfl⟩
abbrev main_call1_v1 : Ref sig .tc := ⟨.hbm, 189, rfl⟩
abbrev main_call1_cst_0 : Ref sig .tc := ⟨.hbm, 190, rfl⟩
abbrev main_call1_v2 : Ref sig .tc := ⟨.hbm, 191, rfl⟩
abbrev main_call1_v3 : Ref sig .tc := ⟨.hbm, 192, rfl⟩
abbrev main_call1_v4 : Ref sig .tc := ⟨.hbm, 193, rfl⟩
abbrev main_call1_v5 : Ref sig .tc := ⟨.hbm, 194, rfl⟩
abbrev main_call1_v6 : Ref sig .tc := ⟨.hbm, 195, rfl⟩
abbrev main_call1_v7 : Ref sig .tc := ⟨.hbm, 196, rfl⟩
abbrev main_call1_cst_1 : Ref sig .tc := ⟨.hbm, 197, rfl⟩
abbrev main_call1_v8 : Ref sig .tc := ⟨.hbm, 198, rfl⟩
abbrev main_call1_cst_2 : Ref sig .tc := ⟨.hbm, 199, rfl⟩
abbrev main_call1_v9 : Ref sig .tc := ⟨.hbm, 200, rfl⟩
abbrev main_call1_v10 : Ref sig .tc := ⟨.hbm, 201, rfl⟩
abbrev main_call1_v11 : Ref sig .tc := ⟨.hbm, 202, rfl⟩
abbrev main_call1_cst_3 : Ref sig .tc := ⟨.hbm, 203, rfl⟩
abbrev main_call1_v12 : Ref sig .tc := ⟨.hbm, 204, rfl⟩
abbrev main_call1_cst_4 : Ref sig .tc := ⟨.hbm, 205, rfl⟩
abbrev main_call1_call0_v0 : Ref sig .tc := ⟨.hbm, 206, rfl⟩
abbrev main_call1_call0_v1 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_28 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S100000x4_0_1 : S1x4.BroadcastsInDim S100000x4 (![0, 1] : Fin 2 → Fin S100000x4.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  reducesTo_S64x64_S64_d0 : S64x64.ReducesTo [0] S64
  bcast_S_S64 : S_.BroadcastsInDim S64 (![] : Fin 0 → Fin S64.rank)
  bcast_S_S1x64 : S_.BroadcastsInDim S1x64 (![] : Fin 0 → Fin S1x64.rank)
  bcast_S1x64_S64x64_0_1 : S1x64.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S100000x4_S4x64_S100000x64_1_0_0_1_n_n_wf : DotDims.WF S100000x4 S4x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []

variable [Facts₀]

def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KRun.lean ====
/-
  The run of the kernel program at the ideal values, with its result named: every weakly fair execution of @main terminates without a fault,
  the result array main_v84 ends holding what the last region's write-backs leave (the contents at the end of the fold
  of @main's fourteen segments, `Gen.W14`), and the seventeen argument arrays end as launched.
-/
import proofs.«168348_j77421080478261_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read against the final state at the result buffer and at each argument. -/
theorem run_named : θ_run defs (onTc (τ := τ) (main (F := F))) ⟨m, fun _ => 0, ρ⟩ (fun r => ∀ c : Dev nD,
      r.2.mem ((c.tc : Thread nD τ).loc main_v84) = W14 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v84 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.KernelIdeal.KRun

end
-- ==== Proof.RefOps.lean ====
/-
  The reference program's host operations, in the program's order, as fifteen consecutive lists `B1 … B15`
  and their concatenation `ops`: each entry is the operation of one statement of the printed @main, and the two
  calls of the variance function stand as the callee's operations over the call's own buffers, its nested
  selection included. Each block's first and last result buffers:
    B1: main_v0 … main_v3 (4 operations)
    B2: main_cst … main_v22 (44 operations)
    B3: main_v23 … main_v23 (1 operation)
    B4: main_cst_2 … main_v45 (29 operations)
    B5: main_c_9 … main_v52 (9 operations)
    B6: main_v53 … main_v55 (3 operations)
    B7: main_cst_11 … main_v58 (4 operations)
    B8: main_cst_12 … main_v68 (11 operations)
    B9: main_cst_13 … main_v90 (29 operations)
    B10: main_c_20 … main_v97 (9 operations)
    B11: main_v98 … main_v100 (3 operations)
    B12: main_cst_22 … main_v103 (4 operations)
    B13: main_cst_23 … main_v112 (10 operations)
    B14: main_cst_24 … main_v115 (4 operations)
    B15: main_cst_25 … main_v146 (56 operations)
  In all 220 operations; the printed windows of @main end after operations 81, 141, 220.
-/
import proofs.«168348_j77421080478261_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4: the buffers main_v0 … main_v3. -/
abbrev B1 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000 ]

/-- Operations 5 … 48: the buffers main_cst … main_v22. -/
abbrev B2 : List (HloOp τ sig (Elt F)) :=
  [ StableHlo.nullary main_cst (constant S_ .f32 0x00000000#32),
    StableHlo.binary main_arg0 main_cst main_v4 ((fun x v => Host.reduceAdd x v reducesTo_S100000x4_S4_d0 h_S_) : (⟨S100000x4, .f32⟩ : BufTy).Contents (Elt F) → (⟨S_, .f32⟩ : BufTy).Contents (Elt F) → (⟨S4, .f32⟩ : BufTy).Contents (Elt F)),
    StableHlo.nullary main_cst_0 (constant S_ .f32 0x47C35000#32),
    StableHlo.unary main_cst_0 main_v5 (broadcastInDim S4 ![] bcast_S_S4 : (⟨S_, .f32⟩ : BufTy).Contents (Elt F) → (⟨S4, .f32⟩ : BufTy).Contents (Elt F)),
    StableHlo.binary main_v4 main_v5 main_v6 (Host.divf : (⟨S4, .f32⟩ : BufTy).Contents (Elt F) → (⟨S4, .f32⟩ : BufTy).Contents (Elt F) → (⟨S4, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S100000x4, .f32⟩) (.of main_call0_cst : StableHlo.TRef sig ⟨S_, .f32⟩) (.of main_call0_v0 : StableHlo.TRef sig ⟨S4, .f32⟩) (fun x v => Host.reduceAdd x v reducesTo_S100000x4_S4_d0 h_S_),
    StableHlo.TRef.unary (.of main_call0_v0 : StableHlo.TRef sig ⟨S4, .f32⟩) (.of main_call0_v1 : StableHlo.TRef sig ⟨S1x4, .f32⟩) (broadcastInDim S1x4 ![1] bcast_S4_S1x4_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x4, .f32⟩) (broadcastInDim S1x4 ![] bcast_S_S1x4),
    StableHlo.TRef.binary (.of main_call0_v1 : StableHlo.TRef sig ⟨S1x4, .f32⟩) (.of main_call0_v2 : StableHlo.TRef sig ⟨S1x4, .f32⟩) (.of main_call0_v3 : StableHlo.TRef sig ⟨S1x4, .f32⟩) Host.divf,
    StableHlo.TRef.unary (.of main_call0_v3 : StableHlo.TRef sig ⟨S1x4, .f32⟩) (.of main_call0_v4 : StableHlo.TRef sig ⟨S100000x4, .f32⟩) (broadcastInDim S100000x4 ![0, 1] bcast_S1x4_S100000x4_0_1),
    StableHlo.TRef.binary (.of main_arg0 : StableHlo.TRef sig ⟨S100000x4, .f32⟩) (.of main_call0_v4 : StableHlo.TRef sig ⟨S100000x4, .f32⟩) (.of main_call0_v5 : StableHlo.TRef sig ⟨S100000x4, .f32⟩) subf,
    StableHlo.TRef.binary (.of main_call0_v5 : StableHlo.TRef sig ⟨S100000x4, .f32⟩) (.of main_call0_v5 : StableHlo.TRef sig ⟨S100000x4, .f32⟩) (.of main_call0_v6 : StableHlo.TRef sig ⟨S100000x4, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x4, .f32⟩) (.of main_call0_cst_2 : StableHlo.TRef sig ⟨S_, .f32⟩) (.of main_call0_v9 : StableHlo.TRef sig ⟨S4, .f32⟩) (fun x v => Host.reduceAdd x v reducesTo_S100000x4_S4_d0 h_S_),
    StableHlo.TRef.unary (.of main_call0_v8 : StableHlo.TRef sig ⟨S_, .f32⟩) (.of main_call0_v10 : StableHlo.TRef sig ⟨S4, .f32⟩) (broadcastInDim S4 ![] bcast_S_S4),
    StableHlo.TRef.binary (.of main_call0_v9 : StableHlo.TRef sig ⟨S4, .f32⟩) (.of main_call0_v10 : StableHlo.TRef sig ⟨S4, .f32⟩) (.of main_call0_v11 : StableHlo.TRef sig ⟨S4, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S4, .f32⟩) (broadcastInDim S4 ![] bcast_S_S4),
    StableHlo.TRef.ternary (.of main_call0_v12 : StableHlo.TRef sig ⟨S_, .i1⟩) (.of main_call0_v11 : StableHlo.TRef sig ⟨S4, .f32⟩) (.of main_call0_call0_v1 : StableHlo.TRef sig ⟨S4, .f32⟩) (.of main_v7 : StableHlo.TRef sig ⟨S4, .f32⟩) (fun p a b => select (broadcastInDim S4 ![] bcast_S_S4 p) a b),
    StableHlo.unary main_v6 main_v8 (broadcastInDim S1x4 ![1] bcast_S4_S1x4_1 : (⟨S4, .f32⟩ : BufTy).Contents (Elt F) → (⟨S1x4, .f32⟩ : BufTy).Contents (Elt F)),
    StableHlo.unary main_v8 main_v9 (broadcastInDim S100000x4 ![0, 1] bcast_S1x4_S100000x4_0_1 : (⟨S1x4, .f32⟩ : BufTy).Contents (Elt F) → (⟨S100000x4, .f32⟩ : BufTy).Contents (Elt F)),
    StableHlo.binary main_arg0 main_v9 main_v10 (subf : (⟨S100000x4, .f32⟩ : BufTy).Contents (Elt F) → (⟨S100000x4, .f32⟩ : BufTy).Contents (Elt F) → (⟨S100000x4, .f32⟩ : BufTy).Contents (Elt F)),
    StableHlo.nullary main_cst_1 (constant S_ .f32 0x3727C5AC#32),
    StableHlo.unary main_cst_1 main_v11 (broadcastInDim S4 ![] bcast_S_S4 : (⟨S_, .f32⟩ : BufTy).Contents (Elt F) → (⟨S4, .f32⟩ : BufTy).Contents (Elt F)),
    StableHlo.binary main_v7 main_v11 main_v12 (addf : (⟨S4, .f32⟩ : BufTy).Contents (Elt F) → (⟨S4, .f32⟩ : BufTy).Contents (Elt F) → (⟨S4, .f32⟩ : BufTy).Contents (Elt F)),
    StableHlo.unary main_v12 main_v13 (Host.rsqrt : (⟨S4, .f32⟩ : BufTy).Contents (Elt F) → (⟨S4, .f32⟩ : BufTy).Contents (Elt F)),
    StableHlo.unary main_v13 main_v14 (broadcastInDim S1x4 ![1] bcast_S4_S1x4_1 : (⟨S4, .f32⟩ : BufTy).Contents (Elt F) → (⟨S1x4, .f32⟩ : BufTy).Contents (Elt F)),
    StableHlo.unary main_v14 main_v15 (broadcastInDim S100000x4 ![0, 1] bcast_S1x4_S100000x4_0_1 : (⟨S1x4, .f32⟩ : BufTy).Contents (Elt F) → (⟨S100000x4, .f32⟩ : BufTy).Contents (Elt F)),
    StableHlo.binary main_v10 main_v15 main_v16 (mulf : (⟨S100000x4, .f32⟩ : BufTy).Contents (Elt F) → (⟨S100000x4, .f32⟩ : BufTy).Contents (Elt F) → (⟨S100000x4, .f32⟩ : BufTy).Contents (Elt F)),
    StableHlo.unary main_arg3 main_v17 (broadcastInDim S1x4 ![1] bcast_S4_S1x4_1 : (⟨S4, .f32⟩ : BufTy).Contents (Elt F) → (⟨S1x4, .f32⟩ : BufTy).Contents (Elt F)),
    StableHlo.unary main_v17 main_v18 (broadcastInDim S100000x4 ![0, 1] bcast_S1x4_S100000x4_0_1 : (⟨S1x4, .f32⟩ : BufTy).Contents (Elt F) → (⟨S100000x4, .f32⟩ : BufTy).Contents (Elt F)),
    StableHlo.binary main_v16 main_v18 main_v19 (mulf : (⟨S100000x4, .f32⟩ : BufTy).Contents (Elt F) → (⟨S100000x4, .f32⟩ : BufTy).Contents (Elt F) → (⟨S100000x4, .f32⟩ : BufTy).Contents (Elt F)),
    StableHlo.unary main_arg4 main_v20 (broadcastInDim S1x4 ![1] bcast_S4_S1x4_1 : (⟨S4, .f32⟩ : BufTy).Contents (Elt F) → (⟨S1x4, .f32⟩ : BufTy).Contents (Elt F)),
    StableHlo.unary main_v20 main_v21 (broadcastInDim S100000x4 ![0, 1] bcast_S1x4_S100000x4_0_1 : (⟨S1x4, .f32⟩ : BufTy).Contents (Elt F) → (⟨S100000x4, .f32⟩ : BufTy).Contents (Elt F)),
    StableHlo.binary main_v19 main_v21 main_v22 (addf : (⟨S100000x4, .f32⟩ : BufTy).Contents (Elt F) → (⟨S100000x4, .f32⟩ : BufTy).Contents (Elt F) → (⟨S100000x4, .f32⟩ : BufTy).Contents (Elt F)) ]

/-- Operations 49 … 49: the buffers main_v23 … main_v23. -/
abbrev B3 : List (HloOp τ sig (Elt F)) :=
  [ StableHlo.binary main_v22 main_arg5 main_v23 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)) ]

/-- Operations 50 … 78: the buffers main_cst_2 … main_v45. -/
abbrev B4 : List (HloOp τ sig (Elt F)) :=
  [ StableHlo.nullary main_cst_2 (constant S_ .f32 0x3F800000#32),
    StableHlo.unary main_cst_2 main_v24 (broadcastInDim S3200000 ![] bcast_S_S3200000 : (⟨S_, .f32⟩ : BufTy).Contents (Elt F) → (⟨S3200000, .f32⟩ : BufTy).Contents (Elt F)),
    StableHlo.nullary main_cst_3 (constant S_ .f32 0x00000000#32),
    StableHlo.unary main_cst_3 main_v25 (broadcastInDim S100000 ![] bcast_S_S100000 : (⟨S_, .f32⟩ : BufTy).Contents (Elt F) → (⟨S100000, .f32⟩ : BufTy).Contents (Elt F)),
    StableHlo.unary main_v3 main_v26 (broadcastInDim S3200000x1 ![0] bcast_S3200000_S3200000x1_0 : (⟨S3200000, .i32⟩ : BufTy).Contents (Elt F) → (⟨S3200000x1, .i32⟩ : BufTy).Contents (Elt F)),
    StableHlo.ternary main_v25 main_v26 main_v24 main_v27 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_4 (constant S_ .f32 0x3F800000#32),
    StableHlo.unary main_cst_4 main_v28 (broadcastInDim S100000 ![] bcast_S_S100000 : (⟨S_, .f32⟩ : BufTy).Contents (Elt F) → (⟨S100000, .f32⟩ : BufTy).Contents (Elt F)),
    StableHlo.binary main_v27 main_v28 main_v29 (addf : (⟨S100000, .f32⟩ : BufTy).Contents (Elt F) → (⟨S100000, .f32⟩ : BufTy).Contents (Elt F) → (⟨S100000, .f32⟩ : BufTy).Contents (Elt F)),
    StableHlo.unary main_v29 main_v30 (Host.rsqrt : (⟨S100000, .f32⟩ : BufTy).Contents (Elt F) → (⟨S100000, .f32⟩ : BufTy).Contents (Elt F)),
    StableHlo.nullary main_c_5 (constantI S_ 32 0#32),
    StableHlo.unary main_c_5 main_v31 (broadcastInDim S3200000 ![] bcast_S_S3200000 : (⟨S_, .i32⟩ : BufTy).Contents (Elt F) → (⟨S3200000, .i32⟩ : BufTy).Contents (Elt F)),
    StableHlo.binary main_v1 main_v31 main_v32 (cmpi .slt : (⟨S3200000, .i32⟩ : BufTy).Contents (Elt F) → (⟨S3200000, .i32⟩ : BufTy).Contents (Elt F) → (⟨S3200000, .i1⟩ : BufTy).Contents (Elt F)),
    StableHlo.nullary main_c_6 (constantI S_ 32 100000#32),
    StableHlo.unary main_c_6 main_v33 (broadcastInDim S3200000 ![] bcast_S_S3200000 : (⟨S_, .i32⟩ : BufTy).Contents (Elt F) → (⟨S3200000, .i32⟩ : BufTy).Contents (Elt F)),
    StableHlo.binary main_v1 main_v33 main_v34 (addi : (⟨S3200000, .i32⟩ : BufTy).Contents (Elt F) → (⟨S3200000, .i32⟩ : BufTy).Contents (Elt F) → (⟨S3200000, .i32⟩ : BufTy).Contents (Elt F)),
    StableHlo.ternary main_v32 main_v34 main_v1 main_v35 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v35 main_v36 (broadcastInDim S3200000x1 ![0] bcast_S3200000_S3200000x1_0 : (⟨S3200000, .i32⟩ : BufTy).Contents (Elt F) → (⟨S3200000x1, .i32⟩ : BufTy).Contents (Elt F)),
    StableHlo.binary main_v30 main_v36 main_v37 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_7 (constantI S_ 32 0#32),
    StableHlo.unary main_c_7 main_v38 (broadcastInDim S3200000 ![] bcast_S_S3200000 : (⟨S_, .i32⟩ : BufTy).Contents (Elt F) → (⟨S3200000, .i32⟩ : BufTy).Contents (Elt F)),
    StableHlo.binary main_v3 main_v38 main_v39 (cmpi .slt : (⟨S3200000, .i32⟩ : BufTy).Contents (Elt F) → (⟨S3200000, .i32⟩ : BufTy).Contents (Elt F) → (⟨S3200000, .i1⟩ : BufTy).Contents (Elt F)),
    StableHlo.nullary main_c_8 (constantI S_ 32 100000#32),
    StableHlo.unary main_c_8 main_v40 (broadcastInDim S3200000 ![] bcast_S_S3200000 : (⟨S_, .i32⟩ : BufTy).Contents (Elt F) → (⟨S3200000, .i32⟩ : BufTy).Contents (Elt F)),
    StableHlo.binary main_v3 main_v40 main_v41 (addi : (⟨S3200000, .i32⟩ : BufTy).Contents (Elt F) → (⟨S3200000, .i32⟩ : BufTy).Contents (Elt F) → (⟨S3200000, .i32⟩ : BufTy).Contents (Elt F)),
    StableHlo.ternary main_v39 main_v41 main_v3 main_v42 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v42 main_v43 (broadcastInDim S3200000x1 ![0] bcast_S3200000_S3200000x1_0 : (⟨S3200000, .i32⟩ : BufTy).Contents (Elt F) → (⟨S3200000x1, .i32⟩ : BufTy).Contents (Elt F)),
    StableHlo.binary main_v30 main_v43 main_v44 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v37 main_v44 main_v45 (mulf : (⟨S3200000, .f32⟩ : BufTy).Contents (Elt F) → (⟨S3200000, .f32⟩ : BufTy).Contents (Elt F) → (⟨S3200000, .f32⟩ : BufTy).Contents (Elt F)) ]

/-- Operations 79 … 87: the buffers main_c_9 … main_v52. -/
abbrev B5 : List (HloOp τ sig (Elt F)) :=
  [ StableHlo.nullary main_c_9 (constantI S_ 32 0#32),
    StableHlo.unary main_c_9 main_v46 (broadcastInDim S3200000 ![] bcast_S_S3200000 : (⟨S_, .i32⟩ : BufTy).Contents (Elt F) → (⟨S3200000, .i32⟩ : BufTy).Contents (Elt F)),
    StableHlo.binary main_v1 main_v46 main_v47 (cmpi .slt : (⟨S3200000, .i32⟩ : BufTy).Contents (Elt F) → (⟨S3200000, .i32⟩ : BufTy).Contents (Elt F) → (⟨S3200000, .i1⟩ : BufTy).Contents (Elt F)),
    StableHlo.nullary main_c_10 (constantI S_ 32 100000#32),
    StableHlo.unary main_c_10 main_v48 (broadcastInDim S3200000 ![] bcast_S_S3200000 : (⟨S_, .i32⟩ : BufTy).Contents (Elt F) → (⟨S3200000, .i32⟩ : BufTy).Contents (Elt F)),
    StableHlo.binary main_v1 main_v48 main_v49 (addi : (⟨S3200000, .i32⟩ : BufTy).Contents (Elt F) → (⟨S3200000, .i32⟩ : BufTy).Contents (Elt F) → (⟨S3200000, .i32⟩ : BufTy).Contents (Elt F)),
    StableHlo.ternary main_v47 main_v49 main_v1 main_v50 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v50 main_v51 (broadcastInDim S3200000x1 ![0] bcast_S3200000_S3200000x1_0 : (⟨S3200000, .i32⟩ : BufTy).Contents (Elt F) → (⟨S3200000x1, .i32⟩ : BufTy).Contents (Elt F)),
    StableHlo.binary main_v23 main_v51 main_v52 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)) ]

/-- Operations 88 … 90: the buffers main_v53 … main_v55. -/
abbrev B6 : List (HloOp τ sig (Elt F)) :=
  [ StableHlo.unary main_v45 main_v53 (broadcastInDim S3200000x1 ![0] bcast_S3200000_S3200000x1_0 : (⟨S3200000, .f32⟩ : BufTy).Contents (Elt F) → (⟨S3200000x1, .f32⟩ : BufTy).Contents (Elt F)),
    StableHlo.unary main_v53 main_v54 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v52 main_v54 main_v55 (mulf : (⟨S3200000x64, .f32⟩ : BufTy).Contents (Elt F) → (⟨S3200000x64, .f32⟩ : BufTy).Contents (Elt F) → (⟨S3200000x64, .f32⟩ : BufTy).Contents (Elt F)) ]

/-- Operations 91 … 94: the buffers main_cst_11 … main_v58. -/
abbrev B7 : List (HloOp τ sig (Elt F)) :=
  [ StableHlo.nullary main_cst_11 (constant S_ .f32 0x00000000#32),
    StableHlo.unary main_cst_11 main_v56 (broadcastInDim S100000x64 ![] bcast_S_S100000x64 : (⟨S_, .f32⟩ : BufTy).Contents (Elt F) → (⟨S100000x64, .f32⟩ : BufTy).Contents (Elt F)),
    StableHlo.unary main_v3 main_v57 (broadcastInDim S3200000x1 ![0] bcast_S3200000_S3200000x1_0 : (⟨S3200000, .i32⟩ : BufTy).Contents (Elt F) → (⟨S3200000x1, .i32⟩ : BufTy).Contents (Elt F)),
    StableHlo.ternary main_v56 main_v57 main_v55 main_v58 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- Operations 95 … 105: the buffers main_cst_12 … main_v68. -/
abbrev B8 : List (HloOp τ sig (Elt F)) :=
  [ StableHlo.nullary main_cst_12 (constant S_ .f32 0x3F800000#32),
    StableHlo.unary main_cst_12 main_v59 (broadcastInDim S100000 ![] bcast_S_S100000 : (⟨S_, .f32⟩ : BufTy).Contents (Elt F) → (⟨S100000, .f32⟩ : BufTy).Contents (Elt F)),
    StableHlo.binary main_v59 main_v29 main_v60 (Host.divf : (⟨S100000, .f32⟩ : BufTy).Contents (Elt F) → (⟨S100000, .f32⟩ : BufTy).Contents (Elt F) → (⟨S100000, .f32⟩ : BufTy).Contents (Elt F)),
    StableHlo.unary main_v60 main_v61 (broadcastInDim S100000x1 ![0] bcast_S100000_S100000x1_0 : (⟨S100000, .f32⟩ : BufTy).Contents (Elt F) → (⟨S100000x1, .f32⟩ : BufTy).Contents (Elt F)),
    StableHlo.unary main_v61 main_v62 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v62 main_v63 (mulf : (⟨S100000x64, .f32⟩ : BufTy).Contents (Elt F) → (⟨S100000x64, .f32⟩ : BufTy).Contents (Elt F) → (⟨S100000x64, .f32⟩ : BufTy).Contents (Elt F)),
    StableHlo.binary main_v58 main_v63 main_v64 (addf : (⟨S100000x64, .f32⟩ : BufTy).Contents (Elt F) → (⟨S100000x64, .f32⟩ : BufTy).Contents (Elt F) → (⟨S100000x64, .f32⟩ : BufTy).Contents (Elt F)),
    StableHlo.unary main_arg6 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)),
    StableHlo.binary main_v67 main_arg7 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 106 … 134: the buffers main_cst_13 … main_v90. -/
abbrev B9 : List (HloOp τ sig (Elt F)) :=
  [ StableHlo.nullary main_cst_13 (constant S_ .f32 0x3F800000#32),
    StableHlo.unary main_cst_13 main_v69 (broadcastInDim S3200000 ![] bcast_S_S3200000 : (⟨S_, .f32⟩ : BufTy).Contents (Elt F) → (⟨S3200000, .f32⟩ : BufTy).Contents (Elt F)),
    StableHlo.nullary main_cst_14 (constant S_ .f32 0x00000000#32),
    StableHlo.unary main_cst_14 main_v70 (broadcastInDim S100000 ![] bcast_S_S100000 : (⟨S_, .f32⟩ : BufTy).Contents (Elt F) → (⟨S100000, .f32⟩ : BufTy).Contents (Elt F)),
    StableHlo.unary main_v3 main_v71 (broadcastInDim S3200000x1 ![0] bcast_S3200000_S3200000x1_0 : (⟨S3200000, .i32⟩ : BufTy).Contents (Elt F) → (⟨S3200000x1, .i32⟩ : BufTy).Contents (Elt F)),
    StableHlo.ternary main_v70 main_v71 main_v69 main_v72 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_15 (constant S_ .f32 0x3F800000#32),
    StableHlo.unary main_cst_15 main_v73 (broadcastInDim S100000 ![] bcast_S_S100000 : (⟨S_, .f32⟩ : BufTy).Contents (Elt F) → (⟨S100000, .f32⟩ : BufTy).Contents (Elt F)),
    StableHlo.binary main_v72 main_v73 main_v74 (addf : (⟨S100000, .f32⟩ : BufTy).Contents (Elt F) → (⟨S100000, .f32⟩ : BufTy).Contents (Elt F) → (⟨S100000, .f32⟩ : BufTy).Contents (Elt F)),
    StableHlo.unary main_v74 main_v75 (Host.rsqrt : (⟨S100000, .f32⟩ : BufTy).Contents (Elt F) → (⟨S100000, .f32⟩ : BufTy).Contents (Elt F)),
    StableHlo.nullary main_c_16 (constantI S_ 32 0#32),
    StableHlo.unary main_c_16 main_v76 (broadcastInDim S3200000 ![] bcast_S_S3200000 : (⟨S_, .i32⟩ : BufTy).Contents (Elt F) → (⟨S3200000, .i32⟩ : BufTy).Contents (Elt F)),
    StableHlo.binary main_v1 main_v76 main_v77 (cmpi .slt : (⟨S3200000, .i32⟩ : BufTy).Contents (Elt F) → (⟨S3200000, .i32⟩ : BufTy).Contents (Elt F) → (⟨S3200000, .i1⟩ : BufTy).Contents (Elt F)),
    StableHlo.nullary main_c_17 (constantI S_ 32 100000#32),
    StableHlo.unary main_c_17 main_v78 (broadcastInDim S3200000 ![] bcast_S_S3200000 : (⟨S_, .i32⟩ : BufTy).Contents (Elt F) → (⟨S3200000, .i32⟩ : BufTy).Contents (Elt F)),
    StableHlo.binary main_v1 main_v78 main_v79 (addi : (⟨S3200000, .i32⟩ : BufTy).Contents (Elt F) → (⟨S3200000, .i32⟩ : BufTy).Contents (Elt F) → (⟨S3200000, .i32⟩ : BufTy).Contents (Elt F)),
    StableHlo.ternary main_v77 main_v79 main_v1 main_v80 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v80 main_v81 (broadcastInDim S3200000x1 ![0] bcast_S3200000_S3200000x1_0 : (⟨S3200000, .i32⟩ : BufTy).Contents (Elt F) → (⟨S3200000x1, .i32⟩ : BufTy).Contents (Elt F)),
    StableHlo.binary main_v75 main_v81 main_v82 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_18 (constantI S_ 32 0#32),
    StableHlo.unary main_c_18 main_v83 (broadcastInDim S3200000 ![] bcast_S_S3200000 : (⟨S_, .i32⟩ : BufTy).Contents (Elt F) → (⟨S3200000, .i32⟩ : BufTy).Contents (Elt F)),
    StableHlo.binary main_v3 main_v83 main_v84 (cmpi .slt : (⟨S3200000, .i32⟩ : BufTy).Contents (Elt F) → (⟨S3200000, .i32⟩ : BufTy).Contents (Elt F) → (⟨S3200000, .i1⟩ : BufTy).Contents (Elt F)),
    StableHlo.nullary main_c_19 (constantI S_ 32 100000#32),
    StableHlo.unary main_c_19 main_v85 (broadcastInDim S3200000 ![] bcast_S_S3200000 : (⟨S_, .i32⟩ : BufTy).Contents (Elt F) → (⟨S3200000, .i32⟩ : BufTy).Contents (Elt F)),
    StableHlo.binary main_v3 main_v85 main_v86 (addi : (⟨S3200000, .i32⟩ : BufTy).Contents (Elt F) → (⟨S3200000, .i32⟩ : BufTy).Contents (Elt F) → (⟨S3200000, .i32⟩ : BufTy).Contents (Elt F)),
    StableHlo.ternary main_v84 main_v86 main_v3 main_v87 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v87 main_v88 (broadcastInDim S3200000x1 ![0] bcast_S3200000_S3200000x1_0 : (⟨S3200000, .i32⟩ : BufTy).Contents (Elt F) → (⟨S3200000x1, .i32⟩ : BufTy).Contents (Elt F)),
    StableHlo.binary main_v75 main_v88 main_v89 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v82 main_v89 main_v90 (mulf : (⟨S3200000, .f32⟩ : BufTy).Contents (Elt F) → (⟨S3200000, .f32⟩ : BufTy).Contents (Elt F) → (⟨S3200000, .f32⟩ : BufTy).Contents (Elt F)) ]

/-- Operations 135 … 143: the buffers main_c_20 … main_v97. -/
abbrev B10 : List (HloOp τ sig (Elt F)) :=
  [ StableHlo.nullary main_c_20 (constantI S_ 32 0#32),
    StableHlo.unary main_c_20 main_v91 (broadcastInDim S3200000 ![] bcast_S_S3200000 : (⟨S_, .i32⟩ : BufTy).Contents (Elt F) → (⟨S3200000, .i32⟩ : BufTy).Contents (Elt F)),
    StableHlo.binary main_v1 main_v91 main_v92 (cmpi .slt : (⟨S3200000, .i32⟩ : BufTy).Contents (Elt F) → (⟨S3200000, .i32⟩ : BufTy).Contents (Elt F) → (⟨S3200000, .i1⟩ : BufTy).Contents (Elt F)),
    StableHlo.nullary main_c_21 (constantI S_ 32 100000#32),
    StableHlo.unary main_c_21 main_v93 (broadcastInDim S3200000 ![] bcast_S_S3200000 : (⟨S_, .i32⟩ : BufTy).Contents (Elt F) → (⟨S3200000, .i32⟩ : BufTy).Contents (Elt F)),
    StableHlo.binary main_v1 main_v93 main_v94 (addi : (⟨S3200000, .i32⟩ : BufTy).Contents (Elt F) → (⟨S3200000, .i32⟩ : BufTy).Contents (Elt F) → (⟨S3200000, .i32⟩ : BufTy).Contents (Elt F)),
    StableHlo.ternary main_v92 main_v94 main_v1 main_v95 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v95 main_v96 (broadcastInDim S3200000x1 ![0] bcast_S3200000_S3200000x1_0 : (⟨S3200000, .i32⟩ : BufTy).Contents (Elt F) → (⟨S3200000x1, .i32⟩ : BufTy).Contents (Elt F)),
    StableHlo.binary main_v68 main_v96 main_v97 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)) ]

/-- Operations 144 … 146: the buffers main_v98 … main_v100. -/
abbrev B11 : List (HloOp τ sig (Elt F)) :=
  [ StableHlo.unary main_v90 main_v98 (broadcastInDim S3200000x1 ![0] bcast_S3200000_S3200000x1_0 : (⟨S3200000, .f32⟩ : BufTy).Contents (Elt F) → (⟨S3200000x1, .f32⟩ : BufTy).Contents (Elt F)),
    StableHlo.unary main_v98 main_v99 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v97 main_v99 main_v100 (mulf : (⟨S3200000x64, .f32⟩ : BufTy).Contents (Elt F) → (⟨S3200000x64, .f32⟩ : BufTy).Contents (Elt F) → (⟨S3200000x64, .f32⟩ : BufTy).Contents (Elt F)) ]

/-- Operations 147 … 150: the buffers main_cst_22 … main_v103. -/
abbrev B12 : List (HloOp τ sig (Elt F)) :=
  [ StableHlo.nullary main_cst_22 (constant S_ .f32 0x00000000#32),
    StableHlo.unary main_cst_22 main_v101 (broadcastInDim S100000x64 ![] bcast_S_S100000x64 : (⟨S_, .f32⟩ : BufTy).Contents (Elt F) → (⟨S100000x64, .f32⟩ : BufTy).Contents (Elt F)),
    StableHlo.unary main_v3 main_v102 (broadcastInDim S3200000x1 ![0] bcast_S3200000_S3200000x1_0 : (⟨S3200000, .i32⟩ : BufTy).Contents (Elt F) → (⟨S3200000x1, .i32⟩ : BufTy).Contents (Elt F)),
    StableHlo.ternary main_v101 main_v102 main_v100 main_v103 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- Operations 151 … 160: the buffers main_cst_23 … main_v112. -/
abbrev B13 : List (HloOp τ sig (Elt F)) :=
  [ StableHlo.nullary main_cst_23 (constant S_ .f32 0x3F800000#32),
    StableHlo.unary main_cst_23 main_v104 (broadcastInDim S100000 ![] bcast_S_S100000 : (⟨S_, .f32⟩ : BufTy).Contents (Elt F) → (⟨S100000, .f32⟩ : BufTy).Contents (Elt F)),
    StableHlo.binary main_v104 main_v74 main_v105 (Host.divf : (⟨S100000, .f32⟩ : BufTy).Contents (Elt F) → (⟨S100000, .f32⟩ : BufTy).Contents (Elt F) → (⟨S100000, .f32⟩ : BufTy).Contents (Elt F)),
    StableHlo.unary main_v105 main_v106 (broadcastInDim S100000x1 ![0] bcast_S100000_S100000x1_0 : (⟨S100000, .f32⟩ : BufTy).Contents (Elt F) → (⟨S100000x1, .f32⟩ : BufTy).Contents (Elt F)),
    StableHlo.unary main_v106 main_v107 (broadcastInDim S100000x64 ![0, 1] bcast_S100000x1_S100000x64_0_1 : (⟨S100000x1, .f32⟩ : BufTy).Contents (Elt F) → (⟨S100000x64, .f32⟩ : BufTy).Contents (Elt F)),
    StableHlo.binary main_v68 main_v107 main_v108 (mulf : (⟨S100000x64, .f32⟩ : BufTy).Contents (Elt F) → (⟨S100000x64, .f32⟩ : BufTy).Contents (Elt F) → (⟨S100000x64, .f32⟩ : BufTy).Contents (Elt F)),
    StableHlo.binary main_v103 main_v108 main_v109 (addf : (⟨S100000x64, .f32⟩ : BufTy).Contents (Elt F) → (⟨S100000x64, .f32⟩ : BufTy).Contents (Elt F) → (⟨S100000x64, .f32⟩ : BufTy).Contents (Elt F)),
    StableHlo.unary main_arg8 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (addf : (⟨S100000x64, .f32⟩ : BufTy).Contents (Elt F) → (⟨S100000x64, .f32⟩ : BufTy).Contents (Elt F) → (⟨S100000x64, .f32⟩ : BufTy).Contents (Elt F)) ]

/-- Operations 161 … 164: the buffers main_cst_24 … main_v115. -/
abbrev B14 : List (HloOp τ sig (Elt F)) :=
  [ StableHlo.nullary main_cst_24 (constant S_ .f32 0x00000000#32),
    StableHlo.unary main_cst_24 main_v113 (broadcastInDim S64x64 ![] bcast_S_S64x64 : (⟨S_, .f32⟩ : BufTy).Contents (Elt F) → (⟨S64x64, .f32⟩ : BufTy).Contents (Elt F)),
    StableHlo.unary main_arg2 main_v114 (broadcastInDim S100000x1 ![0] bcast_S100000_S100000x1_0 : (⟨S100000, .i32⟩ : BufTy).Contents (Elt F) → (⟨S100000x1, .i32⟩ : BufTy).Contents (Elt F)),
    StableHlo.ternary main_v113 main_v114 main_v112 main_v115 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)) ]

/-- Operations 165 … 220: the buffers main_cst_25 … main_v146. -/
abbrev B15 : List (HloOp τ sig (Elt F)) :=
  [ StableHlo.nullary main_cst_25 (constant S_ .f32 0x00000000#32),
    StableHlo.binary main_v115 main_cst_25 main_v116 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    StableHlo.nullary main_cst_26 (constant S_ .f32 0x42800000#32),
    StableHlo.unary main_cst_26 main_v117 (broadcastInDim S64 ![] bcast_S_S64 : (⟨S_, .f32⟩ : BufTy).Contents (Elt F) → (⟨S64, .f32⟩ : BufTy).Contents (Elt F)),
    StableHlo.binary main_v116 main_v117 main_v118 (Host.divf : (⟨S64, .f32⟩ : BufTy).Contents (Elt F) → (⟨S64, .f32⟩ : BufTy).Contents (Elt F) → (⟨S64, .f32⟩ : BufTy).Contents (Elt F)),
    StableHlo.nullary main_c_27 (constantI S_ 32 0#32),
    StableHlo.TRef.nullary (.of main_call1_cst : StableHlo.TRef sig ⟨S_, .f32⟩) (constant S_ .f32 0x00000000#32),
    StableHlo.TRef.binary (.of main_v115 : StableHlo.TRef sig ⟨S64x64, .f32⟩) (.of main_call1_cst : StableHlo.TRef sig ⟨S_, .f32⟩) (.of main_call1_v0 : StableHlo.TRef sig ⟨S64, .f32⟩) (fun x v => Host.reduceAdd x v reducesTo_S64x64_S64_d0 h_S_),
    StableHlo.TRef.unary (.of main_call1_v0 : StableHlo.TRef sig ⟨S64, .f32⟩) (.of main_call1_v1 : StableHlo.TRef sig ⟨S1x64, .f32⟩) (broadcastInDim S1x64 ![1] bcast_S64_S1x64_1),
    StableHlo.TRef.nullary (.of main_call1_cst_0 : StableHlo.TRef sig ⟨S_, .f32⟩) (constant S_ .f32 0x42800000#32),
    StableHlo.TRef.unary (.of main_call1_cst_0 : StableHlo.TRef sig ⟨S_, .f32⟩) (.of main_call1_v2 : StableHlo.TRef sig ⟨S1x64, .f32⟩) (broadcastInDim S1x64 ![] bcast_S_S1x64),
    StableHlo.TRef.binary (.of main_call1_v1 : StableHlo.TRef sig ⟨S1x64, .f32⟩) (.of main_call1_v2 : StableHlo.TRef sig ⟨S1x64, .f32⟩) (.of main_call1_v3 : StableHlo.TRef sig ⟨S1x64, .f32⟩) Host.divf,
    StableHlo.TRef.unary (.of main_call1_v3 : StableHlo.TRef sig ⟨S1x64, .f32⟩) (.of main_call1_v4 : StableHlo.TRef sig ⟨S64x64, .f32⟩) (broadcastInDim S64x64 ![0, 1] bcast_S1x64_S64x64_0_1),
    StableHlo.TRef.binary (.of main_v115 : StableHlo.TRef sig ⟨S64x64, .f32⟩) (.of main_call1_v4 : StableHlo.TRef sig ⟨S64x64, .f32⟩) (.of main_call1_v5 : StableHlo.TRef sig ⟨S64x64, .f32⟩) subf,
    StableHlo.TRef.binary (.of main_call1_v5 : StableHlo.TRef sig ⟨S64x64, .f32⟩) (.of main_call1_v5 : StableHlo.TRef sig ⟨S64x64, .f32⟩) (.of main_call1_v6 : StableHlo.TRef sig ⟨S64x64, .f32⟩) mulf,
    StableHlo.TRef.unary (.of main_c_27 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x42800000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S64x64, .f32⟩) (.of main_call1_cst_2 : StableHlo.TRef sig ⟨S_, .f32⟩) (.of main_call1_v9 : StableHlo.TRef sig ⟨S64, .f32⟩) (fun x v => Host.reduceAdd x v reducesTo_S64x64_S64_d0 h_S_),
    StableHlo.TRef.unary (.of main_call1_v8 : StableHlo.TRef sig ⟨S_, .f32⟩) (.of main_call1_v10 : StableHlo.TRef sig ⟨S64, .f32⟩) (broadcastInDim S64 ![] bcast_S_S64),
    StableHlo.TRef.binary (.of main_call1_v9 : StableHlo.TRef sig ⟨S64, .f32⟩) (.of main_call1_v10 : StableHlo.TRef sig ⟨S64, .f32⟩) (.of main_call1_v11 : StableHlo.TRef sig ⟨S64, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S64, .f32⟩) (broadcastInDim S64 ![] bcast_S_S64),
    StableHlo.TRef.ternary (.of main_call1_v12 : StableHlo.TRef sig ⟨S_, .i1⟩) (.of main_call1_v11 : StableHlo.TRef sig ⟨S64, .f32⟩) (.of main_call1_call0_v1 : StableHlo.TRef sig ⟨S64, .f32⟩) (.of main_v119 : StableHlo.TRef sig ⟨S64, .f32⟩) (fun p a b => select (broadcastInDim S64 ![] bcast_S_S64 p) a b),
    StableHlo.unary main_v118 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S64x64 ![0, 1] bcast_S1x64_S64x64_0_1 : (⟨S1x64, .f32⟩ : BufTy).Contents (Elt F) → (⟨S64x64, .f32⟩ : BufTy).Contents (Elt F)),
    StableHlo.binary main_v115 main_v121 main_v122 (subf : (⟨S64x64, .f32⟩ : BufTy).Contents (Elt F) → (⟨S64x64, .f32⟩ : BufTy).Contents (Elt F) → (⟨S64x64, .f32⟩ : BufTy).Contents (Elt F)),
    StableHlo.nullary main_cst_28 (constant S_ .f32 0x3727C5AC#32),
    StableHlo.unary main_cst_28 main_v123 (broadcastInDim S64 ![] bcast_S_S64 : (⟨S_, .f32⟩ : BufTy).Contents (Elt F) → (⟨S64, .f32⟩ : BufTy).Contents (Elt F)),
    StableHlo.binary main_v119 main_v123 main_v124 (addf : (⟨S64, .f32⟩ : BufTy).Contents (Elt F) → (⟨S64, .f32⟩ : BufTy).Contents (Elt F) → (⟨S64, .f32⟩ : BufTy).Contents (Elt F)),
    StableHlo.unary main_v124 main_v125 (Host.rsqrt : (⟨S64, .f32⟩ : BufTy).Contents (Elt F) → (⟨S64, .f32⟩ : BufTy).Contents (Elt F)),
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S64x64 ![0, 1] bcast_S1x64_S64x64_0_1 : (⟨S1x64, .f32⟩ : BufTy).Contents (Elt F) → (⟨S64x64, .f32⟩ : BufTy).Contents (Elt F)),
    StableHlo.binary main_v122 main_v127 main_v128 (mulf : (⟨S64x64, .f32⟩ : BufTy).Contents (Elt F) → (⟨S64x64, .f32⟩ : BufTy).Contents (Elt F) → (⟨S64x64, .f32⟩ : BufTy).Contents (Elt F)),
    StableHlo.unary main_arg9 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S64x64 ![0, 1] bcast_S1x64_S64x64_0_1 : (⟨S1x64, .f32⟩ : BufTy).Contents (Elt F) → (⟨S64x64, .f32⟩ : BufTy).Contents (Elt F)),
    StableHlo.binary main_v128 main_v130 main_v131 (mulf : (⟨S64x64, .f32⟩ : BufTy).Contents (Elt F) → (⟨S64x64, .f32⟩ : BufTy).Contents (Elt F) → (⟨S64x64, .f32⟩ : BufTy).Contents (Elt F)),
    StableHlo.unary main_arg10 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S64x64 ![0, 1] bcast_S1x64_S64x64_0_1 : (⟨S1x64, .f32⟩ : BufTy).Contents (Elt F) → (⟨S64x64, .f32⟩ : BufTy).Contents (Elt F)),
    StableHlo.binary main_v131 main_v133 main_v134 (addf : (⟨S64x64, .f32⟩ : BufTy).Contents (Elt F) → (⟨S64x64, .f32⟩ : BufTy).Contents (Elt F) → (⟨S64x64, .f32⟩ : BufTy).Contents (Elt F)),
    StableHlo.binary main_v134 main_arg11 main_v135 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.unary main_arg12 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S64x64 ![0, 1] bcast_S1x64_S64x64_0_1 : (⟨S1x64, .f32⟩ : BufTy).Contents (Elt F) → (⟨S64x64, .f32⟩ : BufTy).Contents (Elt F)),
    StableHlo.binary main_v135 main_v137 main_v138 (addf : (⟨S64x64, .f32⟩ : BufTy).Contents (Elt F) → (⟨S64x64, .f32⟩ : BufTy).Contents (Elt F) → (⟨S64x64, .f32⟩ : BufTy).Contents (Elt F)),
    StableHlo.binary main_v138 main_arg13 main_v139 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.unary main_arg14 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S64x64 ![0, 1] bcast_S1x64_S64x64_0_1 : (⟨S1x64, .f32⟩ : BufTy).Contents (Elt F) → (⟨S64x64, .f32⟩ : BufTy).Contents (Elt F)),
    StableHlo.binary main_v139 main_v141 main_v142 (addf : (⟨S64x64, .f32⟩ : BufTy).Contents (Elt F) → (⟨S64x64, .f32⟩ : BufTy).Contents (Elt F) → (⟨S64x64, .f32⟩ : BufTy).Contents (Elt F)),
    StableHlo.binary main_v142 main_arg15 main_v143 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    StableHlo.unary main_arg16 main_v144 (broadcastInDim S1x1 ![1] bcast_S1_S1x1_1 : (⟨S1, .f32⟩ : BufTy).Contents (Elt F) → (⟨S1x1, .f32⟩ : BufTy).Contents (Elt F)),
    StableHlo.unary main_v144 main_v145 (broadcastInDim S64x1 ![0, 1] bcast_S1x1_S64x1_0_1 : (⟨S1x1, .f32⟩ : BufTy).Contents (Elt F) → (⟨S64x1, .f32⟩ : BufTy).Contents (Elt F)),
    StableHlo.binary main_v143 main_v145 main_v146 (addf : (⟨S64x1, .f32⟩ : BufTy).Contents (Elt F) → (⟨S64x1, .f32⟩ : BufTy).Contents (Elt F) → (⟨S64x1, .f32⟩ : BufTy).Contents (Elt F)) ]

/-- The whole program: the fifteen blocks in order (the concatenation associates to the left). -/
abbrev ops : List (HloOp τ sig (Elt F)) :=
  B1 ++ B2 ++ B3 ++ B4 ++ B5 ++ B6 ++ B7 ++ B8 ++ B9 ++ B10 ++ B11 ++ B12 ++ B13 ++ B14 ++ B15

end Cert.ReferenceIdeal.RefRun

end
-- ==== Proof.RefRun.lean ====
/-
  The reference program runs to the fold of its operations.

  The printed @main is three consecutive windows of statements; each window is, by unfolding, the straight line of
  the operations it lists — the two calls of the variance function unfold into the callee's operations over the
  call's own buffers — and three straight lines run one after the other are their concatenation run as one
  (`seq_append`). The windows' ends fall inside the fifth and the tenth block of `ops` (after three and after seven of
  their nine operations), so the windows are written with `List.take` and `List.drop` of those two blocks. Every
  operation reads and writes TensorCore buffers only and the signature scopes nothing, so the library's run of a
  straight line applies: every weakly fair execution terminates, and each buffer ends at the fold of the
  operations' results over its launch contents.
-/
import proofs.«168348_j77421080478261_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of `ops` -/

/-- The first window's operations: blocks one to four and the first three operations of the fifth. -/
abbrev W0 : List (HloOp τ sig (Elt F)) := B1 ++ B2 ++ B3 ++ B4 ++ B5.take 3
/-- The second window's: the rest of the fifth block, blocks six to nine, the first seven operations of the tenth. -/
abbrev W1 : List (HloOp τ sig (Elt F)) := B5.drop 3 ++ B6 ++ B7 ++ B8 ++ B9 ++ B10.take 7
/-- The third window's: the rest of the tenth block and blocks eleven to fifteen. -/
abbrev W2 : List (HloOp τ sig (Elt F)) := B10.drop 7 ++ B11 ++ B12 ++ B13 ++ B14 ++ B15

-- each side is one chain of the window's statements: 81, 60 and 79 of them
set_option maxRecDepth 8192 in
/-- The first window is its operations' straight line; the call of the variance function unfolds in place. -/
theorem main_part0_eq (c : Dev nD) : main_part0 (F := F) c = seq W0 := rfl
set_option maxRecDepth 8192 in
/-- The second window is its operations' straight line. -/
theorem main_part1_eq (c : Dev nD) : main_part1 (F := F) c = seq W1 := rfl
set_option maxRecDepth 8192 in
/-- The third window is its operations' straight line, the second call unfolded and the final return dropped. -/
theorem main_part2_eq (c : Dev nD) : main_part2 (F := F) c = seq W2 := rfl

/-- A list cut in two and followed by more is the list followed by it. -/
theorem take_append_drop_append {α : Type} (n : Nat) (l r : List α) : l.take n ++ (l.drop n ++ r) = l ++ r := by
  rw [← List.append_assoc, List.take_append_drop]

/-- Fifteen lists in a row, regrouped in three runs that cut the fifth and the tenth: concatenation is associative,
    and a list is its first `n` elements followed by the rest. -/
theorem regroup {α : Type} (b1 b2 b3 b4 b5 b6 b7 b8 b9 b10 b11 b12 b13 b14 b15 : List α) :
    b1 ++ b2 ++ b3 ++ b4 ++ b5 ++ b6 ++ b7 ++ b8 ++ b9 ++ b10 ++ b11 ++ b12 ++ b13 ++ b14 ++ b15
      = (b1 ++ b2 ++ b3 ++ b4 ++ b5.take 3)
        ++ ((b5.drop 3 ++ b6 ++ b7 ++ b8 ++ b9 ++ b10.take 7) ++ (b10.drop 7 ++ b11 ++ b12 ++ b13 ++ b14 ++ b15)) := by
  simp only [List.append_assoc, take_append_drop_append]

/-- The three windows' lists, concatenated, are the fifteen blocks concatenated: the same operations in the same order. -/
theorem ops_windows : (ops : List (HloOp τ sig (Elt F))) = W0 ++ (W1 ++ W2) :=
  regroup B1 B2 B3 B4 B5 B6 B7 B8 B9 B10 B11 B12 B13 B14 B15

/-- @main is the straight line of all the operations. -/
theorem main_eq (c : Dev nD) : main (F := F) c = seq ops := by
  show (main_part0 (F := F) c >>= fun _ => main_part1 (F := F) c >>= fun _ => main_part2 (F := F) c) = _
  rw [main_part0_eq, main_part1_eq, main_part2_eq, ← seq_append, ← seq_append, ← ops_windows]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Closes `l.Forall fun op => op.bufs ⊆ tcRefs τ sig` for a literal list `l` of the builders' operations: the
    conjunction over the list, each conjunct the builder's own fact. -/
macro "bufs_sub_list" : tactic =>
  `(tactic| simp only [List.Forall, nullary_bufs_sub, unary_bufs_sub, binary_bufs_sub, ternary_bufs_sub, reshape_bufs_sub, and_self])

theorem B1_sub : (B1 : List (HloOp τ sig (Elt F))).Forall fun op => op.bufs ⊆ tcRefs τ sig := by bufs_sub_list
theorem B2_sub : (B2 : List (HloOp τ sig (Elt F))).Forall fun op => op.bufs ⊆ tcRefs τ sig := by bufs_sub_list
theorem B3_sub : (B3 : List (HloOp τ sig (Elt F))).Forall fun op => op.bufs ⊆ tcRefs τ sig := by bufs_sub_list
theorem B4_sub : (B4 : List (HloOp τ sig (Elt F))).Forall fun op => op.bufs ⊆ tcRefs τ sig := by bufs_sub_list
theorem B5_sub : (B5 : List (HloOp τ sig (Elt F))).Forall fun op => op.bufs ⊆ tcRefs τ sig := by bufs_sub_list
theorem B6_sub : (B6 : List (HloOp τ sig (Elt F))).Forall fun op => op.bufs ⊆ tcRefs τ sig := by bufs_sub_list
theorem B7_sub : (B7 : List (HloOp τ sig (Elt F))).Forall fun op => op.bufs ⊆ tcRefs τ sig := by bufs_sub_list
theorem B8_sub : (B8 : List (HloOp τ sig (Elt F))).Forall fun op => op.bufs ⊆ tcRefs τ sig := by bufs_sub_list
theorem B9_sub : (B9 : List (HloOp τ sig (Elt F))).Forall fun op => op.bufs ⊆ tcRefs τ sig := by bufs_sub_list
theorem B10_sub : (B10 : List (HloOp τ sig (Elt F))).Forall fun op => op.bufs ⊆ tcRefs τ sig := by bufs_sub_list
theorem B11_sub : (B11 : List (HloOp τ sig (Elt F))).Forall fun op => op.bufs ⊆ tcRefs τ sig := by bufs_sub_list
theorem B12_sub : (B12 : List (HloOp τ sig (Elt F))).Forall fun op => op.bufs ⊆ tcRefs τ sig := by bufs_sub_list
theorem B13_sub : (B13 : List (HloOp τ sig (Elt F))).Forall fun op => op.bufs ⊆ tcRefs τ sig := by bufs_sub_list
theorem B14_sub : (B14 : List (HloOp τ sig (Elt F))).Forall fun op => op.bufs ⊆ tcRefs τ sig := by bufs_sub_list
theorem B15_sub : (B15 : List (HloOp τ sig (Elt F))).Forall fun op => op.bufs ⊆ tcRefs τ sig := by bufs_sub_list

/-- Closes `∀ op ∈ l, op.fresh = ∅` for a literal list `l` of the builders' operations: none of them allocates, each
    case by computation. -/
macro "fresh_list" : tactic =>
  `(tactic| (intro _ h; (repeat (cases h with | head => rfl | tail _ h => ?_)); exact nomatch h))

theorem B1_fresh : ∀ op ∈ (B1 : List (HloOp τ sig (Elt F))), op.fresh = ∅ := by fresh_list
theorem B2_fresh : ∀ op ∈ (B2 : List (HloOp τ sig (Elt F))), op.fresh = ∅ := by fresh_list
theorem B3_fresh : ∀ op ∈ (B3 : List (HloOp τ sig (Elt F))), op.fresh = ∅ := by fresh_list
theorem B4_fresh : ∀ op ∈ (B4 : List (HloOp τ sig (Elt F))), op.fresh = ∅ := by fresh_list
theorem B5_fresh : ∀ op ∈ (B5 : List (HloOp τ sig (Elt F))), op.fresh = ∅ := by fresh_list
theorem B6_fresh : ∀ op ∈ (B6 : List (HloOp τ sig (Elt F))), op.fresh = ∅ := by fresh_list
theorem B7_fresh : ∀ op ∈ (B7 : List (HloOp τ sig (Elt F))), op.fresh = ∅ := by fresh_list
theorem B8_fresh : ∀ op ∈ (B8 : List (HloOp τ sig (Elt F))), op.fresh = ∅ := by fresh_list
theorem B9_fresh : ∀ op ∈ (B9 : List (HloOp τ sig (Elt F))), op.fresh = ∅ := by fresh_list
theorem B10_fresh : ∀ op ∈ (B10 : List (HloOp τ sig (Elt F))), op.fresh = ∅ := by fresh_list
theorem B11_fresh : ∀ op ∈ (B11 : List (HloOp τ sig (Elt F))), op.fresh = ∅ := by fresh_list
theorem B12_fresh : ∀ op ∈ (B12 : List (HloOp τ sig (Elt F))), op.fresh = ∅ := by fresh_list
theorem B13_fresh : ∀ op ∈ (B13 : List (HloOp τ sig (Elt F))), op.fresh = ∅ := by fresh_list
theorem B14_fresh : ∀ op ∈ (B14 : List (HloOp τ sig (Elt F))), op.fresh = ∅ := by fresh_list
theorem B15_fresh : ∀ op ∈ (B15 : List (HloOp τ sig (Elt F))), op.fresh = ∅ := by fresh_list

/-- No operation allocates: an operation of the concatenation is an operation of a block. -/
theorem ops_fresh : ∀ op ∈ (ops : List (HloOp τ sig (Elt F))), op.fresh = ∅ := fun op h => by
  simp only [ops, List.mem_append, or_assoc] at h
  rcases h with h | h | h | h | h | h | h | h | h | h | h | h | h | h | h
  exacts [B1_fresh op h, B2_fresh op h, B3_fresh op h, B4_fresh op h, B5_fresh op h, B6_fresh op h, B7_fresh op h,
    B8_fresh op h, B9_fresh op h, B10_fresh op h, B11_fresh op h, B12_fresh op h, B13_fresh op h, B14_fresh op h,
    B15_fresh op h]

/-- Every operation touches TensorCore buffers only: an operation of the concatenation is an operation of a block. -/
theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h | h | h | h | h | h | h
    exacts [List.forall_iff_forall_mem.mp B1_sub op h, List.forall_iff_forall_mem.mp B2_sub op h,
      List.forall_iff_forall_mem.mp B3_sub op h, List.forall_iff_forall_mem.mp B4_sub op h,
      List.forall_iff_forall_mem.mp B5_sub op h, List.forall_iff_forall_mem.mp B6_sub op h,
      List.forall_iff_forall_mem.mp B7_sub op h, List.forall_iff_forall_mem.mp B8_sub op h,
      List.forall_iff_forall_mem.mp B9_sub op h, List.forall_iff_forall_mem.mp B10_sub op h,
      List.forall_iff_forall_mem.mp B11_sub op h, List.forall_iff_forall_mem.mp B12_sub op h,
      List.forall_iff_forall_mem.mp B13_sub op h, List.forall_iff_forall_mem.mp B14_sub op h,
      List.forall_iff_forall_mem.mp B15_sub op h]

/-! ## The run -/

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.RefHops.lean ====
/-
  The contents of the reference program's buffers at the fifteen block boundaries, and which buffers a stretch of
  blocks leaves alone.

  `U k L` is what the buffers hold after blocks one to `k`, run from contents `L`: the fold of block `k` over
  `U (k-1) L`. The fold of the whole program is `U15` (a fold over a concatenation is the second list's fold over
  the first's). An operation rewrites the one buffer it writes and leaves every other as it was, so a buffer that no
  operation of blocks `p+1 … j` writes holds after block `j` what it held after block `p` — or, if no block up to `j`
  writes it, what it held at the start. Each such fact below is read off the blocks' lists: the fold is unrolled
  operation by operation, and each operation's result buffer is told apart from the buffer read, as references.
-/
import proofs.«168348_j77421080478261_2_alg».proof.Proof.RefOps
import proofs.«168348_j77421080478261_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The contents at the block boundaries -/

/-- The contents after the first block, from contents `L`. -/
def U1 (L : Valuation τ sig (Elt F)) : Valuation τ sig (Elt F) := after B1 L
/-- The contents after block 2, run from the contents after block 1. -/
def U2 (L : Valuation τ sig (Elt F)) : Valuation τ sig (Elt F) := after B2 (U1 L)
/-- The contents after block 3, run from the contents after block 2. -/
def U3 (L : Valuation τ sig (Elt F)) : Valuation τ sig (Elt F) := after B3 (U2 L)
/-- The contents after block 4, run from the contents after block 3. -/
def U4 (L : Valuation τ sig (Elt F)) : Valuation τ sig (Elt F) := after B4 (U3 L)
/-- The contents after block 5, run from the contents after block 4. -/
def U5 (L : Valuation τ sig (Elt F)) : Valuation τ sig (Elt F) := after B5 (U4 L)
/-- The contents after block 6, run from the contents after block 5. -/
def U6 (L : Valuation τ sig (Elt F)) : Valuation τ sig (Elt F) := after B6 (U5 L)
/-- The contents after block 7, run from the contents after block 6. -/
def U7 (L : Valuation τ sig (Elt F)) : Valuation τ sig (Elt F) := after B7 (U6 L)
/-- The contents after block 8, run from the contents after block 7. -/
def U8 (L : Valuation τ sig (Elt F)) : Valuation τ sig (Elt F) := after B8 (U7 L)
/-- The contents after block 9, run from the contents after block 8. -/
def U9 (L : Valuation τ sig (Elt F)) : Valuation τ sig (Elt F) := after B9 (U8 L)
/-- The contents after block 10, run from the contents after block 9. -/
def U10 (L : Valuation τ sig (Elt F)) : Valuation τ sig (Elt F) := after B10 (U9 L)
/-- The contents after block 11, run from the contents after block 10. -/
def U11 (L : Valuation τ sig (Elt F)) : Valuation τ sig (Elt F) := after B11 (U10 L)
/-- The contents after block 12, run from the contents after block 11. -/
def U12 (L : Valuation τ sig (Elt F)) : Valuation τ sig (Elt F) := after B12 (U11 L)
/-- The contents after block 13, run from the contents after block 12. -/
def U13 (L : Valuation τ sig (Elt F)) : Valuation τ sig (Elt F) := after B13 (U12 L)
/-- The contents after block 14, run from the contents after block 13. -/
def U14 (L : Valuation τ sig (Elt F)) : Valuation τ sig (Elt F) := after B14 (U13 L)
/-- The contents after block 15, run from the contents after block 14. -/
def U15 (L : Valuation τ sig (Elt F)) : Valuation τ sig (Elt F) := after B15 (U14 L)

/-- The whole program's fold is the fifteen blocks' folds, one over the other. -/
theorem ops_fold (L : Valuation τ sig (Elt F)) : after ops L = U15 L := by
  simp only [ops, Cert.After.after_append]
  rfl

/-! ## Buffers a stretch of blocks leaves alone -/

/-- Proves `U j L b = U p L b` (or `= L b`) for a literal buffer `b` that no operation of blocks `p+1 … j` writes.
    Give it the boundaries `U j, …, U (p+1)` and the blocks `B j, …, B (p+1)` to unfold: it unrolls their folds
    operation by operation (`after_cons`) and passes each operation by, its result buffer being another reference
    than `b` (decided on the references). -/
macro "r_hop" " [" args:Lean.Parser.Tactic.simpLemma,* "]" : tactic =>
  `(tactic| simp (disch := decide) only [after_cons, after_nil, nullary_result_ne', unary_result_ne', binary_result_ne',
      ternary_result_ne', reshape_result_ne', $args,*])

theorem hop_arg5_2 (L : Valuation τ sig (Elt F)) : U2 L (main_arg5 : DevRef τ sig) = L (main_arg5 : DevRef τ sig) := by
  r_hop [U2, U1, B2, B1]
theorem hop_arg0_1 (L : Valuation τ sig (Elt F)) : U1 L (main_arg0 : DevRef τ sig) = L (main_arg0 : DevRef τ sig) := by
  r_hop [U1, B1]
theorem hop_arg3_1 (L : Valuation τ sig (Elt F)) : U1 L (main_arg3 : DevRef τ sig) = L (main_arg3 : DevRef τ sig) := by
  r_hop [U1, B1]
theorem hop_arg4_1 (L : Valuation τ sig (Elt F)) : U1 L (main_arg4 : DevRef τ sig) = L (main_arg4 : DevRef τ sig) := by
  r_hop [U1, B1]
theorem hop_v1_3 (L : Valuation τ sig (Elt F)) : U3 L (main_v1 : DevRef τ sig) = U1 L (main_v1 : DevRef τ sig) := by
  r_hop [U3, U2, B3, B2]
theorem hop_v3_3 (L : Valuation τ sig (Elt F)) : U3 L (main_v3 : DevRef τ sig) = U1 L (main_v3 : DevRef τ sig) := by
  r_hop [U3, U2, B3, B2]
theorem hop_v1_4 (L : Valuation τ sig (Elt F)) : U4 L (main_v1 : DevRef τ sig) = U1 L (main_v1 : DevRef τ sig) := by
  r_hop [U4, U3, U2, B4, B3, B2]
theorem hop_v23_4 (L : Valuation τ sig (Elt F)) : U4 L (main_v23 : DevRef τ sig) = U3 L (main_v23 : DevRef τ sig) := by
  r_hop [U4, B4]
theorem hop_v45_5 (L : Valuation τ sig (Elt F)) : U5 L (main_v45 : DevRef τ sig) = U4 L (main_v45 : DevRef τ sig) := by
  r_hop [U5, B5]
theorem hop_v3_6 (L : Valuation τ sig (Elt F)) : U6 L (main_v3 : DevRef τ sig) = U1 L (main_v3 : DevRef τ sig) := by
  r_hop [U6, U5, U4, U3, U2, B6, B5, B4, B3, B2]
theorem hop_v29_7 (L : Valuation τ sig (Elt F)) : U7 L (main_v29 : DevRef τ sig) = U4 L (main_v29 : DevRef τ sig) := by
  r_hop [U7, U6, U5, B7, B6, B5]
theorem hop_v23_7 (L : Valuation τ sig (Elt F)) : U7 L (main_v23 : DevRef τ sig) = U3 L (main_v23 : DevRef τ sig) := by
  r_hop [U7, U6, U5, U4, B7, B6, B5, B4]
theorem hop_arg6_7 (L : Valuation τ sig (Elt F)) : U7 L (main_arg6 : DevRef τ sig) = L (main_arg6 : DevRef τ sig) := by
  r_hop [U7, U6, U5, U4, U3, U2, U1, B7, B6, B5, B4, B3, B2, B1]
theorem hop_arg7_7 (L : Valuation τ sig (Elt F)) : U7 L (main_arg7 : DevRef τ sig) = L (main_arg7 : DevRef τ sig) := by
  r_hop [U7, U6, U5, U4, U3, U2, U1, B7, B6, B5, B4, B3, B2, B1]
theorem hop_v1_8 (L : Valuation τ sig (Elt F)) : U8 L (main_v1 : DevRef τ sig) = U1 L (main_v1 : DevRef τ sig) := by
  r_hop [U8, U7, U6, U5, U4, U3, U2, B8, B7, B6, B5, B4, B3, B2]
theorem hop_v3_8 (L : Valuation τ sig (Elt F)) : U8 L (main_v3 : DevRef τ sig) = U1 L (main_v3 : DevRef τ sig) := by
  r_hop [U8, U7, U6, U5, U4, U3, U2, B8, B7, B6, B5, B4, B3, B2]
theorem hop_v1_9 (L : Valuation τ sig (Elt F)) : U9 L (main_v1 : DevRef τ sig) = U1 L (main_v1 : DevRef τ sig) := by
  r_hop [U9, U8, U7, U6, U5, U4, U3, U2, B9, B8, B7, B6, B5, B4, B3, B2]
theorem hop_v68_9 (L : Valuation τ sig (Elt F)) : U9 L (main_v68 : DevRef τ sig) = U8 L (main_v68 : DevRef τ sig) := by
  r_hop [U9, B9]
theorem hop_v90_10 (L : Valuation τ sig (Elt F)) : U10 L (main_v90 : DevRef τ sig) = U9 L (main_v90 : DevRef τ sig) := by
  r_hop [U10, B10]
theorem hop_v3_11 (L : Valuation τ sig (Elt F)) : U11 L (main_v3 : DevRef τ sig) = U1 L (main_v3 : DevRef τ sig) := by
  r_hop [U11, U10, U9, U8, U7, U6, U5, U4, U3, U2, B11, B10, B9, B8, B7, B6, B5, B4, B3, B2]
theorem hop_v74_12 (L : Valuation τ sig (Elt F)) : U12 L (main_v74 : DevRef τ sig) = U9 L (main_v74 : DevRef τ sig) := by
  r_hop [U12, U11, U10, B12, B11, B10]
theorem hop_v68_12 (L : Valuation τ sig (Elt F)) : U12 L (main_v68 : DevRef τ sig) = U8 L (main_v68 : DevRef τ sig) := by
  r_hop [U12, U11, U10, U9, B12, B11, B10, B9]
theorem hop_arg8_12 (L : Valuation τ sig (Elt F)) : U12 L (main_arg8 : DevRef τ sig) = L (main_arg8 : DevRef τ sig) := by
  r_hop [U12, U11, U10, U9, U8, U7, U6, U5, U4, U3, U2, U1, B12, B11, B10, B9, B8, B7, B6, B5, B4, B3, B2, B1]
theorem hop_arg2_13 (L : Valuation τ sig (Elt F)) : U13 L (main_arg2 : DevRef τ sig) = L (main_arg2 : DevRef τ sig) := by
  r_hop [U13, U12, U11, U10, U9, U8, U7, U6, U5, U4, U3, U2, U1, B13, B12, B11, B10, B9, B8, B7, B6, B5, B4, B3, B2, B1]
theorem hop_arg9_14 (L : Valuation τ sig (Elt F)) : U14 L (main_arg9 : DevRef τ sig) = L (main_arg9 : DevRef τ sig) := by
  r_hop [U14, U13, U12, U11, U10, U9, U8, U7, U6, U5, U4, U3, U2, U1, B14, B13, B12, B11, B10, B9, B8, B7, B6, B5, B4, B3, B2, B1]
theorem hop_arg10_14 (L : Valuation τ sig (Elt F)) : U14 L (main_arg10 : DevRef τ sig) = L (main_arg10 : DevRef τ sig) := by
  r_hop [U14, U13, U12, U11, U10, U9, U8, U7, U6, U5, U4, U3, U2, U1, B14, B13, B12, B11, B10, B9, B8, B7, B6, B5, B4, B3, B2, B1]
theorem hop_arg11_14 (L : Valuation τ sig (Elt F)) : U14 L (main_arg11 : DevRef τ sig) = L (main_arg11 : DevRef τ sig) := by
  r_hop [U14, U13, U12, U11, U10, U9, U8, U7, U6, U5, U4, U3, U2, U1, B14, B13, B12, B11, B10, B9, B8, B7, B6, B5, B4, B3, B2, B1]
theorem hop_arg12_14 (L : Valuation τ sig (Elt F)) : U14 L (main_arg12 : DevRef τ sig) = L (main_arg12 : DevRef τ sig) := by
  r_hop [U14, U13, U12, U11, U10, U9, U8, U7, U6, U5, U4, U3, U2, U1, B14, B13, B12, B11, B10, B9, B8, B7, B6, B5, B4, B3, B2, B1]
theorem hop_arg13_14 (L : Valuation τ sig (Elt F)) : U14 L (main_arg13 : DevRef τ sig) = L (main_arg13 : DevRef τ sig) := by
  r_hop [U14, U13, U12, U11, U10, U9, U8, U7, U6, U5, U4, U3, U2, U1, B14, B13, B12, B11, B10, B9, B8, B7, B6, B5, B4, B3, B2, B1]
theorem hop_arg14_14 (L : Valuation τ sig (Elt F)) : U14 L (main_arg14 : DevRef τ sig) = L (main_arg14 : DevRef τ sig) := by
  r_hop [U14, U13, U12, U11, U10, U9, U8, U7, U6, U5, U4, U3, U2, U1, B14, B13, B12, B11, B10, B9, B8, B7, B6, B5, B4, B3, B2, B1]
theorem hop_arg15_14 (L : Valuation τ sig (Elt F)) : U14 L (main_arg15 : DevRef τ sig) = L (main_arg15 : DevRef τ sig) := by
  r_hop [U14, U13, U12, U11, U10, U9, U8, U7, U6, U5, U4, U3, U2, U1, B14, B13, B12, B11, B10, B9, B8, B7, B6, B5, B4, B3, B2, B1]
theorem hop_arg16_14 (L : Valuation τ sig (Elt F)) : U14 L (main_arg16 : DevRef τ sig) = L (main_arg16 : DevRef τ sig) := by
  r_hop [U14, U13, U12, U11, U10, U9, U8, U7, U6, U5, U4, U3, U2, U1, B14, B13, B12, B11, B10, B9, B8, B7, B6, B5, B4, B3, B2, B1]

end Cert.ReferenceIdeal.RefRun

end
-- ==== Proof.RefKept.lean ====
/-
  Every argument array of the reference program is, after the whole line of operations, as it was at the start.

  No operation writes an argument's buffer: each writes the one buffer of the value it defines. So the fold of
  all the operations, read at an argument, is the starting contents there. Each fact goes through the block
  boundaries: the whole fold is the fifteenth boundary; the blocks after boundary `p` are passed operation by
  operation; and from boundary `p` down to the start the argument was already followed (the earlier
  persistence fact for that argument) — except the second argument, which is followed all the way here.
-/
import proofs.«168348_j77421080478261_2_alg».proof.Proof.RefHops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept_arg0 (L : Valuation τ sig (Elt F)) : after ops L (main_arg0 : DevRef τ sig) = L (main_arg0 : DevRef τ sig) := by
  rw [ops_fold]
  exact (show U15 L (main_arg0 : DevRef τ sig) = U1 L (main_arg0 : DevRef τ sig) by
    r_hop [U15, U14, U13, U12, U11, U10, U9, U8, U7, U6, U5, U4, U3, U2, B15, B14, B13, B12, B11, B10, B9, B8, B7, B6, B5, B4, B3, B2]).trans (hop_arg0_1 L)
theorem kept_arg1 (L : Valuation τ sig (Elt F)) : after ops L (main_arg1 : DevRef τ sig) = L (main_arg1 : DevRef τ sig) := by
  rw [ops_fold]
  r_hop [U15, U14, U13, U12, U11, U10, U9, U8, U7, U6, U5, U4, U3, U2, U1, B15, B14, B13, B12, B11, B10, B9, B8, B7, B6, B5, B4, B3, B2, B1]
theorem kept_arg2 (L : Valuation τ sig (Elt F)) : after ops L (main_arg2 : DevRef τ sig) = L (main_arg2 : DevRef τ sig) := by
  rw [ops_fold]
  exact (show U15 L (main_arg2 : DevRef τ sig) = U13 L (main_arg2 : DevRef τ sig) by
    r_hop [U15, U14, B15, B14]).trans (hop_arg2_13 L)
theorem kept_arg3 (L : Valuation τ sig (Elt F)) : after ops L (main_arg3 : DevRef τ sig) = L (main_arg3 : DevRef τ sig) := by
  rw [ops_fold]
  exact (show U15 L (main_arg3 : DevRef τ sig) = U1 L (main_arg3 : DevRef τ sig) by
    r_hop [U15, U14, U13, U12, U11, U10, U9, U8, U7, U6, U5, U4, U3, U2, B15, B14, B13, B12, B11, B10, B9, B8, B7, B6, B5, B4, B3, B2]).trans (hop_arg3_1 L)
theorem kept_arg4 (L : Valuation τ sig (Elt F)) : after ops L (main_arg4 : DevRef τ sig) = L (main_arg4 : DevRef τ sig) := by
  rw [ops_fold]
  exact (show U15 L (main_arg4 : DevRef τ sig) = U1 L (main_arg4 : DevRef τ sig) by
    r_hop [U15, U14, U13, U12, U11, U10, U9, U8, U7, U6, U5, U4, U3, U2, B15, B14, B13, B12, B11, B10, B9, B8, B7, B6, B5, B4, B3, B2]).trans (hop_arg4_1 L)
theorem kept_arg5 (L : Valuation τ sig (Elt F)) : after ops L (main_arg5 : DevRef τ sig) = L (main_arg5 : DevRef τ sig) := by
  rw [ops_fold]
  exact (show U15 L (main_arg5 : DevRef τ sig) = U2 L (main_arg5 : DevRef τ sig) by
    r_hop [U15, U14, U13, U12, U11, U10, U9, U8, U7, U6, U5, U4, U3, B15, B14, B13, B12, B11, B10, B9, B8, B7, B6, B5, B4, B3]).trans (hop_arg5_2 L)
theorem kept_arg6 (L : Valuation τ sig (Elt F)) : after ops L (main_arg6 : DevRef τ sig) = L (main_arg6 : DevRef τ sig) := by
  rw [ops_fold]
  exact (show U15 L (main_arg6 : DevRef τ sig) = U7 L (main_arg6 : DevRef τ sig) by
    r_hop [U15, U14, U13, U12, U11, U10, U9, U8, B15, B14, B13, B12, B11, B10, B9, B8]).trans (hop_arg6_7 L)
theorem kept_arg7 (L : Valuation τ sig (Elt F)) : after ops L (main_arg7 : DevRef τ sig) = L (main_arg7 : DevRef τ sig) := by
  rw [ops_fold]
  exact (show U15 L (main_arg7 : DevRef τ sig) = U7 L (main_arg7 : DevRef τ sig) by
    r_hop [U15, U14, U13, U12, U11, U10, U9, U8, B15, B14, B13, B12, B11, B10, B9, B8]).trans (hop_arg7_7 L)
theorem kept_arg8 (L : Valuation τ sig (Elt F)) : after ops L (main_arg8 : DevRef τ sig) = L (main_arg8 : DevRef τ sig) := by
  rw [ops_fold]
  exact (show U15 L (main_arg8 : DevRef τ sig) = U12 L (main_arg8 : DevRef τ sig) by
    r_hop [U15, U14, U13, B15, B14, B13]).trans (hop_arg8_12 L)
theorem kept_arg9 (L : Valuation τ sig (Elt F)) : after ops L (main_arg9 : DevRef τ sig) = L (main_arg9 : DevRef τ sig) := by
  rw [ops_fold]
  exact (show U15 L (main_arg9 : DevRef τ sig) = U14 L (main_arg9 : DevRef τ sig) by
    r_hop [U15, B15]).trans (hop_arg9_14 L)
theorem kept_arg10 (L : Valuation τ sig (Elt F)) : after ops L (main_arg10 : DevRef τ sig) = L (main_arg10 : DevRef τ sig) := by
  rw [ops_fold]
  exact (show U15 L (main_arg10 : DevRef τ sig) = U14 L (main_arg10 : DevRef τ sig) by
    r_hop [U15, B15]).trans (hop_arg10_14 L)
theorem kept_arg11 (L : Valuation τ sig (Elt F)) : after ops L (main_arg11 : DevRef τ sig) = L (main_arg11 : DevRef τ sig) := by
  rw [ops_fold]
  exact (show U15 L (main_arg11 : DevRef τ sig) = U14 L (main_arg11 : DevRef τ sig) by
    r_hop [U15, B15]).trans (hop_arg11_14 L)
theorem kept_arg12 (L : Valuation τ sig (Elt F)) : after ops L (main_arg12 : DevRef τ sig) = L (main_arg12 : DevRef τ sig) := by
  rw [ops_fold]
  exact (show U15 L (main_arg12 : DevRef τ sig) = U14 L (main_arg12 : DevRef τ sig) by
    r_hop [U15, B15]).trans (hop_arg12_14 L)
theorem kept_arg13 (L : Valuation τ sig (Elt F)) : after ops L (main_arg13 : DevRef τ sig) = L (main_arg13 : DevRef τ sig) := by
  rw [ops_fold]
  exact (show U15 L (main_arg13 : DevRef τ sig) = U14 L (main_arg13 : DevRef τ sig) by
    r_hop [U15, B15]).trans (hop_arg13_14 L)
theorem kept_arg14 (L : Valuation τ sig (Elt F)) : after ops L (main_arg14 : DevRef τ sig) = L (main_arg14 : DevRef τ sig) := by
  rw [ops_fold]
  exact (show U15 L (main_arg14 : DevRef τ sig) = U14 L (main_arg14 : DevRef τ sig) by
    r_hop [U15, B15]).trans (hop_arg14_14 L)
theorem kept_arg15 (L : Valuation τ sig (Elt F)) : after ops L (main_arg15 : DevRef τ sig) = L (main_arg15 : DevRef τ sig) := by
  rw [ops_fold]
  exact (show U15 L (main_arg15 : DevRef τ sig) = U14 L (main_arg15 : DevRef τ sig) by
    r_hop [U15, B15]).trans (hop_arg15_14 L)
theorem kept_arg16 (L : Valuation τ sig (Elt F)) : after ops L (main_arg16 : DevRef τ sig) = L (main_arg16 : DevRef τ sig) := by
  rw [ops_fold]
  exact (show U15 L (main_arg16 : DevRef τ sig) = U14 L (main_arg16 : DevRef τ sig) by
    r_hop [U15, B15]).trans (hop_arg16_14 L)

end Cert.ReferenceIdeal.RefRun

end
-- ==== Proof.RefFrame.lean ====
/-
  The reference program runs, and its seventeen argument arrays end as launched.

  The run of the straight line leaves every buffer at the fold of the operations over the launch contents
  (`run_all`); at an argument that fold is the launch contents (`kept_arg0 … kept_arg16`: no operation writes an
  argument). So every weakly fair execution terminates without a fault with each argument array unchanged.
-/
import proofs.«168348_j77421080478261_2_alg».proof.Proof.RefRun
import proofs.«168348_j77421080478261_2_alg».proof.Proof.RefKept

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- At the compiled mesh, for any float values, from any memory with zero counters: every weakly fair execution of
    @main terminates, and each of the seventeen argument arrays ends holding what it held at launch. -/
theorem frame_ref (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c main_arg0).trans (kept_arg0 _), (h c main_arg1).trans (kept_arg1 _), (h c main_arg2).trans (kept_arg2 _), (h c main_arg3).trans (kept_arg3 _),
      (h c main_arg4).trans (kept_arg4 _), (h c main_arg5).trans (kept_arg5 _), (h c main_arg6).trans (kept_arg6 _), (h c main_arg7).trans (kept_arg7 _),
      (h c main_arg8).trans (kept_arg8 _), (h c main_arg9).trans (kept_arg9 _), (h c main_arg10).trans (kept_arg10 _), (h c main_arg11).trans (kept_arg11 _),
      (h c main_arg12).trans (kept_arg12 _), (h c main_arg13).trans (kept_arg13 _), (h c main_arg14).trans (kept_arg14 _), (h c main_arg15).trans (kept_arg15 _), (h c main_arg16).trans (kept_arg16 _)⟩)
    (run_all m ρ)

end Cert.ReferenceIdeal.RefRun

end
-- ==== Proof.KHops.lean ====
/-
  The buffer contents of the kernel program at the ideal values, at the boundaries of @main's fourteen segments, read at the buffers the later
  segments consume: a buffer that a stretch of host operations does not write, and that is not an array of a region,
  holds after the segment what it held before; a region's input array is left as entered; a region's output array
  holds what the write-backs leave.
-/
import proofs.«168348_j77421080478261_2_alg».proof.Proof.Gen.KernelIdeal.Frame

set_option maxRecDepth 16384

noncomputable section

namespace Cert.KernelIdeal.KHops

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg) (c : Dev nD)

/-! ## Region exits at the regions' own arrays -/

theorem W4_out : W4 m ρ c (Proc.devRef .tc main_v49) = (dat0 (V3 m ρ) c).arrAt 2 cfg0.N := W4_arr m ρ c 2
theorem W6_out : W6 m ρ c (Proc.devRef .tc main_v57) = (dat1 (V5 m ρ) c).arrAt 2 cfg1.N := W6_arr m ρ c 2
theorem W8_out : W8 m ρ c (Proc.devRef .tc main_v62) = (dat2 (V7 m ρ) c).arrAt 5 cfg2.N := W8_arr m ρ c 5
theorem W10_out : W10 m ρ c (Proc.devRef .tc main_v70) = (dat3 (V9 m ρ) c).arrAt 2 cfg3.N := W10_arr m ρ c 2
theorem W12_out : W12 m ρ c (Proc.devRef .tc main_v75) = (dat4 (V11 m ρ) c).arrAt 4 cfg4.N := W12_arr m ρ c 4
theorem W14_out : W14 m ρ c (Proc.devRef .tc main_v84) = (dat5 (V13 m ρ) c).arrAt 9 cfg5.N := W14_arr m ρ c 9

/-- The scale column is an input of region 1: it leaves the region as it entered. -/
theorem W6_v26 : W6 m ρ c (no_index (Proc.devRef .tc main_v26)) = W5 m ρ c (Proc.devRef .tc main_v26) :=
  (W6_arr m ρ c 1).trans (((dat1 (V5 m ρ) c).arrAt_in 1 rfl _).trans (A_eq1 (V5 m ρ) c 1))
/-- The first layer's projection and the inverse-degree column are inputs of region 2. -/
theorem W8_v49 : W8 m ρ c (no_index (Proc.devRef .tc main_v49)) = W7 m ρ c (Proc.devRef .tc main_v49) :=
  (W8_arr m ρ c 1).trans (((dat2 (V7 m ρ) c).arrAt_in 1 rfl _).trans (A_eq2 (V7 m ρ) c 1))
theorem W8_v29 : W8 m ρ c (no_index (Proc.devRef .tc main_v29)) = W7 m ρ c (Proc.devRef .tc main_v29) :=
  (W8_arr m ρ c 2).trans (((dat2 (V7 m ρ) c).arrAt_in 2 rfl _).trans (A_eq2 (V7 m ρ) c 2))

/-! ## The same facts with the device reference written out -/

theorem W4_ne' (b : Ref sig .tc) (hb : ∀ w, Pipeline.arrRef spec0 w ≠ b) :
    W4 m ρ c (no_index (Proc.devRef .tc b)) = W3 m ρ c (Proc.devRef .tc b) := W4_of_ne m ρ c b hb
theorem W6_ne' (b : Ref sig .tc) (hb : ∀ w, Pipeline.arrRef spec1 w ≠ b) :
    W6 m ρ c (no_index (Proc.devRef .tc b)) = W5 m ρ c (Proc.devRef .tc b) := W6_of_ne m ρ c b hb
theorem W8_ne' (b : Ref sig .tc) (hb : ∀ w, Pipeline.arrRef spec2 w ≠ b) :
    W8 m ρ c (no_index (Proc.devRef .tc b)) = W7 m ρ c (Proc.devRef .tc b) := W8_of_ne m ρ c b hb
theorem W10_ne' (b : Ref sig .tc) (hb : ∀ w, Pipeline.arrRef spec3 w ≠ b) :
    W10 m ρ c (no_index (Proc.devRef .tc b)) = W9 m ρ c (Proc.devRef .tc b) := W10_of_ne m ρ c b hb
theorem W12_ne' (b : Ref sig .tc) (hb : ∀ w, Pipeline.arrRef spec4 w ≠ b) :
    W12 m ρ c (no_index (Proc.devRef .tc b)) = W11 m ρ c (Proc.devRef .tc b) := W12_of_ne m ρ c b hb
theorem W14_ne' (b : Ref sig .tc) (hb : ∀ w, Pipeline.arrRef spec5 w ≠ b) :
    W14 m ρ c (no_index (Proc.devRef .tc b)) = W13 m ρ c (Proc.devRef .tc b) := W14_of_ne m ρ c b hb

/-! ## Carrying a buffer back across the segments that do not write it -/

/-- Rewrites the contents at a segment boundary, read at a buffer, back across every stretch of host operations that
    does not write the buffer and every region none of whose arrays it is (references compared by evaluation), and
    across the regions above whose input array it is. -/
macro "k_hop" : tactic =>
  `(tactic| (simp (disch := decide) only [W1, W2, W3, W5, W7, W9, W11, W13,
      hostOps0, hostOps0_1, hostOps0_2, hostOps1, hostOps2, hostOps3, hostOps4, hostOps5,
      after_cons, after_nil,
      nullary_result_ne', unary_result_ne', binary_result_ne', ternary_result_ne', quaternary_result_ne', reshape_result_ne',
      W4_ne', W6_ne', W8_ne', W10_ne', W12_ne', W14_ne', W6_v26, W8_v49, W8_v29]))

theorem W0_arg (b : Ref sig .tc) : W0 m ρ c (Proc.devRef .tc b) = m ((c.tc : Thread nD τ).loc b) := rfl

theorem v1_W4 : W4 m ρ c (Proc.devRef .tc main_v1) = W3 m ρ c (Proc.devRef .tc main_v1) := by k_hop
theorem v1_W8 : W8 m ρ c (Proc.devRef .tc main_v1) = W3 m ρ c (Proc.devRef .tc main_v1) := by k_hop
theorem v26_W5 : W5 m ρ c (Proc.devRef .tc main_v26) = W3 m ρ c (Proc.devRef .tc main_v26) := by k_hop
theorem v26_W9 : W9 m ρ c (Proc.devRef .tc main_v26) = W3 m ρ c (Proc.devRef .tc main_v26) := by k_hop
theorem v3_W6 : W6 m ρ c (Proc.devRef .tc main_v3) = W3 m ρ c (Proc.devRef .tc main_v3) := by k_hop
theorem v3_W10 : W10 m ρ c (Proc.devRef .tc main_v3) = W3 m ρ c (Proc.devRef .tc main_v3) := by k_hop
theorem v49_W7 : W7 m ρ c (Proc.devRef .tc main_v49) = W4 m ρ c (Proc.devRef .tc main_v49) := by k_hop
theorem v29_W7 : W7 m ρ c (Proc.devRef .tc main_v29) = W3 m ρ c (Proc.devRef .tc main_v29) := by k_hop
theorem v29_W11 : W11 m ρ c (Proc.devRef .tc main_v29) = W3 m ρ c (Proc.devRef .tc main_v29) := by k_hop
theorem v62_W11 : W11 m ρ c (Proc.devRef .tc main_v62) = W8 m ρ c (Proc.devRef .tc main_v62) := by k_hop
theorem arg5_W3 : W3 m ρ c (Proc.devRef .tc main_arg5) = W0 m ρ c (Proc.devRef .tc main_arg5) := by k_hop
theorem arg6_W6 : W6 m ρ c (Proc.devRef .tc main_arg6) = W0 m ρ c (Proc.devRef .tc main_arg6) := by k_hop
theorem arg7_W7 : W7 m ρ c (Proc.devRef .tc main_arg7) = W0 m ρ c (Proc.devRef .tc main_arg7) := by k_hop
theorem arg8_W10 : W10 m ρ c (Proc.devRef .tc main_arg8) = W0 m ρ c (Proc.devRef .tc main_arg8) := by k_hop
theorem arg2_W12 : W12 m ρ c (Proc.devRef .tc main_arg2) = W0 m ρ c (Proc.devRef .tc main_arg2) := by k_hop
theorem arg10_W12 : W12 m ρ c (Proc.devRef .tc main_arg10) = W0 m ρ c (Proc.devRef .tc main_arg10) := by k_hop
theorem arg12_W12 : W12 m ρ c (Proc.devRef .tc main_arg12) = W0 m ρ c (Proc.devRef .tc main_arg12) := by k_hop
theorem arg14_W12 : W12 m ρ c (Proc.devRef .tc main_arg14) = W0 m ρ c (Proc.devRef .tc main_arg14) := by k_hop
theorem arg16_W12 : W12 m ρ c (Proc.devRef .tc main_arg16) = W0 m ρ c (Proc.devRef .tc main_arg16) := by k_hop
theorem arg11_W13 : W13 m ρ c (Proc.devRef .tc main_arg11) = W0 m ρ c (Proc.devRef .tc main_arg11) := by k_hop
theorem arg13_W13 : W13 m ρ c (Proc.devRef .tc main_arg13) = W0 m ρ c (Proc.devRef .tc main_arg13) := by k_hop
theorem arg15_W13 : W13 m ρ c (Proc.devRef .tc main_arg15) = W0 m ρ c (Proc.devRef .tc main_arg15) := by k_hop
theorem arg9_W12 : W12 m ρ c (Proc.devRef .tc main_arg9) = W0 m ρ c (Proc.devRef .tc main_arg9) := by k_hop

end Cert.KernelIdeal.KHops

end
-- ==== Proof.Bridge0.lean ====
/-
  The two programs agree before the first region. The kernel program's @main (at the ideal values) and the reference compute, from the
  same arguments, the edge endpoints, the symmetric normalisation 1/sqrt(deg_s deg_d) of every edge, the inverse
  degree of every node and the batch-normalised input features by the same host operations (the reference computes
  the degrees twice, once per layer); so the contents the kernel's regions find in those buffers are the
  reference's contents at the matching buffers, the two columns up to the reshape of a vector [n] to a column [n, 1].
-/
import proofs.«168348_j77421080478261_2_alg».proof.Proof.KHops
import proofs.«168348_j77421080478261_2_alg».proof.Proof.RefHops
import Idealize.ShloMosaic.PureOps.Ideal

set_option maxRecDepth 16384

noncomputable section

namespace Cert.Bridge

open Idealize.ShloMosaic Idealize.ShloMosaic.TcCoe Idealize.ShloMosaic.StableHlo Idealize.SL.Sem
open Cert.KernelIdeal.Gen Cert.KernelIdeal.KHops Cert.ReferenceIdeal.RefRun

/-- The two launch memories hold the same seventeen argument arrays on device `c`. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's launch contents on device `c`. -/
abbrev L : Valuation Cert.ReferenceIdeal.τ Cert.ReferenceIdeal.sig (Elt Ideal) := launchContents m' c

/-! ## The arguments, one by one -/

theorem L_arg0 (h : Agree m m' c) : L m' c (Proc.devRef .tc Cert.ReferenceIdeal.main_arg0) = W0 m ρ c (Proc.devRef .tc Cert.KernelIdeal.main_arg0) := h.1
theorem L_arg1 (h : Agree m m' c) : L m' c (Proc.devRef .tc Cert.ReferenceIdeal.main_arg1) = W0 m ρ c (Proc.devRef .tc Cert.KernelIdeal.main_arg1) := h.2.1
theorem L_arg2 (h : Agree m m' c) : L m' c (Proc.devRef .tc Cert.ReferenceIdeal.main_arg2) = W0 m ρ c (Proc.devRef .tc Cert.KernelIdeal.main_arg2) := h.2.2.1
theorem L_arg3 (h : Agree m m' c) : L m' c (Proc.devRef .tc Cert.ReferenceIdeal.main_arg3) = W0 m ρ c (Proc.devRef .tc Cert.KernelIdeal.main_arg3) := h.2.2.2.1
theorem L_arg4 (h : Agree m m' c) : L m' c (Proc.devRef .tc Cert.ReferenceIdeal.main_arg4) = W0 m ρ c (Proc.devRef .tc Cert.KernelIdeal.main_arg4) := h.2.2.2.2.1
theorem L_arg5 (h : Agree m m' c) : L m' c (Proc.devRef .tc Cert.ReferenceIdeal.main_arg5) = W0 m ρ c (Proc.devRef .tc Cert.KernelIdeal.main_arg5) := h.2.2.2.2.2.1
theorem L_arg6 (h : Agree m m' c) : L m' c (Proc.devRef .tc Cert.ReferenceIdeal.main_arg6) = W0 m ρ c (Proc.devRef .tc Cert.KernelIdeal.main_arg6) := h.2.2.2.2.2.2.1
theorem L_arg7 (h : Agree m m' c) : L m' c (Proc.devRef .tc Cert.ReferenceIdeal.main_arg7) = W0 m ρ c (Proc.devRef .tc Cert.KernelIdeal.main_arg7) := h.2.2.2.2.2.2.2.1
theorem L_arg8 (h : Agree m m' c) : L m' c (Proc.devRef .tc Cert.ReferenceIdeal.main_arg8) = W0 m ρ c (Proc.devRef .tc Cert.KernelIdeal.main_arg8) := h.2.2.2.2.2.2.2.2.1
theorem L_arg9 (h : Agree m m' c) : L m' c (Proc.devRef .tc Cert.ReferenceIdeal.main_arg9) = W0 m ρ c (Proc.devRef .tc Cert.KernelIdeal.main_arg9) := h.2.2.2.2.2.2.2.2.2.1
theorem L_arg10 (h : Agree m m' c) : L m' c (Proc.devRef .tc Cert.ReferenceIdeal.main_arg10) = W0 m ρ c (Proc.devRef .tc Cert.KernelIdeal.main_arg10) := h.2.2.2.2.2.2.2.2.2.2.1
theorem L_arg11 (h : Agree m m' c) : L m' c (Proc.devRef .tc Cert.ReferenceIdeal.main_arg11) = W0 m ρ c (Proc.devRef .tc Cert.KernelIdeal.main_arg11) := h.2.2.2.2.2.2.2.2.2.2.2.1
theorem L_arg12 (h : Agree m m' c) : L m' c (Proc.devRef .tc Cert.ReferenceIdeal.main_arg12) = W0 m ρ c (Proc.devRef .tc Cert.KernelIdeal.main_arg12) := h.2.2.2.2.2.2.2.2.2.2.2.2.1
theorem L_arg13 (h : Agree m m' c) : L m' c (Proc.devRef .tc Cert.ReferenceIdeal.main_arg13) = W0 m ρ c (Proc.devRef .tc Cert.KernelIdeal.main_arg13) := h.2.2.2.2.2.2.2.2.2.2.2.2.2.1
theorem L_arg14 (h : Agree m m' c) : L m' c (Proc.devRef .tc Cert.ReferenceIdeal.main_arg14) = W0 m ρ c (Proc.devRef .tc Cert.KernelIdeal.main_arg14) := h.2.2.2.2.2.2.2.2.2.2.2.2.2.2.1
theorem L_arg15 (h : Agree m m' c) : L m' c (Proc.devRef .tc Cert.ReferenceIdeal.main_arg15) = W0 m ρ c (Proc.devRef .tc Cert.KernelIdeal.main_arg15) := h.2.2.2.2.2.2.2.2.2.2.2.2.2.2.2.1
theorem L_arg16 (h : Agree m m' c) : L m' c (Proc.devRef .tc Cert.ReferenceIdeal.main_arg16) = W0 m ρ c (Proc.devRef .tc Cert.KernelIdeal.main_arg16) := h.2.2.2.2.2.2.2.2.2.2.2.2.2.2.2.2

/-- A vector over the edges as a one-column matrix. -/
def colE (n : FVec Ideal Cert.KernelIdeal.S3200000 .f32) : FVec Ideal Cert.KernelIdeal.S3200000x1 .f32 :=
  shapeCast Cert.KernelIdeal.S3200000x1 n Cert.KernelIdeal.Gen.shapeCasts_S3200000_S3200000x1
/-- A vector over the nodes as a one-column matrix. -/
def colN (n : FVec Ideal Cert.KernelIdeal.S100000 .f32) : FVec Ideal Cert.KernelIdeal.S100000x1 .f32 :=
  shapeCast Cert.KernelIdeal.S100000x1 n Cert.KernelIdeal.Gen.shapeCasts_S100000_S100000x1
/-- The reciprocal of a degree vector, as the reference spells it: ones divided by the degrees. -/
def recip (d : FVec Ideal Cert.ReferenceIdeal.S100000 .f32) : FVec Ideal Cert.ReferenceIdeal.S100000 .f32 :=
  Host.divf (F := Ideal) (broadcastInDim Cert.ReferenceIdeal.S100000 ![] Cert.ReferenceIdeal.Gen.bcast_S_S100000
    (constant (F := Ideal) Cert.ReferenceIdeal.S_ .f32 0x3F800000#32)) d

/-- Evaluates a fold of host operations, on either program, down to the launch contents. -/
macro "eval_both" : tactic =>
  `(tactic| (simp (disch := decide) only [W1, W2, W3, W5, W7, W9, W11, W13,
      hostOps0, hostOps0_1, hostOps0_2, hostOps1, hostOps2, hostOps3, hostOps4, hostOps5,
      U1, U2, U3, U4, U5, U6, U7, U8, U9, U10, U11, U12, U13, U14, U15,
      B1, B2, B3, B4, B5, B6, B7, B8, B9, B10, B11, B12, B13, B14, B15,
      after_cons, after_nil,
      nullary_result', unary_result', binary_result', ternary_result', quaternary_result', reshape_result',
      nullary_result_ne', unary_result_ne', binary_result_ne', ternary_result_ne', quaternary_result_ne', reshape_result_ne']))

/-! ## Before the first region -/

theorem src_eq (h : Agree m m' c) :
    W3 m ρ c (Proc.devRef .tc Cert.KernelIdeal.main_v1) = U1 (L m' c) (Proc.devRef .tc Cert.ReferenceIdeal.main_v1) := by
  eval_both
  rw [L_arg1 m ρ m' c h]
  first | rfl | skip

theorem dst_eq (h : Agree m m' c) :
    W3 m ρ c (Proc.devRef .tc Cert.KernelIdeal.main_v3) = U1 (L m' c) (Proc.devRef .tc Cert.ReferenceIdeal.main_v3) := by
  eval_both
  rw [L_arg1 m ρ m' c h]
  first | rfl | skip

attribute [local irreducible] Host.reduceAdd Host.reduce Host.gather Host.scatterAdd in
theorem feat_eq (h : Agree m m' c) :
    W3 m ρ c (Proc.devRef .tc Cert.KernelIdeal.main_v48) = U2 (L m' c) (Proc.devRef .tc Cert.ReferenceIdeal.main_v22) := by
  eval_both
  rw [L_arg0 m ρ m' c h, L_arg3 m ρ m' c h, L_arg4 m ρ m' c h]
  first | rfl | skip

attribute [local irreducible] Host.reduceAdd Host.reduce Host.gather Host.scatterAdd in
theorem weight_eq (h : Agree m m' c) :
    W3 m ρ c (Proc.devRef .tc Cert.KernelIdeal.main_v26) = colE (U4 (L m' c) (Proc.devRef .tc Cert.ReferenceIdeal.main_v45)) := by
  unfold colE
  eval_both
  rw [L_arg1 m ρ m' c h]
  first | rfl | skip

attribute [local irreducible] Host.reduceAdd Host.reduce Host.gather Host.scatterAdd in
theorem weight_eq' (h : Agree m m' c) :
    W3 m ρ c (Proc.devRef .tc Cert.KernelIdeal.main_v26) = colE (U9 (L m' c) (Proc.devRef .tc Cert.ReferenceIdeal.main_v90)) := by
  unfold colE
  eval_both
  rw [L_arg1 m ρ m' c h]
  first | rfl | skip

attribute [local irreducible] Host.reduceAdd Host.reduce Host.gather Host.scatterAdd in
theorem invdeg_eq (h : Agree m m' c) :
    W3 m ρ c (Proc.devRef .tc Cert.KernelIdeal.main_v29)
      = colN (recip (U4 (L m' c) (Proc.devRef .tc Cert.ReferenceIdeal.main_v29))) := by
  unfold colN recip
  eval_both
  rw [L_arg1 m ρ m' c h]
  first | rfl | skip

attribute [local irreducible] Host.reduceAdd Host.reduce Host.gather Host.scatterAdd in
theorem invdeg_eq' (h : Agree m m' c) :
    W3 m ρ c (Proc.devRef .tc Cert.KernelIdeal.main_v29)
      = colN (recip (U9 (L m' c) (Proc.devRef .tc Cert.ReferenceIdeal.main_v74))) := by
  unfold colN recip
  eval_both
  rw [L_arg1 m ρ m' c h]
  first | rfl | skip

end Cert.Bridge

end
-- ==== Proof.LibColumnLayout.lean ====
/-
  Column layouts read at an index: a vector `[a]` cast to the column `[a, 1]`, a column `[a, 1]` broadcast along
  its unit axis to `[a, b]`, and a vector `[b]` cast to the row `[1, b]`; each is the operand at the
  coordinate the unit axis forgets. General lemmas over literal-size coordinates (`ValueIdx.ix1`, `ValueIdx.ix2`), in the
  style of the library's leading-unit-axis casts and row broadcast.
-/
import Idealize.ShloMosaic.Lib.ValueIdx
import Idealize.ShloMosaic.Lib.ValueLayout
import Idealize.ShloMosaic.Lib.Pipeline.Value

noncomputable section

namespace Idealize.ShloMosaic.ColumnLayout

open Idealize.ShloMosaic Idealize.ShloMosaic.ValueIdx

variable {α : Type}

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ColumnLayout

end
-- ==== Proof.SpecRegions.lean ====
/-
  The value of each of the first five kernel regions as ONE whole-array function of the arrays the region reads,
  index by index over the literal shapes: a row block of a matrix product is the rows' product, a row block of a
  pointwise expression is the expression on those rows, so each region's output array is the function below of its
  whole input arrays.
-/
import proofs.«168348_j77421080478261_2_alg».proof.KernelIdeal
import proofs.«168348_j77421080478261_2_alg».proof.ReferenceIdeal
import proofs.«168348_j77421080478261_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RegionValue

open Cert.KernelIdeal Idealize.ShloMosaic Idealize.ShloMosaic.ValueIdx

/-! ## The five functions -/

/-- Region 0: the node features times the first weight matrix, `out(n, j) = Σ_k h(n, k) · W(k, j)`. -/
def G0 (h : FVec Ideal S100000x4 .f32) (W : FVec Ideal S4x64 .f32) : FVec Ideal S100000x64 .f32 :=
  fun i => ∑ k : Fin 4, h (ix2 (n0 := 100000) (i 0) k) * W (ix2 k (n1 := 64) (i 1))

/-- Regions 1 and 3: every gathered row scaled by its edge's weight, `out(e, j) = g(e, j) · n(e, 0)`. -/
def G1 (g : FVec Ideal S3200000x64 .f32) (n : FVec Ideal S3200000x1 .f32) : FVec Ideal S3200000x64 .f32 :=
  fun i => g i * n (ix2 (n0 := 3200000) (i 0) (0 : Fin 1))

/-- Region 4: the aggregate plus the self term plus the bias row,
    `out(n, j) = (agg(n, j) + h(n, j) · invdeg(n, 0)) + b(0, j)`. -/
def G4 (agg h : FVec Ideal S100000x64 .f32) (invd : FVec Ideal S100000x1 .f32) (b : FVec Ideal S1x64 .f32) :
    FVec Ideal S100000x64 .f32 :=
  fun i => (agg i + h i * invd (ix2 (n0 := 100000) (i 0) (0 : Fin 1))) + b (ix2 (0 : Fin 1) (n1 := 64) (i 1))

/-- Region 2: that same row expression times the second weight matrix,
    `out(n, j) = Σ_k ((agg(n, k) + h(n, k) · invdeg(n, 0)) + b(0, k)) · W(k, j)`. -/
def G2 (agg h : FVec Ideal S100000x64 .f32) (invd : FVec Ideal S100000x1 .f32) (b : FVec Ideal S1x64 .f32)
    (W : FVec Ideal S64x64 .f32) : FVec Ideal S100000x64 .f32 :=
  fun i => ∑ k : Fin 64,
    ((agg (ix2 (n0 := 100000) (i 0) k) + h (ix2 (n0 := 100000) (i 0) k) * invd (ix2 (n0 := 100000) (i 0) (0 : Fin 1)))
        + b (ix2 (0 : Fin 1) k)) * W (ix2 k (n1 := 64) (i 1))

/-! ## Each at coordinates -/

theorem G0_apply (h : FVec Ideal S100000x4 .f32) (W : FVec Ideal S4x64 .f32) (n : Fin 100000) (j : Fin 64) :
    G0 h W (ix2 n j) = ∑ k : Fin 4, h (ix2 n k) * W (ix2 k j) := rfl

theorem G1_apply (g : FVec Ideal S3200000x64 .f32) (n : FVec Ideal S3200000x1 .f32) (e : Fin 3200000) (j : Fin 64) :
    G1 g n (ix2 e j) = g (ix2 e j) * n (ix2 e (0 : Fin 1)) := rfl

theorem G4_apply (agg h : FVec Ideal S100000x64 .f32) (invd : FVec Ideal S100000x1 .f32) (b : FVec Ideal S1x64 .f32)
    (n : Fin 100000) (j : Fin 64) :
    G4 agg h invd b (ix2 n j) = (agg (ix2 n j) + h (ix2 n j) * invd (ix2 n (0 : Fin 1))) + b (ix2 (0 : Fin 1) j) := rfl

theorem G2_apply (agg h : FVec Ideal S100000x64 .f32) (invd : FVec Ideal S100000x1 .f32) (b : FVec Ideal S1x64 .f32)
    (W : FVec Ideal S64x64 .f32) (n : Fin 100000) (j : Fin 64) :
    G2 agg h invd b W (ix2 n j)
      = ∑ k : Fin 64, ((agg (ix2 n k) + h (ix2 n k) * invd (ix2 n (0 : Fin 1))) + b (ix2 (0 : Fin 1) k)) * W (ix2 k j) := rfl

/-- Region 2 is region 0's product shape applied to region 4's row expression. -/
theorem G2_eq_sum_G4 (agg h : FVec Ideal S100000x64 .f32) (invd : FVec Ideal S100000x1 .f32) (b : FVec Ideal S1x64 .f32)
    (W : FVec Ideal S64x64 .f32) (n : Fin 100000) (j : Fin 64) :
    G2 agg h invd b W (ix2 n j) = ∑ k : Fin 64, G4 agg h invd b (ix2 n k) * W (ix2 k j) := rfl

end Cert.KernelIdeal.RegionValue

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.Region0.lean ====
/-
  Region 0 (the node features times the first weight matrix): the output array after the region is `G0` of the two
  arrays the region reads. Point `t` of the 10 writes back rows `10000·t … 10000·t + 9999`; a row of the product
  depends on that row of the left operand only, so on those rows the body's product of its loaded blocks is `G0` of the
  whole arrays, and the 10 row blocks cover the array.
-/
import proofs.«168348_j77421080478261_2_alg».proof.Proof.Gen.KernelIdeal.Frame
import proofs.«168348_j77421080478261_2_alg».proof.Proof.SpecRegions
import proofs.«168348_j77421080478261_2_alg».proof.Proof.LibPlainProduct

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant function. -/
theorem zeroOffsets0 : (![0, 0] : Fin 2 → Nat) = fun _ => 0 := funext fun a => by fin_cases a <;> rfl

/-- The body's product at a row and a column of the block: the row of the loaded block times the column of the
    weights (the format changes are the identity at the ideal values). -/
theorem rowsTimes_apply (x0 : Vec Ideal S10000x4 .f32) (x1 : Vec Ideal S4x64 .f32) (p : Fin 10000) (q : Fin 64) :
    k0_pay1 x0 x1 (ix2 p q) = ∑ c : Fin 4, x0 (ix2 p c) * x1 (ix2 c q) := by
  unfold k0_pay1
  show matmul dot_S10000x4_S4x64_S10000x64_1_0_0_1_n_n none
      (truncf .bf16 (shapeCast S10000x4 x0 shapeCasts_S10000x4_S10000x4) bitsLt_bf16_f32) (truncf .bf16 x1 bitsLt_bf16_f32)
      (constant (F := Ideal) S10000x64 .f32 0x00000000#32) (ix2 p q) = _
  rw [shapeCast_self]
  exact PlainProduct.matmul_zero_apply dot_S10000x4_S4x64_S10000x64_1_0_0_1_n_n_wf none
    (truncf .bf16 x0 bitsLt_bf16_f32) (truncf .bf16 x1 bitsLt_bf16_f32) p q

/-- A block whose row `j 0` is the left array's row `i 0`, beside weights whose column `j 1` is the right array's
    column `i 1`, has at `j` the value of `G0` at `i`. -/
theorem rowsTimes_block (A : FVec Ideal S100000x4 .f32) (W : FVec Ideal S4x64 .f32)
    (x0 : Vec Ideal S10000x4 .f32) (x1 : Vec Ideal S4x64 .f32) (j : S10000x64.Idx) (i : S100000x64.Idx)
    (h0 : ∀ c : Fin 4, x0 (ix2 (n0 := 10000) (j 0) c) = A (ix2 (n0 := 100000) (i 0) c))
    (h1 : ∀ c : Fin 4, x1 (ix2 c (n1 := 64) (j 1)) = W (ix2 c (n1 := 64) (i 1))) :
    k0_pay1 x0 x1 j = G0 A W i := by
  obtain ⟨p, q, rfl⟩ : ∃ (p : Fin 10000) (q : Fin 64), j = ix2 p q := ⟨j 0, j 1, eq_ix2 j⟩
  rw [rowsTimes_apply]
  show _ = ∑ c : Fin 4, A (ix2 (n0 := 100000) (i 0) c) * W (ix2 c (n1 := 64) (i 1))
  exact Finset.sum_congr rfl fun c _ => by rw [← h0 c, ← h1 c]

/-- The printed index maps, decided over the 10 points: the left operand's row block moves with the output's, whose
    block index is the point itself on the rows; every other block index is zero. -/
theorem rowBlocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of `G0` of the arrays as the region finds them. -/
theorem flushed0_eq (c : Dev nD) (t : Fin cfg0.N) :
    (dat0 V c).flushed 2 t = ((cfg0.win 2).blk t).view.read (Elt Ideal) (G0 (V c main_v48) (V c main_arg5)) := by
  show (cfg0.win 2).cut (grid0.coords t) ((dat0 V c).after 2 t) = _
  rw [after0_2]
  unfold out0_2
  rw [View.canon_unit_zero zeroOffsets0]
  simp only [View.ld_unit_zero (S := S10000x4) zeroOffsets0, View.ld_unit_zero (S := S4x64) zeroOffsets0]
  obtain ⟨e0, e1, e2, e3, e4, e5⟩ := rowBlocks0 t
  funext j
  refine rowsTimes_block (V c main_v48) (V c main_arg5) (iblk0 V c 0 t) (iblk0 V c 1 t) j (((cfg0.win 2).blk t).view.emb j) ?_ ?_
  · intro k
    show V c main_v48 (((cfg0.win 0).blk t).view.emb (ix2 (n0 := 10000) (j 0) k))
      = V c main_v48 (ix2 (n0 := 100000) ((((cfg0.win 2).blk t).view.emb j) 0) k)
    refine congrArg (V c main_v48) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 4 + 1 * k.val = k.val; omega
  · intro k
    show V c main_arg5 (((cfg0.win 1).blk t).view.emb (ix2 k (n1 := 64) (j 1)))
      = V c main_arg5 (ix2 k (n1 := 64) ((((cfg0.win 2).blk t).view.emb j) 1))
    refine congrArg (V c main_arg5) (funext fun a => Fin.ext ?_)
    match a with
    | ⟨0, _⟩ => show win0_1.index t (0 : Fin 2) * 4 + 1 * k.val = k.val; omega
    | ⟨1, _⟩ => show win0_1.index t (1 : Fin 2) * 64 + 1 * (j 1).val = win0_2.index t (1 : Fin 2) * 64 + 1 * (j 1).val; omega

/-- An index of the array is in point `t`'s block iff each coordinate is in the block's range on its axis. -/
theorem mem_rowBlock0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v49).slice (win0_2.rect t)).set ↔ _
  rw [View.set_slice_whole, Rect.mem_set_unit]
  exact Iff.rfl

/-- Every row is in the block of the point `row / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := rfl
  let t : Fin cfg0.N := ⟨(i 0).val / 10000, by rw [hN]; omega⟩
  obtain ⟨e0, e1, e2, e3, e4, e5⟩ := rowBlocks0 t
  have ht : t.val = (i 0).val / 10000 := rfl
  refine ⟨t, flush0_2 t, ?_⟩
  rw [mem_rowBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY after region 0: `G0` of the node features and the first weight matrix. -/
theorem final0 (c : Dev nD) : (dat0 V c).arrAt 2 cfg0.N = G0 (V c main_v48) (V c main_arg5) :=
  (dat0 V c).arrAt_eq_of_cover 2 (G0 (V c main_v48) (V c main_arg5)) (fun t _ => flushed0_eq V c t) cover0

end Cert.KernelIdeal.RegionValue

end
-- ==== Proof.Region1.lean ====
/-
  Region 1 (every gathered row scaled by its edge's weight): the output array after the region is `G1` of the two
  arrays the region reads. Point `t` of the 320 writes back rows `10000·t … 10000·t + 9999`; on those rows the body's
  product of its loaded blocks is `G1` of the whole arrays, and the 320 row blocks cover the array.
-/
import proofs.«168348_j77421080478261_2_alg».proof.Proof.Gen.KernelIdeal.Frame
import proofs.«168348_j77421080478261_2_alg».proof.Proof.SpecRegions

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.ColumnLayout

variable (V : (c : Dev nD) → (b : Ref sig .tc) → Buf (Elt Ideal) ((c : Thread nD τ).loc b))

/-- The zero offsets of a whole-buffer access, as the constant function. -/
theorem zeroOffsets2 : (![0, 0] : Fin 2 → Nat) = fun _ => 0 := funext fun a => by fin_cases a <;> rfl

/-- The body's product at a row and a lane of the block: the loaded entry times the row's weight. -/
theorem scaleRows_apply (x0 : Vec Ideal S10000x64 .f32) (x1 : Vec Ideal S10000x1 .f32) (p : Fin 10000) (q : Fin 64) :
    k1_pay1 x0 x1 (ix2 p q) = x0 (ix2 p q) * x1 (ix2 p (0 : Fin 1)) := by
  unfold k1_pay1
  show (shapeCast S10000x64 x0 shapeCasts_S10000x64_S10000x64) (ix2 p q)
      * broadcastTo S10000x64 (shapeCast S10000x1 x1 shapeCasts_S10000x1_S10000x1) broadcasts_S10000x1_S10000x64 (ix2 p q) = _
  rw [shapeCast_self, shapeCast_self]
  exact congrArg (x0 (ix2 p q) * ·) (broadcastTo_a1_ab_apply x1 broadcasts_S10000x1_S10000x64 p q)

/-- The same at any index of the block. -/
theorem scaleRows_at (x0 : Vec Ideal S10000x64 .f32) (x1 : Vec Ideal S10000x1 .f32) (j : S10000x64.Idx) :
    k1_pay1 x0 x1 j = x0 j * x1 (ix2 (n0 := 10000) (j 0) (0 : Fin 1)) := by
  obtain ⟨p, q, rfl⟩ : ∃ (p : Fin 10000) (q : Fin 64), j = ix2 p q := ⟨j 0, j 1, eq_ix2 j⟩
  exact scaleRows_apply x0 x1 p q

/-- A block whose entries are the arrays' entries at an index `i` and at `i`'s row has, there, the value of `G1` at `i`. -/
theorem scaleRows_block (A : FVec Ideal S3200000x64 .f32) (B : FVec Ideal S3200000x1 .f32)
    (x0 : Vec Ideal S10000x64 .f32) (x1 : Vec Ideal S10000x1 .f32) (j : S10000x64.Idx) (i : S3200000x64.Idx)
    (h0 : x0 j = A i) (h1 : x1 (ix2 (n0 := 10000) (j 0) (0 : Fin 1)) = B (ix2 (n0 := 3200000) (i 0) (0 : Fin 1))) :
    k1_pay1 x0 x1 j = G1 A B i := by
  rw [scaleRows_at, h0, h1]; rfl

/-- The printed index maps, decided over the 320 points: both inputs' row blocks move with the output's, whose block
    index is the point itself on the rows and zero on the lanes. -/
theorem rowBlocks1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- WHAT POINT `t` WRITES BACK is block `t` of `G1` of the arrays as the region finds them. -/
theorem flushed1_eq (c : Dev nD) (t : Fin cfg1.N) :
    (dat1 V c).flushed 2 t = ((cfg1.win 2).blk t).view.read (Elt Ideal) (G1 (V c main_v56) (V c main_v26)) := by
  show (cfg1.win 2).cut (grid1.coords t) ((dat1 V c).after 2 t) = _
  rw [after1_2]
  unfold out1_2
  rw [View.canon_unit_zero zeroOffsets2]
  simp only [View.ld_unit_zero (S := S10000x64) zeroOffsets2, View.ld_unit_zero (S := S10000x1) zeroOffsets2]
  obtain ⟨e0, e1, e2, e3, e4, e5⟩ := rowBlocks1 t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (n0 := 10000) (j 0) (0 : Fin 1))
      = ix2 (n0 := 3200000) ((((cfg1.win 2).blk t).view.emb j) 0) (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  refine scaleRows_block (V c main_v56) (V c main_v26) (iblk1 V c 0 t) (iblk1 V c 1 t) j (((cfg1.win 2).blk t).view.emb j) ?_ ?_
  · show V c main_v56 (((cfg1.win 0).blk t).view.emb j) = V c main_v56 (((cfg1.win 2).blk t).view.emb j)
    exact congrArg (V c main_v56) h0
  · show V c main_v26 (((cfg1.win 1).blk t).view.emb (ix2 (n0 := 10000) (j 0) (0 : Fin 1)))
      = V c main_v26 (ix2 (n0 := 3200000) ((((cfg1.win 2).blk t).view.emb j) 0) (0 : Fin 1))
    exact congrArg (V c main_v26) h1

/-- An index of the array is in point `t`'s block iff each coordinate is in the block's range on its axis. -/
theorem mem_rowBlock1 (t : Fin cfg1.N) (i : S3200000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v57).slice (win1_2.rect t)).set ↔ _
  rw [View.set_slice_whole, Rect.mem_set_unit]
  exact Iff.rfl

/-- Every row is in the block of the point `row / 10000`. -/
theorem cover1 (i : S3200000x64.Idx) : ∃ t : Fin cfg1.N, (cfg1.win 2).flush t = true ∧ i ∈ ((cfg1.win 2).blk t).view.set := by
  have hi0 : (i 0).val < 3200000 := (i 0).isLt
  have hi1 : (i 1).val < 64 := (i 1).isLt
  have hN : cfg1.N = 320 := rfl
  let t : Fin cfg1.N := ⟨(i 0).val / 10000, by rw [hN]; omega⟩
  obtain ⟨e0, e1, e2, e3, e4, e5⟩ := rowBlocks1 t
  have ht : t.val = (i 0).val / 10000 := rfl
  refine ⟨t, flush1_2 t, ?_⟩
  rw [mem_rowBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE ARRAY after region 1: `G1` of the gathered rows and the edge weights. -/
theorem final1 (c : Dev nD) : (dat1 V c).arrAt 2 cfg1.N = G1 (V c main_v56) (V c main_v26) :=
  (dat1 V c).arrAt_eq_of_cover 2 (G1 (V c main_v56) (V c main_v26)) (fun t _ => flushed1_eq V c t) cover1

end Cert.KernelIdeal.RegionValue

end
-- ==== Proof.Region4.lean ====
/-
  Region 4 (the aggregate plus the self term plus the bias row): the output array after the region is `G4` of the four
  arrays the region reads. Point `t` of the 10 writes back rows `10000·t … 10000·t + 9999`; the expression is
  pointwise in the row, so on those rows the body's value on its loaded blocks is `G4` of the whole arrays, and the 10
  row blocks cover the array.
-/
import proofs.«168348_j77421080478261_2_alg».proof.Proof.Gen.KernelIdeal.Frame
import proofs.«168348_j77421080478261_2_alg».proof.Proof.SpecRegions

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.ColumnLayout

variable (V : (c : Dev nD) → (b : Ref sig .tc) → Buf (Elt Ideal) ((c : Thread nD τ).loc b))

/-- The zero offsets of a whole-buffer access, as the constant function. -/
theorem zeroOffsets4 : (![0, 0] : Fin 2 → Nat) = fun _ => 0 := funext fun a => by fin_cases a <;> rfl

/-- The body's value at a row and a lane of the block. -/
theorem finalizeRows_apply (x0 x1 : Vec Ideal S10000x64 .f32) (x2 : Vec Ideal S10000x1 .f32) (x3 : Vec Ideal S1x64 .f32)
    (p : Fin 10000) (q : Fin 64) :
    k4_pay1 x0 x1 x2 x3 (ix2 p q) = (x0 (ix2 p q) + x1 (ix2 p q) * x2 (ix2 p (0 : Fin 1))) + x3 (ix2 (0 : Fin 1) q) := by
  unfold k4_pay1
  show (shapeCast S10000x64 x0 shapeCasts_S10000x64_S10000x64 (ix2 p q)
        + shapeCast S10000x64 x1 shapeCasts_S10000x64_S10000x64 (ix2 p q)
          * broadcastTo S10000x64 (shapeCast S10000x1 x2 shapeCasts_S10000x1_S10000x1) broadcasts_S10000x1_S10000x64 (ix2 p q))
      + broadcastTo S10000x64 (shapeCast S1x64 x3 shapeCasts_S1x64_S1x64) broadcasts_S1x64_S10000x64 (ix2 p q) = _
  rw [shapeCast_self, shapeCast_self, shapeCast_self, shapeCast_self]
  rw [broadcastTo_a1_ab_apply x2 broadcasts_S10000x1_S10000x64 p q, broadcastTo_1b_ab_apply x3 broadcasts_S1x64_S10000x64 p q]

/-- The same at any index of the block. -/
theorem finalizeRows_at (x0 x1 : Vec Ideal S10000x64 .f32) (x2 : Vec Ideal S10000x1 .f32) (x3 : Vec Ideal S1x64 .f32)
    (j : S10000x64.Idx) :
    k4_pay1 x0 x1 x2 x3 j
      = (x0 j + x1 j * x2 (ix2 (n0 := 10000) (j 0) (0 : Fin 1))) + x3 (ix2 (0 : Fin 1) (n1 := 64) (j 1)) := by
  obtain ⟨p, q, rfl⟩ : ∃ (p : Fin 10000) (q : Fin 64), j = ix2 p q := ⟨j 0, j 1, eq_ix2 j⟩
  exact finalizeRows_apply x0 x1 x2 x3 p q

/-- A block whose entries are the arrays' entries at an index `i`, at `i`'s row and at `i`'s lane has, there, the
    value of `G4` at `i`. -/
theorem finalizeRows_block (A H : FVec Ideal S100000x64 .f32) (D : FVec Ideal S100000x1 .f32) (B : FVec Ideal S1x64 .f32)
    (x0 x1 : Vec Ideal S10000x64 .f32) (x2 : Vec Ideal S10000x1 .f32) (x3 : Vec Ideal S1x64 .f32)
    (j : S10000x64.Idx) (i : S100000x64.Idx)
    (h0 : x0 j = A i) (h1 : x1 j = H i)
    (h2 : x2 (ix2 (n0 := 10000) (j 0) (0 : Fin 1)) = D (ix2 (n0 := 100000) (i 0) (0 : Fin 1)))
    (h3 : x3 (ix2 (0 : Fin 1) (n1 := 64) (j 1)) = B (ix2 (0 : Fin 1) (n1 := 64) (i 1))) :
    k4_pay1 x0 x1 x2 x3 j = G4 A H D B i := by
  rw [finalizeRows_at, h0, h1, h2, h3]; rfl

/-- The printed index maps, decided over the 10 points: the three row-blocked inputs move with the output, whose block
    index is the point itself on the rows; every other block index is zero. -/
theorem rowBlocks4 : ∀ t : Fin cfg4.N, win4_0.index t (0 : Fin 2) = win4_4.index t (0 : Fin 2)
    ∧ win4_0.index t (1 : Fin 2) = win4_4.index t (1 : Fin 2)
    ∧ win4_1.index t (0 : Fin 2) = win4_4.index t (0 : Fin 2)
    ∧ win4_1.index t (1 : Fin 2) = win4_4.index t (1 : Fin 2)
    ∧ win4_2.index t (0 : Fin 2) = win4_4.index t (0 : Fin 2)
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

/-- WHAT POINT `t` WRITES BACK is block `t` of `G4` of the arrays as the region finds them. -/
theorem flushed4_eq (c : Dev nD) (t : Fin cfg4.N) :
    (dat4 V c).flushed 4 t
      = ((cfg4.win 4).blk t).view.read (Elt Ideal) (G4 (V c main_v73) (V c main_v62) (V c main_v29) (V c main_v74)) := by
  show (cfg4.win 4).cut (grid4.coords t) ((dat4 V c).after 4 t) = _
  rw [after4_4]
  unfold out4_4
  rw [View.canon_unit_zero zeroOffsets4]
  simp only [View.ld_unit_zero (S := S10000x64) zeroOffsets4, View.ld_unit_zero (S := S10000x1) zeroOffsets4,
    View.ld_unit_zero (S := S1x64) zeroOffsets4]
  obtain ⟨e0, e1, e2, e3, e4, e5, e6, e7, e8, e9⟩ := rowBlocks4 t
  funext j
  refine finalizeRows_block (V c main_v73) (V c main_v62) (V c main_v29) (V c main_v74)
    (iblk4 V c 0 t) (iblk4 V c 1 t) (iblk4 V c 2 t) (iblk4 V c 3 t) j (((cfg4.win 4).blk t).view.emb j) ?_ ?_ ?_ ?_
  · show V c main_v73 (((cfg4.win 0).blk t).view.emb j) = V c main_v73 (((cfg4.win 4).blk t).view.emb j)
    refine congrArg (V c main_v73) (funext fun a => Fin.ext ?_)
    match a with
    | ⟨0, _⟩ => show win4_0.index t (0 : Fin 2) * 10000 + 1 * (j 0).val = win4_4.index t (0 : Fin 2) * 10000 + 1 * (j 0).val; omega
    | ⟨1, _⟩ => show win4_0.index t (1 : Fin 2) * 64 + 1 * (j 1).val = win4_4.index t (1 : Fin 2) * 64 + 1 * (j 1).val; omega
  · show V c main_v62 (((cfg4.win 1).blk t).view.emb j) = V c main_v62 (((cfg4.win 4).blk t).view.emb j)
    refine congrArg (V c main_v62) (funext fun a => Fin.ext ?_)
    match a with
    | ⟨0, _⟩ => show win4_1.index t (0 : Fin 2) * 10000 + 1 * (j 0).val = win4_4.index t (0 : Fin 2) * 10000 + 1 * (j 0).val; omega
    | ⟨1, _⟩ => show win4_1.index t (1 : Fin 2) * 64 + 1 * (j 1).val = win4_4.index t (1 : Fin 2) * 64 + 1 * (j 1).val; omega
  · show V c main_v29 (((cfg4.win 2).blk t).view.emb (ix2 (n0 := 10000) (j 0) (0 : Fin 1)))
      = V c main_v29 (ix2 (n0 := 100000) ((((cfg4.win 4).blk t).view.emb j) 0) (0 : Fin 1))
    refine congrArg (V c main_v29) (funext fun a => Fin.ext ?_)
    match a with
    | ⟨0, _⟩ => show win4_2.index t (0 : Fin 2) * 10000 + 1 * (j 0).val = win4_4.index t (0 : Fin 2) * 10000 + 1 * (j 0).val; omega
    | ⟨1, _⟩ => show win4_2.index t (1 : Fin 2) * 1 + 1 * 0 = 0; omega
  · show V c main_v74 (((cfg4.win 3).blk t).view.emb (ix2 (0 : Fin 1) (n1 := 64) (j 1)))
      = V c main_v74 (ix2 (0 : Fin 1) (n1 := 64) ((((cfg4.win 4).blk t).view.emb j) 1))
    refine congrArg (V c main_v74) (funext fun a => Fin.ext ?_)
    match a with
    | ⟨0, _⟩ => show win4_3.index t (0 : Fin 2) * 1 + 1 * 0 = 0; omega
    | ⟨1, _⟩ => show win4_3.index t (1 : Fin 2) * 64 + 1 * (j 1).val = win4_4.index t (1 : Fin 2) * 64 + 1 * (j 1).val; omega

/-- An index of the array is in point `t`'s block iff each coordinate is in the block's range on its axis. -/
theorem mem_rowBlock4 (t : Fin cfg4.N) (i : S100000x64.Idx) :
    i ∈ ((cfg4.win 4).blk t).view.set ↔ ∀ a : Fin 2, win4_4.index t a * S10000x64.size a ≤ (i a).val ∧ (i a).val < win4_4.index t a * S10000x64.size a + S10000x64.size a := by
  show i ∈ ((View.whole main_v75).slice (win4_4.rect t)).set ↔ _
  rw [View.set_slice_whole, Rect.mem_set_unit]
  exact Iff.rfl

/-- Every row is in the block of the point `row / 10000`. -/
theorem cover4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 10 := rfl
  let t : Fin cfg4.N := ⟨(i 0).val / 10000, by rw [hN]; omega⟩
  obtain ⟨e0, e1, e2, e3, e4, e5, e6, e7, e8, e9⟩ := rowBlocks4 t
  have ht : t.val = (i 0).val / 10000 := rfl
  refine ⟨t, flush4_4 t, ?_⟩
  rw [mem_rowBlock4]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 64 ≤ (i 1).val ∧ (i 1).val < win4_4.index t (1 : Fin 2) * 64 + 64; omega

/-- THE ARRAY after region 4: `G4` of the aggregate, the features, the inverse degrees and the bias row. -/
theorem final4 (c : Dev nD) :
    (dat4 V c).arrAt 4 cfg4.N = G4 (V c main_v73) (V c main_v62) (V c main_v29) (V c main_v74) :=
  (dat4 V c).arrAt_eq_of_cover 4 (G4 (V c main_v73) (V c main_v62) (V c main_v29) (V c main_v74))
    (fun t _ => flushed4_eq V c t) cover4

end Cert.KernelIdeal.RegionValue

end
-- ==== Proof.Region2.lean ====
/-
  Region 2 (region 4's row expression times the second weight matrix): the output array after the region is `G2` of the
  five arrays the region reads. Point `t` of the 10 writes back rows `10000·t … 10000·t + 9999`; a row of the product
  depends on that row of the left operand only, and the left operand is pointwise in the row, so on those rows the
  body's value on its loaded blocks is `G2` of the whole arrays, and the 10 row blocks cover the array.
-/
import proofs.«168348_j77421080478261_2_alg».proof.Proof.Gen.KernelIdeal.Frame
import proofs.«168348_j77421080478261_2_alg».proof.Proof.SpecRegions
import proofs.«168348_j77421080478261_2_alg».proof.Proof.LibPlainProduct
import proofs.«168348_j77421080478261_2_alg».proof.Proof.Region4

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.ColumnLayout

variable (V : (c : Dev nD) → (b : Ref sig .tc) → Buf (Elt Ideal) ((c : Thread nD τ).loc b))

/-- The body is the product of region 4's row expression (of the first four blocks) with the weights, into the zero
    accumulator: the two bodies spell the same operations. -/
theorem finalizeLin_eq (x0 x1 : Vec Ideal S10000x64 .f32) (x2 : Vec Ideal S10000x1 .f32) (x3 : Vec Ideal S1x64 .f32)
    (x4 : Vec Ideal S64x64 .f32) :
    k2_pay1 x0 x1 x2 x3 x4
      = matmul dot_S10000x64_S64x64_S10000x64_1_0_0_1_n_n none (truncf .bf16 (k4_pay1 x0 x1 x2 x3) bitsLt_bf16_f32)
          (truncf .bf16 x4 bitsLt_bf16_f32) (constant (F := Ideal) S10000x64 .f32 0x00000000#32) := rfl

/-- The body's value at a row and a column of the block. -/
theorem finalizeLin_apply (x0 x1 : Vec Ideal S10000x64 .f32) (x2 : Vec Ideal S10000x1 .f32) (x3 : Vec Ideal S1x64 .f32)
    (x4 : Vec Ideal S64x64 .f32) (p : Fin 10000) (q : Fin 64) :
    k2_pay1 x0 x1 x2 x3 x4 (ix2 p q)
      = ∑ k : Fin 64, ((x0 (ix2 p k) + x1 (ix2 p k) * x2 (ix2 p (0 : Fin 1))) + x3 (ix2 (0 : Fin 1) k)) * x4 (ix2 k q) := by
  rw [finalizeLin_eq]
  refine (PlainProduct.matmul_zero_apply dot_S10000x64_S64x64_S10000x64_1_0_0_1_n_n_wf none
    (truncf .bf16 (k4_pay1 x0 x1 x2 x3) bitsLt_bf16_f32) (truncf .bf16 x4 bitsLt_bf16_f32) p q).trans ?_
  refine Finset.sum_congr rfl fun k _ => ?_
  show k4_pay1 x0 x1 x2 x3 (ix2 p k) * x4 (ix2 k q) = _
  rw [finalizeRows_apply]

/-- A block whose row `j 0` is the arrays' row `i 0`, beside a bias row that is the bias array's and weights whose
    column `j 1` is the weight array's column `i 1`, has at `j` the value of `G2` at `i`. -/
theorem finalizeLin_block (A H : FVec Ideal S100000x64 .f32) (D : FVec Ideal S100000x1 .f32) (B : FVec Ideal S1x64 .f32)
    (W : FVec Ideal S64x64 .f32)
    (x0 x1 : Vec Ideal S10000x64 .f32) (x2 : Vec Ideal S10000x1 .f32) (x3 : Vec Ideal S1x64 .f32) (x4 : Vec Ideal S64x64 .f32)
    (j : S10000x64.Idx) (i : S100000x64.Idx)
    (h0 : ∀ k : Fin 64, x0 (ix2 (n0 := 10000) (j 0) k) = A (ix2 (n0 := 100000) (i 0) k))
    (h1 : ∀ k : Fin 64, x1 (ix2 (n0 := 10000) (j 0) k) = H (ix2 (n0 := 100000) (i 0) k))
    (h2 : x2 (ix2 (n0 := 10000) (j 0) (0 : Fin 1)) = D (ix2 (n0 := 100000) (i 0) (0 : Fin 1)))
    (h3 : ∀ k : Fin 64, x3 (ix2 (0 : Fin 1) k) = B (ix2 (0 : Fin 1) k))
    (h4 : ∀ k : Fin 64, x4 (ix2 k (n1 := 64) (j 1)) = W (ix2 k (n1 := 64) (i 1))) :
    k2_pay1 x0 x1 x2 x3 x4 j = G2 A H D B W i := by
  obtain ⟨p, q, rfl⟩ : ∃ (p : Fin 10000) (q : Fin 64), j = ix2 p q := ⟨j 0, j 1, eq_ix2 j⟩
  rw [finalizeLin_apply]
  show _ = ∑ k : Fin 64,
    ((A (ix2 (n0 := 100000) (i 0) k) + H (ix2 (n0 := 100000) (i 0) k) * D (ix2 (n0 := 100000) (i 0) (0 : Fin 1)))
        + B (ix2 (0 : Fin 1) k)) * W (ix2 k (n1 := 64) (i 1))
  exact Finset.sum_congr rfl fun k _ => by rw [← h0 k, ← h1 k, ← h2, ← h3 k, ← h4 k]

/-- The printed index maps, decided over the 10 points: the three row-blocked inputs move with the output, whose block
    index is the point itself on the rows; every other block index is zero. -/
theorem rowBlocks2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = win2_5.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- WHAT POINT `t` WRITES BACK is block `t` of `G2` of the arrays as the region finds them. -/
theorem flushed2_eq (c : Dev nD) (t : Fin cfg2.N) :
    (dat2 V c).flushed 5 t
      = ((cfg2.win 5).blk t).view.read (Elt Ideal)
          (G2 (V c main_v60) (V c main_v49) (V c main_v29) (V c main_v61) (V c main_arg7)) := by
  show (cfg2.win 5).cut (grid2.coords t) ((dat2 V c).after 5 t) = _
  rw [after2_5]
  unfold out2_5
  rw [View.canon_unit_zero zeroOffsets4]
  simp only [View.ld_unit_zero (S := S10000x64) zeroOffsets4, View.ld_unit_zero (S := S10000x1) zeroOffsets4,
    View.ld_unit_zero (S := S1x64) zeroOffsets4, View.ld_unit_zero (S := S64x64) zeroOffsets4]
  obtain ⟨e0, e1, e2, e3, e4, e5, e6, e7, e8, e9, e10, e11⟩ := rowBlocks2 t
  funext j
  refine finalizeLin_block (V c main_v60) (V c main_v49) (V c main_v29) (V c main_v61) (V c main_arg7)
    (iblk2 V c 0 t) (iblk2 V c 1 t) (iblk2 V c 2 t) (iblk2 V c 3 t) (iblk2 V c 4 t) j (((cfg2.win 5).blk t).view.emb j)
    ?_ ?_ ?_ ?_ ?_
  · intro k
    show V c main_v60 (((cfg2.win 0).blk t).view.emb (ix2 (n0 := 10000) (j 0) k))
      = V c main_v60 (ix2 (n0 := 100000) ((((cfg2.win 5).blk t).view.emb j) 0) k)
    refine congrArg (V c main_v60) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * k.val = k.val; omega
  · intro k
    show V c main_v49 (((cfg2.win 1).blk t).view.emb (ix2 (n0 := 10000) (j 0) k))
      = V c main_v49 (ix2 (n0 := 100000) ((((cfg2.win 5).blk t).view.emb j) 0) k)
    refine congrArg (V c main_v49) (funext fun a => Fin.ext ?_)
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 64 + 1 * k.val = k.val; omega
  · show V c main_v29 (((cfg2.win 2).blk t).view.emb (ix2 (n0 := 10000) (j 0) (0 : Fin 1)))
      = V c main_v29 (ix2 (n0 := 100000) ((((cfg2.win 5).blk t).view.emb j) 0) (0 : Fin 1))
    refine congrArg (V c main_v29) (funext fun a => Fin.ext ?_)
    match a with
    | ⟨0, _⟩ => show win2_2.index t (0 : Fin 2) * 10000 + 1 * (j 0).val = win2_5.index t (0 : Fin 2) * 10000 + 1 * (j 0).val; omega
    | ⟨1, _⟩ => show win2_2.index t (1 : Fin 2) * 1 + 1 * 0 = 0; omega
  · intro k
    show V c main_v61 (((cfg2.win 3).blk t).view.emb (ix2 (0 : Fin 1) k)) = V c main_v61 (ix2 (0 : Fin 1) k)
    refine congrArg (V c main_v61) (funext fun a => Fin.ext ?_)
    match a with
    | ⟨0, _⟩ => show win2_3.index t (0 : Fin 2) * 1 + 1 * 0 = 0; omega
    | ⟨1, _⟩ => show win2_3.index t (1 : Fin 2) * 64 + 1 * k.val = k.val; omega
  · intro k
    show V c main_arg7 (((cfg2.win 4).blk t).view.emb (ix2 k (n1 := 64) (j 1)))
      = V c main_arg7 (ix2 k (n1 := 64) ((((cfg2.win 5).blk t).view.emb j) 1))
    refine congrArg (V c main_arg7) (funext fun a => Fin.ext ?_)
    match a with
    | ⟨0, _⟩ => show win2_4.index t (0 : Fin 2) * 64 + 1 * k.val = k.val; omega
    | ⟨1, _⟩ => show win2_4.index t (1 : Fin 2) * 64 + 1 * (j 1).val = win2_5.index t (1 : Fin 2) * 64 + 1 * (j 1).val; omega

/-- An index of the array is in point `t`'s block iff each coordinate is in the block's range on its axis. -/
theorem mem_rowBlock2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v62).slice (win2_5.rect t)).set ↔ _
  rw [View.set_slice_whole, Rect.mem_set_unit]
  exact Iff.rfl

/-- Every row is in the block of the point `row / 10000`. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := rfl
  let t : Fin cfg2.N := ⟨(i 0).val / 10000, by rw [hN]; omega⟩
  obtain ⟨e0, e1, e2, e3, e4, e5, e6, e7, e8, e9, e10, e11⟩ := rowBlocks2 t
  have ht : t.val = (i 0).val / 10000 := rfl
  refine ⟨t, flush2_5 t, ?_⟩
  rw [mem_rowBlock2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- THE ARRAY after region 2: `G2` of the aggregate, the features, the inverse degrees, the bias row and the second
    weight matrix. -/
theorem final2 (c : Dev nD) :
    (dat2 V c).arrAt 5 cfg2.N = G2 (V c main_v60) (V c main_v49) (V c main_v29) (V c main_v61) (V c main_arg7) :=
  (dat2 V c).arrAt_eq_of_cover 5 (G2 (V c main_v60) (V c main_v49) (V c main_v29) (V c main_v61) (V c main_arg7))
    (fun t _ => flushed2_eq V c t) cover2

end Cert.KernelIdeal.RegionValue

end
-- ==== Proof.LibBroadcastInDim.lean ====
/-
  The host's `broadcast_in_dim` in its four column-and-row forms, read at an index: a vector `[a]` laid as the column
  `[a, 1]` (dims `[0]`), a column `[a, 1]` spread along its unit axis to `[a, b]` (dims `[0, 1]`), a vector `[b]`
  laid as the row `[1, b]` (dims `[1]`), and a row `[1, b]` spread along its unit axis to `[a, b]` (dims `[0, 1]`).
  Each is the operand at the coordinate the unit axis forgets. General lemmas over literal-size coordinates
  (`ValueIdx.ix1`, `ValueIdx.ix2`).
-/
import Idealize.ShloMosaic.Lib.ValueIdx
import Idealize.ShloMosaic.Lib.Pipeline.Value

noncomputable section

namespace Idealize.ShloMosaic.BroadcastInDimForms

open Idealize.ShloMosaic Idealize.ShloMosaic.ValueIdx

variable {α : Type}

/-- A vector `[a]` laid as the column `[a, 1]` reads, at `(p, u)`, the vector at `p`. -/
theorem vector_to_column_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` spread to `[a, b]` reads, at `(p, q)`, the column's entry of row `p`. -/
theorem column_spread_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[b]` laid as the row `[1, b]` reads, at `(u, q)`, the vector at `q`. -/
theorem vector_to_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` spread to `[a, b]` reads, at `(p, q)`, the row's entry of lane `q`. -/
theorem row_spread_apply {a b : ℕ} (x : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.BroadcastInDimForms

end
-- ==== Proof.SpecRegionsHost.lean ====
/-
  The five region functions in the host's spelling: each `G` is the composition of host operations the reference
  applies (a `dot_general`; a product with a twice-broadcast vector; sums with twice-broadcast vectors), where the
  kernel's program laid its vectors out as columns and rows by a reshape and the reference by `broadcast_in_dim`.
  Index by index: a reshape `[a] → [a, 1]` or `[b] → [1, b]` and the matching `broadcast_in_dim` read the same entry
  of the vector.
-/
import proofs.«168348_j77421080478261_2_alg».proof.Proof.SpecRegions
import proofs.«168348_j77421080478261_2_alg».proof.Proof.LibPlainProduct
import proofs.«168348_j77421080478261_2_alg».proof.Proof.LibBroadcastInDim

noncomputable section

open scoped BigOperators

namespace Cert.KernelIdeal.RegionValue

open Cert.KernelIdeal Idealize.ShloMosaic Idealize.ShloMosaic.ValueIdx
open Idealize.ShloMosaic.ColumnLayout Idealize.ShloMosaic.BroadcastInDimForms

variable [Cert.ReferenceIdeal.Facts₀]

/-! ## Region 0 -/

/-- Region 0's function is the host's `dot_general` of the features with the first weight matrix. -/
theorem G0_host (h : FVec Ideal S100000x4 .f32) (W : FVec Ideal S4x64 .f32) :
    G0 h W = Host.dotGeneral (F := Ideal) Cert.ReferenceIdeal.dot_S100000x4_S4x64_S100000x64_1_0_0_1_n_n none h W := by
  funext i
  obtain ⟨n, j, rfl⟩ : ∃ (n : Fin 100000) (j : Fin 64), i = ix2 n j := ⟨i 0, i 1, eq_ix2 i⟩
  rw [G0_apply]
  exact (PlainProduct.dotGeneral_apply Cert.ReferenceIdeal.Facts₀.dot_S100000x4_S4x64_S100000x64_1_0_0_1_n_n_wf none h W n j).symm

/-! ## Regions 1 and 3 -/

/-- Regions 1 and 3's function, at the edge weights reshaped to a column, is the host's product with the weights
    broadcast to a column and then along the lanes. -/
theorem G1_host (g : FVec Ideal S3200000x64 .f32) (n : FVec Ideal S3200000 .f32)
    (hc : S3200000.ShapeCasts S3200000x1)
    (hb1 : S3200000.BroadcastsInDim S3200000x1 (![0] : Fin 1 → Fin S3200000x1.rank))
    (hb2 : S3200000x1.BroadcastsInDim S3200000x64 (![0, 1] : Fin 2 → Fin S3200000x64.rank)) :
    G1 g (shapeCast S3200000x1 n hc)
      = mulf g (broadcastInDim S3200000x64 ![0, 1] hb2 (broadcastInDim S3200000x1 ![0] hb1 n)) := by
  funext i
  obtain ⟨e, j, rfl⟩ : ∃ (e : Fin 3200000) (j : Fin 64), i = ix2 e j := ⟨i 0, i 1, eq_ix2 i⟩
  rw [G1_apply, mulf_apply, shapeCast_a_a1_apply n hc e (0 : Fin 1),
    column_spread_apply (broadcastInDim S3200000x1 ![0] hb1 n) hb2 e j, vector_to_column_apply n hb1 e (0 : Fin 1)]

/-! ## Region 4 -/

/-- Region 4's function, at the inverse degrees reshaped to a column and the bias reshaped to a row, is the host's
    row expression. -/
theorem G4_host (agg h : FVec Ideal S100000x64 .f32) (invd : FVec Ideal S100000 .f32) (b : FVec Ideal S64 .f32)
    (hc1 : S100000.ShapeCasts S100000x1) (hc2 : S64.ShapeCasts S1x64)
    (hb1 : S100000.BroadcastsInDim S100000x1 (![0] : Fin 1 → Fin S100000x1.rank))
    (hb2 : S100000x1.BroadcastsInDim S100000x64 (![0, 1] : Fin 2 → Fin S100000x64.rank))
    (hb3 : S64.BroadcastsInDim S1x64 (![1] : Fin 1 → Fin S1x64.rank))
    (hb4 : S1x64.BroadcastsInDim S100000x64 (![0, 1] : Fin 2 → Fin S100000x64.rank)) :
    G4 agg h (shapeCast S100000x1 invd hc1) (shapeCast S1x64 b hc2)
      = addf (addf agg (mulf h (broadcastInDim S100000x64 ![0, 1] hb2 (broadcastInDim S100000x1 ![0] hb1 invd))))
          (broadcastInDim S100000x64 ![0, 1] hb4 (broadcastInDim S1x64 ![1] hb3 b)) := by
  funext i
  obtain ⟨n, j, rfl⟩ : ∃ (n : Fin 100000) (j : Fin 64), i = ix2 n j := ⟨i 0, i 1, eq_ix2 i⟩
  rw [G4_apply, addf_apply, addf_apply, mulf_apply, shapeCast_a_a1_apply invd hc1 n (0 : Fin 1),
    shapeCast_a_1a_apply b hc2 (0 : Fin 1) j,
    column_spread_apply (broadcastInDim S100000x1 ![0] hb1 invd) hb2 n j, vector_to_column_apply invd hb1 n (0 : Fin 1),
    row_spread_apply (broadcastInDim S1x64 ![1] hb3 b) hb4 n j, vector_to_row_apply b hb3 (0 : Fin 1) j]

/-! ## Region 2 -/

/-- Region 2's function, at the same reshaped operands, is the host's `dot_general` of the host's row expression with
    the second weight matrix. -/
theorem G2_host (agg h : FVec Ideal S100000x64 .f32) (invd : FVec Ideal S100000 .f32) (b : FVec Ideal S64 .f32)
    (W : FVec Ideal S64x64 .f32)
    (hc1 : S100000.ShapeCasts S100000x1) (hc2 : S64.ShapeCasts S1x64)
    (hb1 : S100000.BroadcastsInDim S100000x1 (![0] : Fin 1 → Fin S100000x1.rank))
    (hb2 : S100000x1.BroadcastsInDim S100000x64 (![0, 1] : Fin 2 → Fin S100000x64.rank))
    (hb3 : S64.BroadcastsInDim S1x64 (![1] : Fin 1 → Fin S1x64.rank))
    (hb4 : S1x64.BroadcastsInDim S100000x64 (![0, 1] : Fin 2 → Fin S100000x64.rank)) :
    G2 agg h (shapeCast S100000x1 invd hc1) (shapeCast S1x64 b hc2) W
      = Host.dotGeneral (F := Ideal) Cert.ReferenceIdeal.dot_S100000x64_S64x64_S100000x64_1_0_0_1_n_n none
          (addf (addf agg (mulf h (broadcastInDim S100000x64 ![0, 1] hb2 (broadcastInDim S100000x1 ![0] hb1 invd))))
            (broadcastInDim S100000x64 ![0, 1] hb4 (broadcastInDim S1x64 ![1] hb3 b))) W := by
  funext i
  obtain ⟨n, j, rfl⟩ : ∃ (n : Fin 100000) (j : Fin 64), i = ix2 n j := ⟨i 0, i 1, eq_ix2 i⟩
  rw [G2_eq_sum_G4, G4_host agg h invd b hc1 hc2 hb1 hb2 hb3 hb4]
  exact (PlainProduct.dotGeneral_apply Cert.ReferenceIdeal.Facts₀.dot_S100000x64_S64x64_S100000x64_1_0_0_1_n_n_wf none _ W n j).symm

end Cert.KernelIdeal.RegionValue

end
-- ==== Proof.Bridge1.lean ====
/-
  The first graph-convolution layer, segment by segment. Each buffer the kernel program's @main (at the ideal values) has written by the
  end of a segment holds the reference's contents at the matching buffer: the first projection (region 0 is the
  product with the weight matrix), the gathered rows, the scaled messages (region 1 multiplies every row by its edge's
  weight), their sum per destination node, and the second projection (region 2 adds the self term and the bias and
  multiplies by the second weight matrix).
-/
import proofs.«168348_j77421080478261_2_alg».proof.Proof.Bridge0
import proofs.«168348_j77421080478261_2_alg».proof.Proof.Region0
import proofs.«168348_j77421080478261_2_alg».proof.Proof.Region1
import proofs.«168348_j77421080478261_2_alg».proof.Proof.Region2
import proofs.«168348_j77421080478261_2_alg».proof.Proof.SpecRegionsHost

set_option maxRecDepth 16384

noncomputable section

namespace Cert.Bridge

open Idealize.ShloMosaic Idealize.ShloMosaic.TcCoe Idealize.ShloMosaic.StableHlo Idealize.SL.Sem
open Cert.KernelIdeal.Gen Cert.KernelIdeal.KHops Cert.ReferenceIdeal.RefRun Cert.KernelIdeal.RegionValue

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Evaluates ONE stretch of host operations over the contents it starts from. -/
macro "eval_step" : tactic =>
  `(tactic| (simp (disch := decide) only [
      hostOps0, hostOps0_1, hostOps0_2, hostOps1, hostOps2, hostOps3, hostOps4, hostOps5,
      B1, B2, B3, B4, B5, B6, B7, B8, B9, B10, B11, B12, B13, B14, B15,
      after_cons, after_nil,
      nullary_result', unary_result', binary_result', ternary_result', quaternary_result', reshape_result',
      nullary_result_ne', unary_result_ne', binary_result_ne', ternary_result_ne', quaternary_result_ne', reshape_result_ne']))

/-- A bias vector as a one-row matrix. -/
def rowB (b : FVec Ideal Cert.KernelIdeal.S64 .f32) : FVec Ideal Cert.KernelIdeal.S1x64 .f32 :=
  shapeCast Cert.KernelIdeal.S1x64 b Cert.KernelIdeal.Gen.shapeCasts_S64_S1x64

attribute [local irreducible] Host.reduceAdd Host.reduce Host.gather Host.scatterAdd

/-- Region 0's output is the reference's first projection. -/
theorem proj1_eq (h : Agree m m' c) :
    W4 m ρ c (Proc.devRef .tc Cert.KernelIdeal.main_v49) = U3 (L m' c) (Proc.devRef .tc Cert.ReferenceIdeal.main_v23) := by
  rw [W4_out, final0 (V3 m ρ) c]
  show G0 (W3 m ρ c (Proc.devRef .tc Cert.KernelIdeal.main_v48)) (W3 m ρ c (Proc.devRef .tc Cert.KernelIdeal.main_arg5)) = _
  rw [feat_eq m ρ m' c h, arg5_W3, ← L_arg5 m ρ m' c h]
  unfold U3
  eval_step
  rw [hop_arg5_2]
  exact G0_host _ _

/-- The rows gathered at the edges' sources. -/
theorem gath1_eq (h : Agree m m' c) :
    W5 m ρ c (Proc.devRef .tc Cert.KernelIdeal.main_v56) = U5 (L m' c) (Proc.devRef .tc Cert.ReferenceIdeal.main_v52) := by
  unfold W5 U5
  eval_step
  rw [proj1_eq m ρ m' c h, v1_W4, src_eq m ρ m' c h, hop_v23_4, hop_v1_4]
  first | rfl | skip

/-- Region 1's output is the reference's scaled messages. -/
theorem msg1_eq (h : Agree m m' c) :
    W6 m ρ c (Proc.devRef .tc Cert.KernelIdeal.main_v57) = U6 (L m' c) (Proc.devRef .tc Cert.ReferenceIdeal.main_v55) := by
  rw [W6_out, final1 (V5 m ρ) c]
  show G1 (W5 m ρ c (Proc.devRef .tc Cert.KernelIdeal.main_v56)) (W5 m ρ c (Proc.devRef .tc Cert.KernelIdeal.main_v26)) = _
  rw [gath1_eq m ρ m' c h, v26_W5, weight_eq m ρ m' c h]
  unfold U6
  eval_step
  rw [hop_v45_5]
  unfold colE
  exact G1_host _ _ _ _ _

/-- The messages summed per destination node. -/
theorem agg1_eq (h : Agree m m' c) :
    W7 m ρ c (Proc.devRef .tc Cert.KernelIdeal.main_v60) = U7 (L m' c) (Proc.devRef .tc Cert.ReferenceIdeal.main_v58) := by
  unfold W7 U7
  eval_step
  rw [msg1_eq m ρ m' c h, v3_W6, dst_eq m ρ m' c h, hop_v3_6]
  first | rfl | skip

/-- The first layer's bias as the row region 2 reads. -/
theorem bias1_eq (h : Agree m m' c) :
    W7 m ρ c (Proc.devRef .tc Cert.KernelIdeal.main_v61) = rowB (L m' c (Proc.devRef .tc Cert.ReferenceIdeal.main_arg6)) := by
  unfold W7 rowB
  eval_step
  rw [arg6_W6, ← L_arg6 m ρ m' c h]
  first | rfl | skip

/-- Region 2's output is the reference's second projection. -/
theorem proj2_eq (h : Agree m m' c) :
    W8 m ρ c (Proc.devRef .tc Cert.KernelIdeal.main_v62) = U8 (L m' c) (Proc.devRef .tc Cert.ReferenceIdeal.main_v68) := by
  rw [W8_out, final2 (V7 m ρ) c]
  show G2 (W7 m ρ c (Proc.devRef .tc Cert.KernelIdeal.main_v60)) (W7 m ρ c (Proc.devRef .tc Cert.KernelIdeal.main_v49)) (W7 m ρ c (Proc.devRef .tc Cert.KernelIdeal.main_v29))
    (W7 m ρ c (Proc.devRef .tc Cert.KernelIdeal.main_v61)) (W7 m ρ c (Proc.devRef .tc Cert.KernelIdeal.main_arg7)) = _
  rw [agg1_eq m ρ m' c h, v49_W7, proj1_eq m ρ m' c h, v29_W7, invdeg_eq m ρ m' c h, bias1_eq m ρ m' c h,
    arg7_W7, ← L_arg7 m ρ m' c h]
  unfold U8
  eval_step
  rw [hop_v29_7, hop_v23_7, hop_arg6_7, hop_arg7_7]
  unfold colN rowB recip
  exact G2_host _ _ _ _ _ _ _ _ _ _ _

end Cert.Bridge

end
-- ==== Proof.Region3.lean ====
/-
  Region 3 (every gathered row of the second layer scaled by its edge's weight): the output array after the region is `G1` of the two
  arrays the region reads. Point `t` of the 320 writes back rows `10000·t … 10000·t + 9999`; on those rows the body's
  product of its loaded blocks is `G1` of the whole arrays, and the 320 row blocks cover the array.
-/
import proofs.«168348_j77421080478261_2_alg».proof.Proof.Gen.KernelIdeal.Frame
import proofs.«168348_j77421080478261_2_alg».proof.Proof.SpecRegions

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.ColumnLayout

variable (V : (c : Dev nD) → (b : Ref sig .tc) → Buf (Elt Ideal) ((c : Thread nD τ).loc b))

/-- The zero offsets of a whole-buffer access, as the constant function. -/
theorem zeroOffsetsThird : (![0, 0] : Fin 2 → Nat) = fun _ => 0 := funext fun a => by fin_cases a <;> rfl

/-- The body's product at a row and a lane of the block: the loaded entry times the row's weight. -/
theorem scaleRowsThird_apply (x0 : Vec Ideal S10000x64 .f32) (x1 : Vec Ideal S10000x1 .f32) (p : Fin 10000) (q : Fin 64) :
    k3_pay1 x0 x1 (ix2 p q) = x0 (ix2 p q) * x1 (ix2 p (0 : Fin 1)) := by
  unfold k3_pay1
  show (shapeCast S10000x64 x0 shapeCasts_S10000x64_S10000x64) (ix2 p q)
      * broadcastTo S10000x64 (shapeCast S10000x1 x1 shapeCasts_S10000x1_S10000x1) broadcasts_S10000x1_S10000x64 (ix2 p q) = _
  rw [shapeCast_self, shapeCast_self]
  exact congrArg (x0 (ix2 p q) * ·) (broadcastTo_a1_ab_apply x1 broadcasts_S10000x1_S10000x64 p q)

/-- The same at any index of the block. -/
theorem scaleRowsThird_at (x0 : Vec Ideal S10000x64 .f32) (x1 : Vec Ideal S10000x1 .f32) (j : S10000x64.Idx) :
    k3_pay1 x0 x1 j = x0 j * x1 (ix2 (n0 := 10000) (j 0) (0 : Fin 1)) := by
  obtain ⟨p, q, rfl⟩ : ∃ (p : Fin 10000) (q : Fin 64), j = ix2 p q := ⟨j 0, j 1, eq_ix2 j⟩
  exact scaleRowsThird_apply x0 x1 p q

/-- A block whose entries are the arrays' entries at an index `i` and at `i`'s row has, there, the value of `G1` at `i`. -/
theorem scaleRowsThird_block (A : FVec Ideal S3200000x64 .f32) (B : FVec Ideal S3200000x1 .f32)
    (x0 : Vec Ideal S10000x64 .f32) (x1 : Vec Ideal S10000x1 .f32) (j : S10000x64.Idx) (i : S3200000x64.Idx)
    (h0 : x0 j = A i) (h1 : x1 (ix2 (n0 := 10000) (j 0) (0 : Fin 1)) = B (ix2 (n0 := 3200000) (i 0) (0 : Fin 1))) :
    k3_pay1 x0 x1 j = G1 A B i := by
  rw [scaleRowsThird_at, h0, h1]; rfl

/-- The printed index maps, decided over the 320 points: both inputs' row blocks move with the output's, whose block
    index is the point itself on the rows and zero on the lanes. -/
theorem rowBlocks3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- WHAT POINT `t` WRITES BACK is block `t` of `G1` of the arrays as the region finds them. -/
theorem flushed3_eq (c : Dev nD) (t : Fin cfg3.N) :
    (dat3 V c).flushed 2 t = ((cfg3.win 2).blk t).view.read (Elt Ideal) (G1 (V c main_v69) (V c main_v26)) := by
  show (cfg3.win 2).cut (grid3.coords t) ((dat3 V c).after 2 t) = _
  rw [after3_2]
  unfold out3_2
  rw [View.canon_unit_zero zeroOffsetsThird]
  simp only [View.ld_unit_zero (S := S10000x64) zeroOffsetsThird, View.ld_unit_zero (S := S10000x1) zeroOffsetsThird]
  obtain ⟨e0, e1, e2, e3, e4, e5⟩ := rowBlocks3 t
  funext j
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (n0 := 10000) (j 0) (0 : Fin 1))
      = ix2 (n0 := 3200000) ((((cfg3.win 2).blk t).view.emb j) 0) (0 : Fin 1) := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 1 + 1 * 0 = 0; omega
  refine scaleRowsThird_block (V c main_v69) (V c main_v26) (iblk3 V c 0 t) (iblk3 V c 1 t) j (((cfg3.win 2).blk t).view.emb j) ?_ ?_
  · show V c main_v69 (((cfg3.win 0).blk t).view.emb j) = V c main_v69 (((cfg3.win 2).blk t).view.emb j)
    exact congrArg (V c main_v69) h0
  · show V c main_v26 (((cfg3.win 1).blk t).view.emb (ix2 (n0 := 10000) (j 0) (0 : Fin 1)))
      = V c main_v26 (ix2 (n0 := 3200000) ((((cfg3.win 2).blk t).view.emb j) 0) (0 : Fin 1))
    exact congrArg (V c main_v26) h1

/-- An index of the array is in point `t`'s block iff each coordinate is in the block's range on its axis. -/
theorem mem_rowBlock3 (t : Fin cfg3.N) (i : S3200000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v70).slice (win3_2.rect t)).set ↔ _
  rw [View.set_slice_whole, Rect.mem_set_unit]
  exact Iff.rfl

/-- Every row is in the block of the point `row / 10000`. -/
theorem cover3 (i : S3200000x64.Idx) : ∃ t : Fin cfg3.N, (cfg3.win 2).flush t = true ∧ i ∈ ((cfg3.win 2).blk t).view.set := by
  have hi0 : (i 0).val < 3200000 := (i 0).isLt
  have hi1 : (i 1).val < 64 := (i 1).isLt
  have hN : cfg3.N = 320 := rfl
  let t : Fin cfg3.N := ⟨(i 0).val / 10000, by rw [hN]; omega⟩
  obtain ⟨e0, e1, e2, e3, e4, e5⟩ := rowBlocks3 t
  have ht : t.val = (i 0).val / 10000 := rfl
  refine ⟨t, flush3_2 t, ?_⟩
  rw [mem_rowBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE ARRAY after region 3: `G1` of the gathered rows and the edge weights. -/
theorem final3 (c : Dev nD) : (dat3 V c).arrAt 2 cfg3.N = G1 (V c main_v69) (V c main_v26) :=
  (dat3 V c).arrAt_eq_of_cover 2 (G1 (V c main_v69) (V c main_v26)) (fun t _ => flushed3_eq V c t) cover3

end Cert.KernelIdeal.RegionValue

end
-- ==== Proof.Bridge2.lean ====
/-
  The second graph-convolution layer, segment by segment: the rows of the second projection gathered at the edges'
  sources, the scaled messages (region 3), their sum per destination node, and the layer's output (region 4 adds the
  self term and the bias) hold the reference's contents at the matching buffers.
-/
import proofs.«168348_j77421080478261_2_alg».proof.Proof.Bridge1
import proofs.«168348_j77421080478261_2_alg».proof.Proof.Region3
import proofs.«168348_j77421080478261_2_alg».proof.Proof.Region4

set_option maxRecDepth 16384

noncomputable section

namespace Cert.Bridge

open Idealize.ShloMosaic Idealize.ShloMosaic.TcCoe Idealize.ShloMosaic.StableHlo Idealize.SL.Sem
open Cert.KernelIdeal.Gen Cert.KernelIdeal.KHops Cert.ReferenceIdeal.RefRun Cert.KernelIdeal.RegionValue

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

attribute [local irreducible] Host.reduceAdd Host.reduce Host.gather Host.scatterAdd

/-- The rows of the second projection gathered at the edges' sources. -/
theorem gath2_eq (h : Agree m m' c) :
    W9 m ρ c (Proc.devRef .tc Cert.KernelIdeal.main_v69) = U10 (L m' c) (Proc.devRef .tc Cert.ReferenceIdeal.main_v97) := by
  unfold W9 U10
  eval_step
  rw [proj2_eq m ρ m' c h, v1_W8, src_eq m ρ m' c h, hop_v68_9, hop_v1_9]
  first | rfl | skip

/-- Region 3's output is the reference's second scaled messages. -/
theorem msg2_eq (h : Agree m m' c) :
    W10 m ρ c (Proc.devRef .tc Cert.KernelIdeal.main_v70) = U11 (L m' c) (Proc.devRef .tc Cert.ReferenceIdeal.main_v100) := by
  rw [W10_out, final3 (V9 m ρ) c]
  show G1 (W9 m ρ c (Proc.devRef .tc Cert.KernelIdeal.main_v69)) (W9 m ρ c (Proc.devRef .tc Cert.KernelIdeal.main_v26)) = _
  rw [gath2_eq m ρ m' c h, v26_W9, weight_eq' m ρ m' c h]
  unfold U11
  eval_step
  rw [hop_v90_10]
  unfold colE
  exact G1_host _ _ _ _ _

/-- The second messages summed per destination node. -/
theorem agg2_eq (h : Agree m m' c) :
    W11 m ρ c (Proc.devRef .tc Cert.KernelIdeal.main_v73) = U12 (L m' c) (Proc.devRef .tc Cert.ReferenceIdeal.main_v103) := by
  unfold W11 U12
  eval_step
  rw [msg2_eq m ρ m' c h, v3_W10, dst_eq m ρ m' c h, hop_v3_11]
  first | rfl | skip

/-- The second layer's bias as the row region 4 reads. -/
theorem bias2_eq (h : Agree m m' c) :
    W11 m ρ c (Proc.devRef .tc Cert.KernelIdeal.main_v74) = rowB (L m' c (Proc.devRef .tc Cert.ReferenceIdeal.main_arg8)) := by
  unfold W11 rowB
  eval_step
  rw [arg8_W10, ← L_arg8 m ρ m' c h]
  first | rfl | skip

/-- Region 4's output is the reference's second layer. -/
theorem out2_eq (h : Agree m m' c) :
    W12 m ρ c (Proc.devRef .tc Cert.KernelIdeal.main_v75) = U13 (L m' c) (Proc.devRef .tc Cert.ReferenceIdeal.main_v112) := by
  rw [W12_out, final4 (V11 m ρ) c]
  show G4 (W11 m ρ c (Proc.devRef .tc Cert.KernelIdeal.main_v73)) (W11 m ρ c (Proc.devRef .tc Cert.KernelIdeal.main_v62)) (W11 m ρ c (Proc.devRef .tc Cert.KernelIdeal.main_v29))
    (W11 m ρ c (Proc.devRef .tc Cert.KernelIdeal.main_v74)) = _
  rw [agg2_eq m ρ m' c h, v62_W11, proj2_eq m ρ m' c h, v29_W11, invdeg_eq' m ρ m' c h, bias2_eq m ρ m' c h]
  unfold U13
  eval_step
  rw [hop_v74_12, hop_v68_12, hop_arg8_12]
  unfold colN rowB recip
  exact G4_host _ _ _ _ _ _ _ _ _ _

end Cert.Bridge

end
-- ==== Proof.SpecHead.lean ====
import Idealize.ShloMosaic.PureOps.Ideal
import Idealize.ShloMosaic.Lib.ValueIdx
import Idealize.ShloMosaic.Lib.ValueLayout

/-!
# The pooled head, entry by entry

The head of the network as one function of its arguments, at the extended reals: the 64 pooled rows `g` (one per
graph, 64 features each) are normalised feature by feature — column mean `μ j = (Σ_r g r j) / 64`, column variance
`σ² j = (Σ_r (g r j − μ j)²) / 64`, entry `(g r j − μ j) · rsqrt (σ² j + ε) · γ j + β j` — and pass through three affine
layers `x ↦ x · W + b` of widths 64, 64 and 1. `r64` / `r1` lay a parameter vector as the one-row matrix the head reads. The divisor 64 and `ε` are kept as the f32 words the two programs carry
(`0x42800000`, `0x3727C5AC`): both sides carry the same word, so its value is never needed. The parameter vectors are one-row
matrices, read at row 0.
-/

noncomputable section

namespace Cert.KernelIdeal.HeadValue

open Idealize.ShloMosaic Idealize.ShloMosaic.ValueIdx
open scoped BigOperators

/-- An a×b matrix of extended reals. -/
abbrev Mat (a b : Nat) : Type := FVec Ideal ⟨2, ![a, b]⟩ .f32

/-- The divisor: the f32 word of 64. -/
def c64 : EReal := Ideal.ofBits .f32 0x42800000#32
/-- The variance offset: the f32 word nearest 1e-5. -/
def eps : EReal := Ideal.ofBits .f32 0x3727C5AC#32

/-- The mean of column `j`. -/
def colMean (g : Mat 64 64) (j : Fin 64) : EReal := Ideal.div (∑ r : Fin 64, g (ix2 r j)) c64

/-- The (biased) variance of column `j`. -/
def colVar (g : Mat 64 64) (j : Fin 64) : EReal :=
  Ideal.div (∑ r : Fin 64, (g (ix2 r j) - colMean g j) * (g (ix2 r j) - colMean g j)) c64

/-- The normalised entry (r, j), scaled and shifted. -/
def bnAt (g : Mat 64 64) (gam bet : Mat 1 64) (r j : Fin 64) : EReal :=
  (g (ix2 r j) - colMean g j) * Ideal.rsqrt (colVar g j + eps) * gam (ix2 0 j) + bet (ix2 0 j)

/-- An affine layer's entry (r, c): row `r` of `x` against column `c` of `W`, plus the bias. -/
def affAt {k n : Nat} (x : Fin 64 → Fin k → EReal) (W : Mat k n) (b : Mat 1 n) (r : Fin 64) (c : Fin n) : EReal :=
  (∑ j : Fin k, x r j * W (ix2 j c)) + b (ix2 0 c)

/-- The first hidden layer's entry. -/
def h1At (g : Mat 64 64) (gam bet : Mat 1 64) (W0 : Mat 64 64) (b0 : Mat 1 64) : Fin 64 → Fin 64 → EReal :=
  affAt (bnAt g gam bet) W0 b0

/-- The second hidden layer's entry. -/
def h2At (g : Mat 64 64) (gam bet : Mat 1 64) (W0 : Mat 64 64) (b0 : Mat 1 64) (W1 : Mat 64 64) (b1 : Mat 1 64) :
    Fin 64 → Fin 64 → EReal :=
  affAt (h1At g gam bet W0 b0) W1 b1

/-- THE HEAD: the [64, 1] output, entry by entry. -/
def G5 (g : Mat 64 64) (gam bet : Mat 1 64) (W0 : Mat 64 64) (b0 : Mat 1 64) (W1 : Mat 64 64) (b1 : Mat 1 64)
    (Wo : Mat 64 1) (bo : Mat 1 1) : Mat 64 1 :=
  fun i => affAt (h2At g gam bet W0 b0 W1 b1) Wo bo (i 0) (i 1)

/-- A vector of 64 entries as a one-row matrix (what a reshape [64] → [1, 64] denotes). -/
theorem casts_64_1x64 : (⟨1, ![64]⟩ : Shape).ShapeCasts ⟨2, ![1, 64]⟩ := by decide
/-- A vector of one entry as a 1×1 matrix (what a reshape [1] → [1, 1] denotes). -/
theorem casts_1_1x1 : (⟨1, ![1]⟩ : Shape).ShapeCasts ⟨2, ![1, 1]⟩ := by decide

/-- The one-row matrix of a 64-vector. -/
def r64 (x : FVec Ideal ⟨1, ![64]⟩ .f32) : Mat 1 64 := shapeCast ⟨2, ![1, 64]⟩ x casts_64_1x64
/-- The 1×1 matrix of a 1-vector. -/
def r1 (x : FVec Ideal ⟨1, ![1]⟩ .f32) : Mat 1 1 := shapeCast ⟨2, ![1, 1]⟩ x casts_1_1x1

/-- The one row reads the vector. -/
theorem r64_apply (x : FVec Ideal ⟨1, ![64]⟩ .f32) (u : Fin 1) (j : Fin 64) : r64 x (ix2 u j) = x (ix1 j) :=
  shapeCast_a_1a_apply x casts_64_1x64 u j
/-- The one entry reads the vector's. -/
theorem r1_apply (x : FVec Ideal ⟨1, ![1]⟩ .f32) (u : Fin 1) (j : Fin 1) : r1 x (ix2 u j) = x (ix1 j) :=
  shapeCast_a_1a_apply x casts_1_1x1 u j

/-- `G5` at an index of literal coordinates. -/
theorem G5_apply (g : Mat 64 64) (gam bet : Mat 1 64) (W0 : Mat 64 64) (b0 : Mat 1 64) (W1 : Mat 64 64) (b1 : Mat 1 64)
    (Wo : Mat 64 1) (bo : Mat 1 1) (r : Fin 64) (c : Fin 1) :
    G5 g gam bet W0 b0 W1 b1 Wo bo (ix2 r c) = affAt (h2At g gam bet W0 b0 W1 b1) Wo bo r c := rfl

end Cert.KernelIdeal.HeadValue

end
-- ==== Proof.LibPlainOps.lean ====
import Idealize.ShloMosaic.Lib.KernelVsHost
import Idealize.ShloMosaic.Lib.StackMember
import Idealize.ShloMosaic.Lib.ValueLayout

/-!
# Matrix operations read at an index, at the ideal values

General readings, at the extended reals, of the operations a dense layer and a column statistic are made of, each at an
index written with literal coordinates (`ix1`, `ix2`): a matrix product of plain dimension numbers ([m,k] by [k,n],
contracting the left operand's axis 1 with the right operand's axis 0), the kernel's into a zero accumulator and the
host's, as the sum over the contracted coordinate; a sum over axis 0 of a matrix, the kernel's and the host's, as the
sum down the column; the host's broadcasts of a scalar to any shape and of a vector to a one-row matrix; and the words
the host's guarded quotient compares (the integer zero converted, a positive literal minus it).
-/

noncomputable section

namespace Cert.KernelIdeal.HeadValue.PlainOps

open Idealize.ShloMosaic Idealize.ShloMosaic.ValueIdx
open scoped BigOperators

variable {m k n : Nat} {φ φ₁ φ₂ : FTy}

/-- A record of plain dimension numbers is the library's, whatever its well-formedness proof. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The host's product of an m×k by a k×n matrix at (a, b): the sum over the contracted coordinate. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product into a zero accumulator at (a, b): the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  rw [matmul_zero_eq_dotGeneral]
  exact dotGeneral_apply D hD prec A B a b

/-- The source index of a column sum: row `r` of column `j`. -/
theorem lift_col (h : (⟨2, ![m, n]⟩ : Shape).Reduces [0] ⟨1, ![n]⟩) (j : Fin n) (r : Fin m) :
    h.lift (ix1 j) r = ix2 r j := by
  funext c
  apply Fin.ext
  match c with
  | ⟨0, _⟩ => rfl
  | ⟨1, _⟩ => rfl

/-- The kernel's sum over axis 0 of an m×n matrix at column `j`: the sum down the column. The accumulator
    hypothesis is the equation of the two zero words. -/
theorem multiReduction_add_col (src : FVec Ideal ⟨2, ![m, n]⟩ .f32) (h : (⟨2, ![m, n]⟩ : Shape).Reduces [0] ⟨1, ![n]⟩)
    (hφ : FKind.Formats .f32) (hacc : (0x00000000#32 : BitVec 32) = 0x00000000#32) (j : Fin n) :
    multiReduction .add [0] ⟨1, ![n]⟩ src 0x00000000#32 h hφ hacc (ix1 j) = ∑ r : Fin m, src (ix2 r j) := by
  refine (Ideal.multiReduction_add_single src 0x00000000#32 h hφ hacc (ix1 j)).trans ?_
  show ∑ r : Fin m, src (h.lift (ix1 j) r) = _
  exact Finset.sum_congr rfl fun r _ => congrArg src (lift_col h j r)

/-- The host's sum over axis 0 of an m×n matrix at column `j`: the initial value plus the sum down the column. -/
theorem hostReduceAdd_col {u : Shape} (x : FVec Ideal ⟨2, ![m, n]⟩ φ) (init : u.Idx → Ideal φ)
    (h' : (⟨2, ![m, n]⟩ : Shape).ReducesTo [0] ⟨1, ![n]⟩) (hu : 0 < u.numel)
    (h : (⟨2, ![m, n]⟩ : Shape).Reduces [0] ⟨1, ![n]⟩) (j : Fin n) :
    Host.reduceAdd x init h' hu (ix1 j) = init (Shape.Idx.first hu) + ∑ r : Fin m, x (ix2 r j) := by
  show Ideal.hostReduceAdd h' x _ (ix1 j) = _
  rw [Ideal.hostReduceAdd_single h' h]
  show _ + ∑ r : Fin m, x (h.lift (ix1 j) r) = _
  exact congrArg (_ + ·) (Finset.sum_congr rfl fun r _ => congrArg x (lift_col h j r))

section Broadcasts
variable {α : Type}

/-- A scalar broadcast to any shape reads the scalar everywhere. -/
theorem broadcastInDim_scalar_apply {t : Shape} (h : (⟨0, ![]⟩ : Shape).BroadcastsInDim t ![])
    (x : (⟨0, ![]⟩ : Shape).Idx → α) (j : t.Idx) : broadcastInDim t ![] h x j = x ix0 :=
  broadcastInDim_apply ![] h x j ix0 fun a => a.elim0

/-- A vector laid as the one row of a matrix (the host's broadcast along axis 1) reads, at (u, j), the vector at j. -/
theorem broadcastInDim_asRow_apply (h : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] h x (ix2 u j) = x (ix1 j) := by
  refine broadcastInDim_apply ![1] h x (ix2 u j) (ix1 j) fun a => ?_
  match a with
  | ⟨0, _⟩ =>
    show j.val = if n = 1 then 0 else j.val
    split
    · have := j.isLt; omega
    · rfl

end Broadcasts

/-- A literal minus the integer zero converted is the literal. -/
theorem sub_sitofp_zero (x : EReal) : x - (Scalar.sitofp .f32 0#32 : Ideal .f32) = x := by
  rw [sitofp_zero]; exact sub_zero x

/-- The f32 word `0x42800000` denotes 64. -/
theorem ofBits_64 : Ideal.ofBits .f32 0x42800000#32 = ((64 : ℝ) : EReal) := by
  simp [Ideal.ofBits, Ideal.ieee]
  rw [← EReal.coe_mul]
  norm_num

/-- So it is above zero. -/
theorem ofBits_64_pos : (0 : EReal) < Ideal.ofBits .f32 0x42800000#32 := by
  rw [ofBits_64]; exact_mod_cast (by norm_num : (0 : ℝ) < 64)

end Cert.KernelIdeal.HeadValue.PlainOps

end
-- ==== Proof.Region5.lean ====
import proofs.«168348_j77421080478261_2_alg».proof.Proof.Gen.KernelIdeal.Frame
import proofs.«168348_j77421080478261_2_alg».proof.Proof.SpecHead
import proofs.«168348_j77421080478261_2_alg».proof.Proof.LibPlainOps

/-!
# Region 5: the pooled head's kernel writes `G5` of the arrays it finds

Three steps. (1) The kernel's pure payload at an index: the column statistic (a sum over axis 0, cast to one row,
divided by the splat of 64) is the column sum over the word of 64; the normalised, scaled and shifted entry is
`bnAt`; a matrix product into a zero accumulator plus a broadcast bias row is `affAt` — the bf16 format changes in
front of each product are the identity at the extended reals —; three of them over the normalised entries give
`G5` (`pay_eq`). (2) The grid has one point and every window's block is its whole array, so each input block is its
array (`blk0` … `blk8`) and what the point writes back is the one block of `G5` (`flushed9_eq`). (3) That block
covers the output (`cover9`), so the output array after the region is `G5` (`final5`).
-/

noncomputable section
namespace Cert.KernelIdeal.HeadValue
open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- A reciprocal square root at an index is the element's. -/
theorem rsqrt_apply {s : Shape} {φ : FTy} (a : FVec Ideal s φ) (i : s.Idx) : rsqrt a i = Ideal.rsqrt (a i) := rfl

/-- A column statistic as the kernel spells it: the sum over axis 0, cast to one row and divided by a splat, is at (u, j)
    the column sum over the splat's word. -/
theorem kColStat (X : FVec Ideal ⟨2, ![64, 64]⟩ .f32) (hred : (⟨2, ![64, 64]⟩ : Shape).Reduces [0] ⟨1, ![64]⟩)
    (hφ : FKind.Formats .f32) (hacc : (0x00000000#32 : BitVec 32) = 0x00000000#32)
    (hc : (⟨1, ![64]⟩ : Shape).ShapeCasts ⟨2, ![1, 64]⟩) (w : BitVec 32) (u : Fin 1) (j : Fin 64) :
    divf (shapeCast ⟨2, ![1, 64]⟩ (multiReduction .add [0] ⟨1, ![64]⟩ X 0x00000000#32 hred hφ hacc) hc)
        (broadcast ⟨2, ![1, 64]⟩ (Scalar.ofBits (F := Ideal) .f32 w)) (ix2 u j)
      = Ideal.div (∑ r : Fin 64, X (ix2 r j)) (Ideal.ofBits .f32 w) := by
  show Ideal.div (shapeCast ⟨2, ![1, 64]⟩ (multiReduction .add [0] ⟨1, ![64]⟩ X 0x00000000#32 hred hφ hacc) hc (ix2 u j)) _ = _
  rw [shapeCast_a_1a_apply, PlainOps.multiReduction_add_col]
  rfl

/-- An affine layer as the kernel spells it: both operands changed to bf16 (the identity here), multiplied into a zero
    accumulator, plus the bias row broadcast down the rows; `x` is what the left operand reads entry by entry. -/
theorem kAff {k n : Nat} (D : DotDims ⟨2, ![64, k]⟩ ⟨2, ![k, n]⟩ ⟨2, ![64, n]⟩) (hD : D = DotDims.plain 64 k n)
    (X : FVec Ideal ⟨2, ![64, k]⟩ .f32) (W : FVec Ideal ⟨2, ![k, n]⟩ .f32) (b : FVec Ideal ⟨2, ![1, n]⟩ .f32)
    (h1 h2 : FTy.bits .bf16 < FTy.bits .f32)
    (hc : (⟨2, ![1, n]⟩ : Shape).ShapeCasts ⟨2, ![1, n]⟩) (hb : (⟨2, ![1, n]⟩ : Shape).Broadcasts ⟨2, ![64, n]⟩)
    (x : Fin 64 → Fin k → EReal) (hX : ∀ r j, X (ix2 r j) = x r j) (r : Fin 64) (c : Fin n) :
    addf (matmul D none (truncf .bf16 X h1) (truncf .bf16 W h2) (constant (F := Ideal) ⟨2, ![64, n]⟩ .f32 0x00000000#32))
        (broadcastTo ⟨2, ![64, n]⟩ (shapeCast ⟨2, ![1, n]⟩ b hc) hb) (ix2 r c) = affAt x W b r c := by
  show matmul D none (truncf .bf16 X h1) (truncf .bf16 W h2) (constant (F := Ideal) ⟨2, ![64, n]⟩ .f32 0x00000000#32) (ix2 r c)
      + broadcastTo ⟨2, ![64, n]⟩ (shapeCast ⟨2, ![1, n]⟩ b hc) hb (ix2 r c) = _
  rw [PlainOps.matmul_zero_apply D hD, broadcastTo_1b_ab_apply, shapeCast_self]
  unfold affAt
  exact congrArg (· + b (ix2 0 c)) (Finset.sum_congr rfl fun j _ => by rw [truncf_apply, truncf_apply, hX])

/-- The normalisation as the kernel spells it, from the pooled rows to the scaled and shifted entries: `bnAt`. -/
theorem kBn (x0 : FVec Ideal ⟨2, ![64, 64]⟩ .f32) (x1 x2 : FVec Ideal ⟨2, ![1, 64]⟩ .f32)
    (h00 : (⟨2, ![64, 64]⟩ : Shape).ShapeCasts ⟨2, ![64, 64]⟩)
    (hred : (⟨2, ![64, 64]⟩ : Shape).Reduces [0] ⟨1, ![64]⟩)
    (hφ : FKind.Formats .f32) (hacc : (0x00000000#32 : BitVec 32) = 0x00000000#32)
    (hc : (⟨1, ![64]⟩ : Shape).ShapeCasts ⟨2, ![1, 64]⟩)
    (hb : (⟨2, ![1, 64]⟩ : Shape).Broadcasts ⟨2, ![64, 64]⟩)
    (h11 : (⟨2, ![1, 64]⟩ : Shape).ShapeCasts ⟨2, ![1, 64]⟩) (r j : Fin 64) :
    (have v1 : FVec Ideal ⟨2, ![64, 64]⟩ .f32 := shapeCast ⟨2, ![64, 64]⟩ x0 h00
     have v2 : FVec Ideal ⟨1, ![64]⟩ .f32 := multiReduction .add [0] ⟨1, ![64]⟩ v1 0x00000000#32 hred hφ hacc
     have v3 : FVec Ideal ⟨2, ![1, 64]⟩ .f32 := shapeCast ⟨2, ![1, 64]⟩ v2 hc
     have cst_1 : Ideal .f32 := Scalar.ofBits .f32 0x42800000#32
     have v4 : FVec Ideal ⟨2, ![1, 64]⟩ .f32 := broadcast ⟨2, ![1, 64]⟩ cst_1
     have v5 : FVec Ideal ⟨2, ![1, 64]⟩ .f32 := divf v3 v4
     have v6 : FVec Ideal ⟨2, ![64, 64]⟩ .f32 := broadcastTo ⟨2, ![64, 64]⟩ v5 hb
     have v7 : FVec Ideal ⟨2, ![64, 64]⟩ .f32 := subf v1 v6
     have v8 : FVec Ideal ⟨2, ![64, 64]⟩ .f32 := mulf v7 v7
     have v9 : FVec Ideal ⟨1, ![64]⟩ .f32 := multiReduction .add [0] ⟨1, ![64]⟩ v8 0x00000000#32 hred hφ hacc
     have v10 : FVec Ideal ⟨2, ![1, 64]⟩ .f32 := shapeCast ⟨2, ![1, 64]⟩ v9 hc
     have cst_3 : Ideal .f32 := Scalar.ofBits .f32 0x42800000#32
     have v11 : FVec Ideal ⟨2, ![1, 64]⟩ .f32 := broadcast ⟨2, ![1, 64]⟩ cst_3
     have v12 : FVec Ideal ⟨2, ![1, 64]⟩ .f32 := divf v10 v11
     have cst_4 : Ideal .f32 := Scalar.ofBits .f32 0x3727C5AC#32
     have v13 : FVec Ideal ⟨2, ![1, 64]⟩ .f32 := broadcast ⟨2, ![1, 64]⟩ cst_4
     have v14 : FVec Ideal ⟨2, ![1, 64]⟩ .f32 := addf v12 v13
     have v15 : FVec Ideal ⟨2, ![1, 64]⟩ .f32 := rsqrt v14
     have v16 : FVec Ideal ⟨2, ![64, 64]⟩ .f32 := broadcastTo ⟨2, ![64, 64]⟩ v15 hb
     have v17 : FVec Ideal ⟨2, ![64, 64]⟩ .f32 := mulf v7 v16
     have v19 : FVec Ideal ⟨2, ![1, 64]⟩ .f32 := shapeCast ⟨2, ![1, 64]⟩ x1 h11
     have v20 : FVec Ideal ⟨2, ![64, 64]⟩ .f32 := broadcastTo ⟨2, ![64, 64]⟩ v19 hb
     have v21 : FVec Ideal ⟨2, ![64, 64]⟩ .f32 := mulf v17 v20
     have v23 : FVec Ideal ⟨2, ![1, 64]⟩ .f32 := shapeCast ⟨2, ![1, 64]⟩ x2 h11
     have v24 : FVec Ideal ⟨2, ![64, 64]⟩ .f32 := broadcastTo ⟨2, ![64, 64]⟩ v23 hb
     have v25 : FVec Ideal ⟨2, ![64, 64]⟩ .f32 := addf v21 v24
     v25) (ix2 r j) = bnAt x0 x1 x2 r j := by
  dsimp only
  simp only [shapeCast_self]
  simp only [addf_apply, mulf_apply, subf_apply, rsqrt_apply, broadcast_apply, broadcastTo_1b_ab_apply]
  rw [kColStat x0 hred hφ hacc hc 0x42800000#32 0 j, kColStat _ hred hφ hacc hc 0x42800000#32 0 j]
  simp only [mulf_apply, subf_apply, broadcastTo_1b_ab_apply, kColStat x0 hred hφ hacc hc 0x42800000#32 0 j]
  rfl

/-- THE PAYLOAD: the kernel's stored value, as a function of the nine loaded blocks, is `G5` of them. -/
theorem pay_eq (x0 : Vec Ideal S64x64 .f32) (x1 x2 : Vec Ideal S1x64 .f32) (x3 : Vec Ideal S64x64 .f32) (x4 : Vec Ideal S1x64 .f32)
    (x5 : Vec Ideal S64x64 .f32) (x6 : Vec Ideal S1x64 .f32) (x7 : Vec Ideal S64x1 .f32) (x8 : Vec Ideal S1x1 .f32) :
    Gen.k5_pay1 (F := Ideal) (Gen.k5_pay2 x0 x1 x2 x3 x4 x5) x6 x7 x8 = G5 x0 x1 x2 x3 x4 x5 x6 x7 x8 := by
  funext i
  obtain ⟨r, c, rfl⟩ : ∃ (r : Fin 64) (c : Fin 1), i = ix2 r c := ⟨i 0, i 1, eq_ix2 i⟩
  rw [G5_apply]
  unfold Gen.k5_pay1 Gen.k5_pay2
  refine kAff _ rfl _ _ _ _ _ _ _ _ (fun r j => ?_) r c
  refine kAff _ rfl _ _ _ _ _ _ _ _ (fun r j => ?_) r j
  refine kAff _ rfl _ _ _ _ _ _ _ _ (fun r j => ?_) r j
  exact kBn x0 x1 x2 _ _ _ _ _ _ _ r j

variable (V : (c : Dev nD) → (b : Ref sig .tc) → Buf (Elt Ideal) ((c : Thread nD τ).loc b))

/-- The zero offset of a whole-block access. -/
theorem hz2 : (![0, 0] : Fin 2 → Nat) = fun _ => 0 := funext fun a => by fin_cases a <;> rfl

/-- Window 0's one block is its whole array. -/
theorem blk0 (c : Dev nD) (t : Fin cfg5.N) : iblk5 V c 0 t = V c main_v78 := by
  obtain rfl := fin_N5 t
  funext y
  show V c main_v78 (((cfg5.win 0).blk t5_0).view.emb y) = V c main_v78 y
  refine congrArg _ (funext fun a => Fin.ext ?_)
  match a with
  | ⟨0, _⟩ => show 0 * 64 + 1 * (y 0).val = (y 0).val; omega
  | ⟨1, _⟩ => show 0 * 64 + 1 * (y 1).val = (y 1).val; omega
/-- Window 1's one block is its whole array. -/
theorem blk1 (c : Dev nD) (t : Fin cfg5.N) : iblk5 V c 1 t = V c main_v79 := by
  obtain rfl := fin_N5 t
  funext y
  show V c main_v79 (((cfg5.win 1).blk t5_0).view.emb y) = V c main_v79 y
  refine congrArg _ (funext fun a => Fin.ext ?_)
  match a with
  | ⟨0, _⟩ => show 0 * 1 + 1 * (y 0).val = (y 0).val; omega
  | ⟨1, _⟩ => show 0 * 64 + 1 * (y 1).val = (y 1).val; omega
/-- Window 2's one block is its whole array. -/
theorem blk2 (c : Dev nD) (t : Fin cfg5.N) : iblk5 V c 2 t = V c main_v80 := by
  obtain rfl := fin_N5 t
  funext y
  show V c main_v80 (((cfg5.win 2).blk t5_0).view.emb y) = V c main_v80 y
  refine congrArg _ (funext fun a => Fin.ext ?_)
  match a with
  | ⟨0, _⟩ => show 0 * 1 + 1 * (y 0).val = (y 0).val; omega
  | ⟨1, _⟩ => show 0 * 64 + 1 * (y 1).val = (y 1).val; omega
/-- Window 3's one block is its whole array. -/
theorem blk3 (c : Dev nD) (t : Fin cfg5.N) : iblk5 V c 3 t = V c main_arg11 := by
  obtain rfl := fin_N5 t
  funext y
  show V c main_arg11 (((cfg5.win 3).blk t5_0).view.emb y) = V c main_arg11 y
  refine congrArg _ (funext fun a => Fin.ext ?_)
  match a with
  | ⟨0, _⟩ => show 0 * 64 + 1 * (y 0).val = (y 0).val; omega
  | ⟨1, _⟩ => show 0 * 64 + 1 * (y 1).val = (y 1).val; omega
/-- Window 4's one block is its whole array. -/
theorem blk4 (c : Dev nD) (t : Fin cfg5.N) : iblk5 V c 4 t = V c main_v81 := by
  obtain rfl := fin_N5 t
  funext y
  show V c main_v81 (((cfg5.win 4).blk t5_0).view.emb y) = V c main_v81 y
  refine congrArg _ (funext fun a => Fin.ext ?_)
  match a with
  | ⟨0, _⟩ => show 0 * 1 + 1 * (y 0).val = (y 0).val; omega
  | ⟨1, _⟩ => show 0 * 64 + 1 * (y 1).val = (y 1).val; omega
/-- Window 5's one block is its whole array. -/
theorem blk5 (c : Dev nD) (t : Fin cfg5.N) : iblk5 V c 5 t = V c main_arg13 := by
  obtain rfl := fin_N5 t
  funext y
  show V c main_arg13 (((cfg5.win 5).blk t5_0).view.emb y) = V c main_arg13 y
  refine congrArg _ (funext fun a => Fin.ext ?_)
  match a with
  | ⟨0, _⟩ => show 0 * 64 + 1 * (y 0).val = (y 0).val; omega
  | ⟨1, _⟩ => show 0 * 64 + 1 * (y 1).val = (y 1).val; omega
/-- Window 6's one block is its whole array. -/
theorem blk6 (c : Dev nD) (t : Fin cfg5.N) : iblk5 V c 6 t = V c main_v82 := by
  obtain rfl := fin_N5 t
  funext y
  show V c main_v82 (((cfg5.win 6).blk t5_0).view.emb y) = V c main_v82 y
  refine congrArg _ (funext fun a => Fin.ext ?_)
  match a with
  | ⟨0, _⟩ => show 0 * 1 + 1 * (y 0).val = (y 0).val; omega
  | ⟨1, _⟩ => show 0 * 64 + 1 * (y 1).val = (y 1).val; omega
/-- Window 7's one block is its whole array. -/
theorem blk7 (c : Dev nD) (t : Fin cfg5.N) : iblk5 V c 7 t = V c main_arg15 := by
  obtain rfl := fin_N5 t
  funext y
  show V c main_arg15 (((cfg5.win 7).blk t5_0).view.emb y) = V c main_arg15 y
  refine congrArg _ (funext fun a => Fin.ext ?_)
  match a with
  | ⟨0, _⟩ => show 0 * 64 + 1 * (y 0).val = (y 0).val; omega
  | ⟨1, _⟩ => show 0 * 1 + 1 * (y 1).val = (y 1).val; omega
/-- Window 8's one block is its whole array. -/
theorem blk8 (c : Dev nD) (t : Fin cfg5.N) : iblk5 V c 8 t = V c main_v83 := by
  obtain rfl := fin_N5 t
  funext y
  show V c main_v83 (((cfg5.win 8).blk t5_0).view.emb y) = V c main_v83 y
  refine congrArg _ (funext fun a => Fin.ext ?_)
  match a with
  | ⟨0, _⟩ => show 0 * 1 + 1 * (y 0).val = (y 0).val; omega
  | ⟨1, _⟩ => show 0 * 1 + 1 * (y 1).val = (y 1).val; omega

/-- WHAT THE ONE POINT WRITES BACK is the one block of `G5` of the arrays as the region finds them. -/
theorem flushed9_eq (c : Dev nD) (t : Fin cfg5.N) :
    (dat5 V c).flushed 9 t = ((cfg5.win 9).blk t).view.read (Elt Ideal)
      (G5 (V c main_v78) (V c main_v79) (V c main_v80) (V c main_arg11) (V c main_v81) (V c main_arg13) (V c main_v82) (V c main_arg15) (V c main_v83)) := by
  show (cfg5.win 9).cut (grid5.coords t) ((dat5 V c).after 9 t) = _
  rw [after5_9]
  unfold out5_9
  rw [View.canon_unit_zero hz2]
  simp only [View.ld_unit_zero (S := S64x64) hz2, View.ld_unit_zero (S := S1x64) hz2, View.ld_unit_zero (S := S64x1) hz2, View.ld_unit_zero (S := S1x1) hz2]
  rw [pay_eq, blk0 V c t, blk1 V c t, blk2 V c t, blk3 V c t, blk4 V c t, blk5 V c t, blk6 V c t, blk7 V c t, blk8 V c t]
  generalize G5 (V c main_v78) (V c main_v79) (V c main_v80) (V c main_arg11) (V c main_v81) (V c main_arg13) (V c main_v82) (V c main_arg15) (V c main_v83) = G
  obtain rfl := fin_N5 t
  funext y
  show G y = G (((cfg5.win 9).blk t5_0).view.emb y)
  refine congrArg G (funext fun a => Fin.ext ?_)
  match a with
  | ⟨0, _⟩ => show (y 0).val = 0 * 64 + 1 * (y 0).val; omega
  | ⟨1, _⟩ => show (y 1).val = 0 * 1 + 1 * (y 1).val; omega

/-- An index of the output is in the point's block iff each coordinate is in the block's range on its axis. -/
theorem mem_blk9 (t : Fin cfg5.N) (i : S64x1.Idx) :
    i ∈ ((cfg5.win 9).blk t).view.set ↔ ∀ a : Fin 2, win5_9.index t a * S64x1.size a ≤ (i a).val ∧ (i a).val < win5_9.index t a * S64x1.size a + S64x1.size a := by
  show i ∈ ((View.whole main_v84).slice (win5_9.rect t)).set ↔ _
  rw [View.set_slice_whole, Rect.mem_set_unit]
  exact Iff.rfl

/-- The one point's block covers the output. -/
theorem cover9 (i : S64x1.Idx) : ∃ t : Fin cfg5.N, (cfg5.win 9).flush t = true ∧ i ∈ ((cfg5.win 9).blk t).view.set := by
  refine ⟨t5_0, flush5_9 t5_0, ?_⟩
  rw [mem_blk9]
  intro a
  match a with
  | ⟨0, _⟩ =>
    show 0 * 64 ≤ (i 0).val ∧ (i 0).val < 0 * 64 + 64
    have := idx2_lt0 i; omega
  | ⟨1, _⟩ =>
    show 0 * 1 ≤ (i 1).val ∧ (i 1).val < 0 * 1 + 1
    have := idx2_lt1 i; omega

/-- THE OUTPUT ARRAY after region 5: `G5` of the arrays the region finds. -/
theorem final5 (c : Dev nD) : (Gen.dat5 V c).arrAt 9 cfg5.N = G5 (V c main_v78) (V c main_v79) (V c main_v80) (V c main_arg11) (V c main_v81) (V c main_arg13) (V c main_v82) (V c main_arg15) (V c main_v83) :=
  (dat5 V c).arrAt_eq_of_cover 9 (G5 (V c main_v78) (V c main_v79) (V c main_v80) (V c main_arg11) (V c main_v81) (V c main_arg13) (V c main_v82) (V c main_arg15) (V c main_v83)) (fun t _ => flushed9_eq V c t) cover9

end Cert.KernelIdeal.HeadValue
end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.HeadRef.lean ====
import proofs.«168348_j77421080478261_2_alg».proof.Proof.RefOps
import proofs.«168348_j77421080478261_2_alg».proof.Proof.LibTypedRef
import proofs.«168348_j77421080478261_2_alg».proof.Proof.SpecHead
import proofs.«168348_j77421080478261_2_alg».proof.Proof.LibPlainOps

/-!
# The reference's last block computes `G5`

The reference's operations from the pooled rows to the output — the column mean, the library variance (its own mean,
the squared differences' sum over the divisor 64 minus the converted integer zero, selected where that divisor is
positive, which it always is), the normalisation, and three dense layers each with its bias vector broadcast down the
rows — read at an index: the mean at either of its two shapes is the column sum over the word of 64 (`hColStat`,
`hColStatRow`); the divisor is the word of 64 and the comparison holds, so the selection returns the quotient; the
normalised entry is `bnAt` (`hBn`); a product plus a broadcast bias is `affAt` (`hAff`); three of them give `G5` at the
arguments, the parameter vectors laid as one-row matrices (`head_ref`). No finiteness is used: both sides are the same
extended-real expression entry by entry.
-/

noncomputable section
namespace Cert.KernelIdeal.HeadValue
open Idealize.ShloMosaic Idealize.ShloMosaic.TcCoe Idealize.SL.Sem Idealize.ShloMosaic.StableHlo
open Idealize.ShloMosaic.ValueIdx
open scoped BigOperators

/-- The host's reciprocal square root at an index is the element's. -/
theorem hostRsqrt_apply {s : Shape} {φ : FTy} (a : FVec Ideal s φ) (i : s.Idx) : Host.rsqrt a i = Ideal.rsqrt (a i) := rfl
/-- The host's quotient at an index is the elements'. -/
theorem hostDivf_apply {s : Shape} {φ : FTy} (a b : FVec Ideal s φ) (i : s.Idx) : Host.divf a b i = Ideal.div (a i) (b i) := rfl

/-- A column mean as the host spells it at shape [64]: the sum over axis 0 from a zero initial value, divided by a
    broadcast scalar word. -/
theorem hColStat (X : FVec Ideal ⟨2, ![64, 64]⟩ .f32) (hR : (⟨2, ![64, 64]⟩ : Shape).ReducesTo [0] ⟨1, ![64]⟩)
    (hS : 0 < (⟨0, ![]⟩ : Shape).numel) (b0 : (⟨0, ![]⟩ : Shape).BroadcastsInDim ⟨1, ![64]⟩ ![])
    (d : FVec Ideal ⟨0, ![]⟩ .f32) (j : Fin 64) :
    Host.divf (Host.reduceAdd X (constant (F := Ideal) ⟨0, ![]⟩ .f32 0x00000000#32) hR hS) (broadcastInDim ⟨1, ![64]⟩ ![] b0 d) (ix1 j)
      = Ideal.div (∑ r : Fin 64, X (ix2 r j)) (d ix0) := by
  show Ideal.div (Host.reduceAdd X (constant (F := Ideal) ⟨0, ![]⟩ .f32 0x00000000#32) hR hS (ix1 j)) (broadcastInDim ⟨1, ![64]⟩ ![] b0 d (ix1 j)) = _
  rw [PlainOps.hostReduceAdd_col X _ hR hS (by decide) j, PlainOps.broadcastInDim_scalar_apply]
  show Ideal.div (Ideal.ofBits .f32 0x00000000#32 + _) _ = _
  rw [Ideal.ofBits_zero_f32, zero_add]

/-- The same mean spelt at shape [1, 64]: the sum laid as one row, divided by a broadcast scalar word. -/
theorem hColStatRow (X : FVec Ideal ⟨2, ![64, 64]⟩ .f32) (hR : (⟨2, ![64, 64]⟩ : Shape).ReducesTo [0] ⟨1, ![64]⟩)
    (hS : 0 < (⟨0, ![]⟩ : Shape).numel) (b1 : (⟨1, ![64]⟩ : Shape).BroadcastsInDim ⟨2, ![1, 64]⟩ ![1])
    (b0 : (⟨0, ![]⟩ : Shape).BroadcastsInDim ⟨2, ![1, 64]⟩ ![])
    (d : FVec Ideal ⟨0, ![]⟩ .f32) (u : Fin 1) (j : Fin 64) :
    Host.divf (broadcastInDim ⟨2, ![1, 64]⟩ ![1] b1 (Host.reduceAdd X (constant (F := Ideal) ⟨0, ![]⟩ .f32 0x00000000#32) hR hS))
        (broadcastInDim ⟨2, ![1, 64]⟩ ![] b0 d) (ix2 u j)
      = Ideal.div (∑ r : Fin 64, X (ix2 r j)) (d ix0) := by
  show Ideal.div (broadcastInDim ⟨2, ![1, 64]⟩ ![1] b1 (Host.reduceAdd X (constant (F := Ideal) ⟨0, ![]⟩ .f32 0x00000000#32) hR hS) (ix2 u j))
      (broadcastInDim ⟨2, ![1, 64]⟩ ![] b0 d (ix2 u j)) = _
  rw [PlainOps.broadcastInDim_asRow_apply, PlainOps.hostReduceAdd_col X _ hR hS (by decide) j, PlainOps.broadcastInDim_scalar_apply]
  show Ideal.div (Ideal.ofBits .f32 0x00000000#32 + _) _ = _
  rw [Ideal.ofBits_zero_f32, zero_add]

/-- An affine layer as the host spells it: the product, plus the bias vector laid as a row and broadcast down the rows;
    `x` is what the left operand reads entry by entry, `b` the bias as a one-row matrix. -/
theorem hAff {k n : Nat} (D : DotDims ⟨2, ![64, k]⟩ ⟨2, ![k, n]⟩ ⟨2, ![64, n]⟩) (hD : D = DotDims.plain 64 k n)
    (X : FVec Ideal ⟨2, ![64, k]⟩ .f32) (W : FVec Ideal ⟨2, ![k, n]⟩ .f32) (bv : FVec Ideal ⟨1, ![n]⟩ .f32)
    (h1 : (⟨1, ![n]⟩ : Shape).BroadcastsInDim ⟨2, ![1, n]⟩ ![1]) (h2 : (⟨2, ![1, n]⟩ : Shape).BroadcastsInDim ⟨2, ![64, n]⟩ ![0, 1])
    (b : Mat 1 n) (hb : ∀ c, bv (ix1 c) = b (ix2 0 c))
    (x : Fin 64 → Fin k → EReal) (hX : ∀ r j, X (ix2 r j) = x r j) (r : Fin 64) (c : Fin n) :
    addf (Host.dotGeneral D none X W) (broadcastInDim ⟨2, ![64, n]⟩ ![0, 1] h2 (broadcastInDim ⟨2, ![1, n]⟩ ![1] h1 bv)) (ix2 r c)
      = affAt x W b r c := by
  show Host.dotGeneral D none X W (ix2 r c) + broadcastInDim ⟨2, ![64, n]⟩ ![0, 1] h2 (broadcastInDim ⟨2, ![1, n]⟩ ![1] h1 bv) (ix2 r c) = _
  rw [PlainOps.dotGeneral_apply D hD, broadcastInDim_oneRow_apply, PlainOps.broadcastInDim_asRow_apply, hb]
  unfold affAt
  exact congrArg (· + b (ix2 0 c)) (Finset.sum_congr rfl fun j _ => by rw [hX])

/-- The normalisation as the host spells it — the mean at shape [64], the variance by the library function (its own
    mean at shape [1, 64], the divisor 64 minus the converted integer zero, the quotient selected where that divisor is
    positive) — is `bnAt`. -/
theorem hBn (g : FVec Ideal ⟨2, ![64, 64]⟩ .f32) (gv bv : FVec Ideal ⟨1, ![64]⟩ .f32)
    (hR : (⟨2, ![64, 64]⟩ : Shape).ReducesTo [0] ⟨1, ![64]⟩) (hS : 0 < (⟨0, ![]⟩ : Shape).numel)
    (b0 : (⟨0, ![]⟩ : Shape).BroadcastsInDim ⟨1, ![64]⟩ ![]) (b0' : (⟨0, ![]⟩ : Shape).BroadcastsInDim ⟨2, ![1, 64]⟩ ![])
    (b1 : (⟨1, ![64]⟩ : Shape).BroadcastsInDim ⟨2, ![1, 64]⟩ ![1])
    (b2 : (⟨2, ![1, 64]⟩ : Shape).BroadcastsInDim ⟨2, ![64, 64]⟩ ![0, 1])
    (gam bet : Mat 1 64) (hgam : ∀ j, gv (ix1 j) = gam (ix2 0 j)) (hbet : ∀ j, bv (ix1 j) = bet (ix2 0 j)) (r j : Fin 64) :
    (have zero : FVec Ideal ⟨0, ![]⟩ .f32 := constant ⟨0, ![]⟩ .f32 0x00000000#32
     have w64 : FVec Ideal ⟨0, ![]⟩ .f32 := constant ⟨0, ![]⟩ .f32 0x42800000#32
     have mean : FVec Ideal ⟨1, ![64]⟩ .f32 := Host.divf (Host.reduceAdd g zero hR hS) (broadcastInDim ⟨1, ![64]⟩ ![] b0 w64)
     have dd : FVec Ideal ⟨2, ![64, 64]⟩ .f32 := subf g (broadcastInDim ⟨2, ![64, 64]⟩ ![0, 1] b2
        (Host.divf (broadcastInDim ⟨2, ![1, 64]⟩ ![1] b1 (Host.reduceAdd g zero hR hS)) (broadcastInDim ⟨2, ![1, 64]⟩ ![] b0' w64)))
     have nn : FVec Ideal ⟨0, ![]⟩ .f32 := subf w64 (sitofp .f32 (constantI ⟨0, ![]⟩ 32 0#32))
     have varq : FVec Ideal ⟨1, ![64]⟩ .f32 := Host.divf (Host.reduceAdd (mulf dd dd) zero hR hS) (broadcastInDim ⟨1, ![64]⟩ ![] b0 nn)
     have var : FVec Ideal ⟨1, ![64]⟩ .f32 := select (broadcastInDim ⟨1, ![64]⟩ ![] b0 (cmpf .ogt nn zero)) varq
        (broadcastInDim ⟨1, ![64]⟩ ![] b0 (id (constant ⟨0, ![]⟩ .f32 0x7FC00000#32)))
     addf (mulf (mulf (subf g (broadcastInDim ⟨2, ![64, 64]⟩ ![0, 1] b2 (broadcastInDim ⟨2, ![1, 64]⟩ ![1] b1 mean)))
            (broadcastInDim ⟨2, ![64, 64]⟩ ![0, 1] b2 (broadcastInDim ⟨2, ![1, 64]⟩ ![1] b1
              (Host.rsqrt (addf var (broadcastInDim ⟨1, ![64]⟩ ![] b0 (constant ⟨0, ![]⟩ .f32 0x3727C5AC#32)))))))
          (broadcastInDim ⟨2, ![64, 64]⟩ ![0, 1] b2 (broadcastInDim ⟨2, ![1, 64]⟩ ![1] b1 gv)))
        (broadcastInDim ⟨2, ![64, 64]⟩ ![0, 1] b2 (broadcastInDim ⟨2, ![1, 64]⟩ ![1] b1 bv))) (ix2 r j) = bnAt g gam bet r j := by
  dsimp only
  simp only [addf_apply, mulf_apply, subf_apply]
  rw [broadcastInDim_oneRow_apply b2 _ r j, broadcastInDim_oneRow_apply b2 _ r j, broadcastInDim_oneRow_apply b2 _ r j,
    broadcastInDim_oneRow_apply b2 _ r j]
  rw [PlainOps.broadcastInDim_asRow_apply b1 _ 0 j, PlainOps.broadcastInDim_asRow_apply b1 _ 0 j,
    PlainOps.broadcastInDim_asRow_apply b1 _ 0 j, PlainOps.broadcastInDim_asRow_apply b1 _ 0 j, hgam, hbet]
  rw [hColStat g hR hS b0 _ j, hostRsqrt_apply, addf_apply, select_apply]
  rw [PlainOps.broadcastInDim_scalar_apply b0 _ (ix1 j), PlainOps.broadcastInDim_scalar_apply b0 _ (ix1 j),
    PlainOps.broadcastInDim_scalar_apply b0 _ (ix1 j)]
  rw [hColStat _ hR hS b0 _ j]
  have hn : (subf (constant (F := Ideal) ⟨0, ![]⟩ .f32 0x42800000#32) (sitofp .f32 (constantI ⟨0, ![]⟩ 32 0#32)) : FVec Ideal ⟨0, ![]⟩ .f32) ix0
      = c64 := PlainOps.sub_sitofp_zero (Ideal.ofBits .f32 0x42800000#32)
  have hc : (cmpf .ogt (subf (constant (F := Ideal) ⟨0, ![]⟩ .f32 0x42800000#32) (sitofp .f32 (constantI ⟨0, ![]⟩ 32 0#32)) : FVec Ideal ⟨0, ![]⟩ .f32)
      (constant (F := Ideal) ⟨0, ![]⟩ .f32 0x00000000#32)) ix0 = 1#1 := by
    show Ideal.cmp .ogt ((subf (constant (F := Ideal) ⟨0, ![]⟩ .f32 0x42800000#32) (sitofp .f32 (constantI ⟨0, ![]⟩ 32 0#32)) : FVec Ideal ⟨0, ![]⟩ .f32) ix0)
      (Ideal.ofBits .f32 0x00000000#32) = 1#1
    rw [hn, Ideal.ofBits_zero_f32]
    simp [Ideal.cmp, c64, PlainOps.ofBits_64_pos]
  rw [hc, select_one, hn]
  simp only [mulf_apply, subf_apply, broadcastInDim_oneRow_apply b2, hColStatRow g hR hS b1 b0']
  rfl

open Cert.ReferenceIdeal in
set_option maxHeartbeats 400000 in
/-- THE REFERENCE'S HEAD: after the last block of operations, from any contents `Y`, the output buffer holds `G5` of the
    pooled rows and the head's parameters as `Y` has them. -/
theorem head_ref (Y : Valuation Cert.ReferenceIdeal.τ Cert.ReferenceIdeal.sig (Elt Ideal)) :
    StableHlo.after (Cert.ReferenceIdeal.RefRun.B15 (F := Ideal)) Y (Cert.ReferenceIdeal.main_v146 : DevRef _ _)
      = G5 (Y main_v115) (r64 (Y main_arg9)) (r64 (Y main_arg10)) (Y main_arg11) (r64 (Y main_arg12)) (Y main_arg13)
          (r64 (Y main_arg14)) (Y main_arg15) (r1 (Y main_arg16)) := by
  after_results_simp
  simp only [Cert.TypedRef.ofBuf_toBuf]
  refine funext fun (i : (⟨2, ![64, 1]⟩ : Shape).Idx) => ?_
  obtain ⟨r, c, rfl⟩ : ∃ (r : Fin 64) (c : Fin 1), i = ix2 r c := ⟨i 0, i 1, eq_ix2 i⟩
  rw [G5_apply]
  refine hAff _ rfl _ _ _ _ _ _ (fun c => (r1_apply _ 0 c).symm) _ (fun r j => ?_) r c
  refine hAff _ rfl _ _ _ _ _ _ (fun c => (r64_apply _ 0 c).symm) _ (fun r j => ?_) r j
  refine hAff _ rfl _ _ _ _ _ _ (fun c => (r64_apply _ 0 c).symm) _ (fun r j => ?_) r j
  exact hBn _ _ _ _ _ _ _ _ _ _ _ (fun j => (r64_apply _ 0 j).symm) (fun j => (r64_apply _ 0 j).symm) r j

end Cert.KernelIdeal.HeadValue
end
-- ==== Proof.Bridge3.lean ====
/-
  The pooled head. The node features summed per graph are the reference's; the five parameter rows the last region
  reads are the argument vectors as one-row matrices; region 5 computes, from those, the function the reference's
  last block of host operations computes (batch normalisation over the 64 graphs, then three dense layers). With it
  the kernel program's result array, at the ideal values, is the reference's.
-/
import proofs.«168348_j77421080478261_2_alg».proof.Proof.Bridge2
import proofs.«168348_j77421080478261_2_alg».proof.Proof.Region5
import proofs.«168348_j77421080478261_2_alg».proof.Proof.HeadRef

set_option maxRecDepth 16384

noncomputable section

namespace Cert.Bridge

open Idealize.ShloMosaic Idealize.ShloMosaic.TcCoe Idealize.ShloMosaic.StableHlo Idealize.SL.Sem
open Cert.KernelIdeal.Gen Cert.KernelIdeal.KHops Cert.ReferenceIdeal.RefRun Cert.KernelIdeal.RegionValue Cert.KernelIdeal.HeadValue

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

attribute [local irreducible] Host.reduceAdd Host.reduce Host.gather Host.scatterAdd

/-- The second layer's rows summed per graph. -/
theorem pool_eq (h : Agree m m' c) :
    W13 m ρ c (Proc.devRef .tc Cert.KernelIdeal.main_v78) = U14 (L m' c) (Proc.devRef .tc Cert.ReferenceIdeal.main_v115) := by
  unfold W13 U14
  eval_step
  rw [out2_eq m ρ m' c h, arg2_W12, ← L_arg2 m ρ m' c h, hop_arg2_13]
  first | rfl | skip

theorem gamma_eq (h : Agree m m' c) : W13 m ρ c (Proc.devRef .tc Cert.KernelIdeal.main_v79) = r64 (L m' c (Proc.devRef .tc Cert.ReferenceIdeal.main_arg9)) := by
  unfold W13 r64
  eval_step
  rw [arg9_W12, ← L_arg9 m ρ m' c h]
  first | rfl | skip
theorem beta_eq (h : Agree m m' c) : W13 m ρ c (Proc.devRef .tc Cert.KernelIdeal.main_v80) = r64 (L m' c (Proc.devRef .tc Cert.ReferenceIdeal.main_arg10)) := by
  unfold W13 r64
  eval_step
  rw [arg10_W12, ← L_arg10 m ρ m' c h]
  first | rfl | skip
theorem bias3_eq (h : Agree m m' c) : W13 m ρ c (Proc.devRef .tc Cert.KernelIdeal.main_v81) = r64 (L m' c (Proc.devRef .tc Cert.ReferenceIdeal.main_arg12)) := by
  unfold W13 r64
  eval_step
  rw [arg12_W12, ← L_arg12 m ρ m' c h]
  first | rfl | skip
theorem bias4_eq (h : Agree m m' c) : W13 m ρ c (Proc.devRef .tc Cert.KernelIdeal.main_v82) = r64 (L m' c (Proc.devRef .tc Cert.ReferenceIdeal.main_arg14)) := by
  unfold W13 r64
  eval_step
  rw [arg14_W12, ← L_arg14 m ρ m' c h]
  first | rfl | skip
theorem bias5_eq (h : Agree m m' c) : W13 m ρ c (Proc.devRef .tc Cert.KernelIdeal.main_v83) = r1 (L m' c (Proc.devRef .tc Cert.ReferenceIdeal.main_arg16)) := by
  unfold W13 r1
  eval_step
  rw [arg16_W12, ← L_arg16 m ρ m' c h]
  first | rfl | skip

/-- Region 5's output is the reference's result. -/
theorem head_eq (h : Agree m m' c) :
    W14 m ρ c (Proc.devRef .tc Cert.KernelIdeal.main_v84) = U15 (L m' c) (Proc.devRef .tc Cert.ReferenceIdeal.main_v146) := by
  rw [W14_out, final5 (V13 m ρ) c]
  show G5 (W13 m ρ c (Proc.devRef .tc Cert.KernelIdeal.main_v78)) (W13 m ρ c (Proc.devRef .tc Cert.KernelIdeal.main_v79)) (W13 m ρ c (Proc.devRef .tc Cert.KernelIdeal.main_v80))
    (W13 m ρ c (Proc.devRef .tc Cert.KernelIdeal.main_arg11)) (W13 m ρ c (Proc.devRef .tc Cert.KernelIdeal.main_v81)) (W13 m ρ c (Proc.devRef .tc Cert.KernelIdeal.main_arg13))
    (W13 m ρ c (Proc.devRef .tc Cert.KernelIdeal.main_v82)) (W13 m ρ c (Proc.devRef .tc Cert.KernelIdeal.main_arg15)) (W13 m ρ c (Proc.devRef .tc Cert.KernelIdeal.main_v83)) = _
  rw [pool_eq m ρ m' c h, gamma_eq m ρ m' c h, beta_eq m ρ m' c h, arg11_W13, ← L_arg11 m ρ m' c h,
    bias3_eq m ρ m' c h, arg13_W13, ← L_arg13 m ρ m' c h, bias4_eq m ρ m' c h, arg15_W13, ← L_arg15 m ρ m' c h,
    bias5_eq m ρ m' c h]
  unfold U15
  rw [head_ref (U14 (L m' c)), hop_arg9_14, hop_arg10_14, hop_arg11_14, hop_arg12_14, hop_arg13_14, hop_arg14_14,
    hop_arg15_14, hop_arg16_14]

/-- The reference's whole line of operations, read at its result, gives the kernel program's result array. -/
theorem result_eq (h : Agree m m' c) :
    after ops (L m' c) (Proc.devRef .tc Cert.ReferenceIdeal.main_v146) = W14 m ρ c (Proc.devRef .tc Cert.KernelIdeal.main_v84) := by
  rw [ops_fold]
  exact (head_eq m ρ m' c h).symm

end Cert.Bridge

end
-- ==== Proof.lean ====
/-
  The certificate of a two-layer graph convolution with a pooled head: a Pallas kernel program of six regions among
  host operations against a plain jnp reference.

  At the ideal instance a float is an extended real and a change of float format is the identity, so each region is
  the whole-array function its body spells on row blocks: region 0 and the end of region 2 are products with a weight
  matrix (a matrix unit into a zero accumulator is the plain sum the reference's dot_general is), regions 1 and 3
  scale every gathered row by its edge's weight, regions 2 and 4 add the self term and the bias row, and region 5 is
  the batch normalisation over the 64 pooled rows followed by three dense layers. Everything between the regions —
  the degrees, the edge weights, the input batch normalisation, the gathers, the scatter-adds, the pooling — is the
  same host operation on both sides. The two programs therefore compute, entry by entry, the same extended-real
  expression of the arguments; no entry's finiteness is used.

  The three frames: the two kernel programs' are the generated frame certificates; the reference's is its run (the
  line of its 220 host operations) with the arguments read back. The ideal pass rewrote nothing, so `preserves` is
  `True`.
-/
import proofs.«168348_j77421080478261_2_alg».proof.Defs
import proofs.«168348_j77421080478261_2_alg».proof.Proof.Gen.Kernel
import proofs.«168348_j77421080478261_2_alg».proof.Proof.Gen.Kernel.Frame
import proofs.«168348_j77421080478261_2_alg».proof.Proof.Gen.KernelIdeal
import proofs.«168348_j77421080478261_2_alg».proof.Proof.Gen.KernelIdeal.Frame
import proofs.«168348_j77421080478261_2_alg».proof.Proof.Gen.ReferenceIdeal
import proofs.«168348_j77421080478261_2_alg».proof.Proof.Gen.Pre_finite_inputs
import proofs.«168348_j77421080478261_2_alg».proof.Proof.KRun
import proofs.«168348_j77421080478261_2_alg».proof.Proof.RefFrame
import proofs.«168348_j77421080478261_2_alg».proof.Proof.Bridge3
import Idealize.ShloMosaic.Adequacy
import Idealize.ShloMosaic.Init

noncomputable section

namespace Cert.Proof

open Idealize.ShloMosaic Idealize.ShloMosaic.TcCoe Idealize.ShloMosaic.StableHlo Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => Cert.ReferenceIdeal.RefRun.frame_ref (F := Ideal) m ρ

/-- Both programs, read at the ideal values, end, from memories agreeing on the arguments, with the same result array: the kernel's is
    what its last region's write-backs leave, and the reference's line of operations gives that same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W14 m ρ c (Proc.devRef .tc Cert.KernelIdeal.main_v84),
    Cert.KernelIdeal.KRun.run_named m ρ, ?_⟩
  refine (θ_run Cert.ReferenceIdeal.defs _ _).mono (fun r h c => ?_) (Cert.ReferenceIdeal.RefRun.run_all (F := Ideal) m' ρ')
  exact ⟨(h c Cert.ReferenceIdeal.main_v146).trans (Cert.Bridge.result_eq m ρ m' c (hagree c)),
    (h c Cert.ReferenceIdeal.main_arg0).trans (Cert.ReferenceIdeal.RefRun.kept_arg0 _),
    (h c Cert.ReferenceIdeal.main_arg1).trans (Cert.ReferenceIdeal.RefRun.kept_arg1 _),
    (h c Cert.ReferenceIdeal.main_arg2).trans (Cert.ReferenceIdeal.RefRun.kept_arg2 _),
    (h c Cert.ReferenceIdeal.main_arg3).trans (Cert.ReferenceIdeal.RefRun.kept_arg3 _),
    (h c Cert.ReferenceIdeal.main_arg4).trans (Cert.ReferenceIdeal.RefRun.kept_arg4 _),
    (h c Cert.ReferenceIdeal.main_arg5).trans (Cert.ReferenceIdeal.RefRun.kept_arg5 _),
    (h c Cert.ReferenceIdeal.main_arg6).trans (Cert.ReferenceIdeal.RefRun.kept_arg6 _),
    (h c Cert.ReferenceIdeal.main_arg7).trans (Cert.ReferenceIdeal.RefRun.kept_arg7 _),
    (h c Cert.ReferenceIdeal.main_arg8).trans (Cert.ReferenceIdeal.RefRun.kept_arg8 _),
    (h c Cert.ReferenceIdeal.main_arg9).trans (Cert.ReferenceIdeal.RefRun.kept_arg9 _),
    (h c Cert.ReferenceIdeal.main_arg10).trans (Cert.ReferenceIdeal.RefRun.kept_arg10 _),
    (h c Cert.ReferenceIdeal.main_arg11).trans (Cert.ReferenceIdeal.RefRun.kept_arg11 _),
    (h c Cert.ReferenceIdeal.main_arg12).trans (Cert.ReferenceIdeal.RefRun.kept_arg12 _),
    (h c Cert.ReferenceIdeal.main_arg13).trans (Cert.ReferenceIdeal.RefRun.kept_arg13 _),
    (h c Cert.ReferenceIdeal.main_arg14).trans (Cert.ReferenceIdeal.RefRun.kept_arg14 _),
    (h c Cert.ReferenceIdeal.main_arg15).trans (Cert.ReferenceIdeal.RefRun.kept_arg15 _),
    (h c Cert.ReferenceIdeal.main_arg16).trans (Cert.ReferenceIdeal.RefRun.kept_arg16 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
